-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S16x3x64x1024 : Shape := ⟨4, ![16, 3, 64, 1024]⟩
abbrev S16x1x64x1024 : Shape := ⟨4, ![16, 1, 64, 1024]⟩
abbrev S16x64x1024 : Shape := ⟨3, ![16, 64, 1024]⟩
abbrev S16x3x64 : Shape := ⟨3, ![16, 3, 64]⟩
abbrev S16x1x64 : Shape := ⟨3, ![16, 1, 64]⟩
abbrev S16x64 : Shape := ⟨2, ![16, 64]⟩
abbrev S4096x1024 : Shape := ⟨2, ![4096, 1024]⟩
abbrev S1x3072 : Shape := ⟨2, ![1, 3072]⟩
abbrev S4096x3072 : Shape := ⟨2, ![4096, 3072]⟩
abbrev S1024x3072 : Shape := ⟨2, ![1024, 3072]⟩
abbrev S2x2048x3072 : Shape := ⟨3, ![2, 2048, 3072]⟩
abbrev S1x1024 : Shape := ⟨2, ![1, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S2048x1024 : Shape := ⟨2, ![2048, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 35
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S16x3x64x1024, .f32⟩
  | .hbm, ⟨6, _⟩ => ⟨S16x1x64x1024, .f32⟩
  | .hbm, ⟨7, _⟩ => ⟨S16x64x1024, .f32⟩
  | .hbm, ⟨8, _⟩ => ⟨S1024x1024, .f32⟩
  | .hbm, ⟨9, _⟩ => ⟨S16x1x64x1024, .f32⟩
  | .hbm, ⟨10, _⟩ => ⟨S16x64x1024, .f32⟩
  | .hbm, ⟨11, _⟩ => ⟨S1024x1024, .f32⟩
  | .hbm, ⟨12, _⟩ => ⟨S16x1x64x1024, .f32⟩
  | .hbm, ⟨13, _⟩ => ⟨S16x64x1024, .f32⟩
  | .hbm, ⟨14, _⟩ => ⟨S1024x1024, .f32⟩
  | .hbm, ⟨15, _⟩ => ⟨S3072x1024, .f32⟩
  | .hbm, ⟨16, _⟩ => ⟨S3072x1024, .bf16⟩
  | .hbm, ⟨17, _⟩ => ⟨S16x3x64, .f32⟩
  | .hbm, ⟨18, _⟩ => ⟨S16x1x64, .f32⟩
  | .hbm, ⟨19, _⟩ => ⟨S16x64, .f32⟩
  | .hbm, ⟨20, _⟩ => ⟨S1024, .f32⟩
  | .hbm, ⟨21, _⟩ => ⟨S16x1x64, .f32⟩
  | .hbm, ⟨22, _⟩ => ⟨S16x64, .f32⟩
  | .hbm, ⟨23, _⟩ => ⟨S1024, .f32⟩
  | .hbm, ⟨24, _⟩ => ⟨S16x1x64, .f32⟩
  | .hbm, ⟨25, _⟩ => ⟨S16x64, .f32⟩
  | .hbm, ⟨26, _⟩ => ⟨S1024, .f32⟩
  | .hbm, ⟨27, _⟩ => ⟨S3072, .f32⟩
  | .hbm, ⟨28, _⟩ => ⟨S1024x1024, .bf16⟩
  | .hbm, ⟨29, _⟩ => ⟨S4096x1024, .f32⟩
  | .hbm, ⟨30, _⟩ => ⟨S1x3072, .f32⟩
  | .hbm, ⟨31, _⟩ => ⟨S4096x3072, .bf16⟩
  | .hbm, ⟨32, _⟩ => ⟨S2x2048x3072, .bf16⟩
  | .hbm, ⟨33, _⟩ => ⟨S1x1024, .f32⟩
  | .hbm, ⟨34, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S3072x1024, .bf16⟩
  | .local _ .vmem, ⟨3, _⟩ => ⟨S1x3072, .f32⟩
  | .local _ .vmem, ⟨4, _⟩ => ⟨S1024x3072, .bf16⟩
  | .local _ .vmem, ⟨5, _⟩ => ⟨S1024x3072, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S3072x1024_S16x3x64x1024 : S3072x1024.ShapeCasts S16x3x64x1024
  slices_S16x3x64x1024_S16x1x64x1024_0_0_0_0 : S16x3x64x1024.Slices ![0, 0, 0, 0] S16x1x64x1024
  shapeCasts_S16x1x64x1024_S16x64x1024 : S16x1x64x1024.ShapeCasts S16x64x1024
  shapeCasts_S16x64x1024_S1024x1024 : S16x64x1024.ShapeCasts S1024x1024
  slices_S16x3x64x1024_S16x1x64x1024_0_1_0_0 : S16x3x64x1024.Slices ![0, 1, 0, 0] S16x1x64x1024
  slices_S16x3x64x1024_S16x1x64x1024_0_2_0_0 : S16x3x64x1024.Slices ![0, 2, 0, 0] S16x1x64x1024
  concatenates_S1024x1024_S1024x1024_S1024x1024_S3072x1024_d0 : Shape.Concatenates [S1024x1024, S1024x1024, S1024x1024] S3072x1024 0
  bitsLt_bf16_f32 : FTy.bits .bf16 < FTy.bits .f32
  shapeCasts_S3072_S16x3x64 : S3072.ShapeCasts S16x3x64
  slices_S16x3x64_S16x1x64_0_0_0 : S16x3x64.Slices ![0, 0, 0] S16x1x64
  shapeCasts_S16x1x64_S16x64 : S16x1x64.ShapeCasts S16x64
  shapeCasts_S16x64_S1024 : S16x64.ShapeCasts S1024
  slices_S16x3x64_S16x1x64_0_1_0 : S16x3x64.Slices ![0, 1, 0] S16x1x64
  slices_S16x3x64_S16x1x64_0_2_0 : S16x3x64.Slices ![0, 2, 0] S16x1x64
  concatenates_S1024_S1024_S1024_S3072_d0 : Shape.Concatenates [S1024, S1024, S1024] S3072 0
  shapeCasts_S2x2048x1024_S4096x1024 : S2x2048x1024.ShapeCasts S4096x1024
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  inb_S1024x3072_S1024x3072_0_0 : ∀ a, (![0, 0] : Fin 2 → Nat) a + S1024x3072.size a ≤ S1024x3072.size a
  h_S1024x3072 : 0 < S1024x3072.numel
  packedbf16_S1024x3072_S1024x3072_0_0 : (Rect.unit (s := S1024x3072) ![0, 0] S1024x3072.size inb_S1024x3072_S1024x3072_0_0).PackedRows (EltTy.packing .bf16)
  shapeCasts_S4096x3072_S2x2048x3072 : S4096x3072.ShapeCasts S2x2048x3072
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S512x1024_o0_0_S512x64 : S512x1024.Slices ![0, 0] S512x64
  slices_S2048x1024_o0_0_S2048x64 : S2048x1024.Slices ![0, 0] S2048x64
  reduces_S512x2048_S512 : S512x2048.Reduces [1] S512
  shapeCasts_S512_S512x1 : S512.ShapeCasts S512x1
  broadcasts_S512x1_S512x2048 : S512x1.Broadcasts S512x2048
  inb_S512x1024_S512x64_0_0 : ∀ a, (![0, 0] : Fin 2 → Nat) a + S512x64.size a ≤ S512x1024.size a
  h_S512x64 : 0 < S512x64.numel
  shapeCasts_S512x64_S512x64 : S512x64.ShapeCasts S512x64
  packedbf16_S512x1024_S512x64_0_0 : (Rect.unit (s := S512x1024) ![0, 0] S512x64.size inb_S512x1024_S512x64_0_0).PackedRows (EltTy.packing .bf16)
  slices_S512x1024_o0_64_S512x64 : S512x1024.Slices ![0, 64] S512x64
  slices_S2048x1024_o0_64_S2048x64 : S2048x1024.Slices ![0, 64] S2048x64
  inb_S512x1024_S512x64_0_64 : ∀ a, (![0, 64] : Fin 2 → Nat) a + S512x64.size a ≤ S512x1024.size a
  packedbf16_S512x1024_S512x64_0_64 : (Rect.unit (s := S512x1024) ![0, 64] S512x64.size inb_S512x1024_S512x64_0_64).PackedRows (EltTy.packing .bf16)
  slices_S512x1024_o0_128_S512x64 : S512x1024.Slices ![0, 128] S512x64
  slices_S2048x1024_o0_128_S2048x64 : S2048x1024.Slices ![0, 128] S2048x64
  inb_S512x1024_S512x64_0_128 : ∀ a, (![0, 128] : Fin 2 → Nat) a + S512x64.size a ≤ S512x1024.size a
  packedbf16_S512x1024_S512x64_0_128 : (Rect.unit (s := S512x1024) ![0, 128] S512x64.size inb_S512x1024_S512x64_0_128).PackedRows (EltTy.packing .bf16)
  slices_S512x1024_o0_192_S512x64 : S512x1024.Slices ![0, 192] S512x64
  slices_S2048x1024_o0_192_S2048x64 : S2048x1024.Slices ![0, 192] S2048x64
  inb_S512x1024_S512x64_0_192 : ∀ a, (![0, 192] : Fin 2 → Nat) a + S512x64.size a ≤ S512x1024.size a
  packedbf16_S512x1024_S512x64_0_192 : (Rect.unit (s := S512x1024) ![0, 192] S512x64.size inb_S512x1024_S512x64_0_192).PackedRows (EltTy.packing .bf16)
  slices_S512x1024_o0_256_S512x64 : S512x1024.Slices ![0, 256] S512x64
  slices_S2048x1024_o0_256_S2048x64 : S2048x1024.Slices ![0, 256] S2048x64
  inb_S512x1024_S512x64_0_256 : ∀ a, (![0, 256] : Fin 2 → Nat) a + S512x64.size a ≤ S512x1024.size a
  packedbf16_S512x1024_S512x64_0_256 : (Rect.unit (s := S512x1024) ![0, 256] S512x64.size inb_S512x1024_S512x64_0_256).PackedRows (EltTy.packing .bf16)
  slices_S512x1024_o0_320_S512x64 : S512x1024.Slices ![0, 320] S512x64
  slices_S2048x1024_o0_320_S2048x64 : S2048x1024.Slices ![0, 320] S2048x64
  inb_S512x1024_S512x64_0_320 : ∀ a, (![0, 320] : Fin 2 → Nat) a + S512x64.size a ≤ S512x1024.size a
  packedbf16_S512x1024_S512x64_0_320 : (Rect.unit (s := S512x1024) ![0, 320] S512x64.size inb_S512x1024_S512x64_0_320).PackedRows (EltTy.packing .bf16)
  slices_S512x1024_o0_384_S512x64 : S512x1024.Slices ![0, 384] S512x64
  slices_S2048x1024_o0_384_S2048x64 : S2048x1024.Slices ![0, 384] S2048x64
  inb_S512x1024_S512x64_0_384 : ∀ a, (![0, 384] : Fin 2 → Nat) a + S512x64.size a ≤ S512x1024.size a
  packedbf16_S512x1024_S512x64_0_384 : (Rect.unit (s := S512x1024) ![0, 384] S512x64.size inb_S512x1024_S512x64_0_384).PackedRows (EltTy.packing .bf16)
  slices_S512x1024_o0_448_S512x64 : S512x1024.Slices ![0, 448] S512x64
  slices_S2048x1024_o0_448_S2048x64 : S2048x1024.Slices ![0, 448] S2048x64
  inb_S512x1024_S512x64_0_448 : ∀ a, (![0, 448] : Fin 2 → Nat) a + S512x64.size a ≤ S512x1024.size a
  packedbf16_S512x1024_S512x64_0_448 : (Rect.unit (s := S512x1024) ![0, 448] S512x64.size inb_S512x1024_S512x64_0_448).PackedRows (EltTy.packing .bf16)
  slices_S512x1024_o0_512_S512x64 : S512x1024.Slices ![0, 512] S512x64
  slices_S2048x1024_o0_512_S2048x64 : S2048x1024.Slices ![0, 512] S2048x64
  inb_S512x1024_S512x64_0_512 : ∀ a, (![0, 512] : Fin 2 → Nat) a + S512x64.size a ≤ S512x1024.size a
  packedbf16_S512x1024_S512x64_0_512 : (Rect.unit (s := S512x1024) ![0, 512] S512x64.size inb_S512x1024_S512x64_0_512).PackedRows (EltTy.packing .bf16)
  slices_S512x1024_o0_576_S512x64 : S512x1024.Slices ![0, 576] S512x64
  slices_S2048x1024_o0_576_S2048x64 : S2048x1024.Slices ![0, 576] S2048x64
  inb_S512x1024_S512x64_0_576 : ∀ a, (![0, 576] : Fin 2 → Nat) a + S512x64.size a ≤ S512x1024.size a
  packedbf16_S512x1024_S512x64_0_576 : (Rect.unit (s := S512x1024) ![0, 576] S512x64.size inb_S512x1024_S512x64_0_576).PackedRows (EltTy.packing .bf16)
  slices_S512x1024_o0_640_S512x64 : S512x1024.Slices ![0, 640] S512x64
  slices_S2048x1024_o0_640_S2048x64 : S2048x1024.Slices ![0, 640] S2048x64
  inb_S512x1024_S512x64_0_640 : ∀ a, (![0, 640] : Fin 2 → Nat) a + S512x64.size a ≤ S512x1024.size a
  packedbf16_S512x1024_S512x64_0_640 : (Rect.unit (s := S512x1024) ![0, 640] S512x64.size inb_S512x1024_S512x64_0_640).PackedRows (EltTy.packing .bf16)
  slices_S512x1024_o0_704_S512x64 : S512x1024.Slices ![0, 704] S512x64
  slices_S2048x1024_o0_704_S2048x64 : S2048x1024.Slices ![0, 704] S2048x64
  inb_S512x1024_S512x64_0_704 : ∀ a, (![0, 704] : Fin 2 → Nat) a + S512x64.size a ≤ S512x1024.size a
  packedbf16_S512x1024_S512x64_0_704 : (Rect.unit (s := S512x1024) ![0, 704] S512x64.size inb_S512x1024_S512x64_0_704).PackedRows (EltTy.packing .bf16)
  slices_S512x1024_o0_768_S512x64 : S512x1024.Slices ![0, 768] S512x64
  slices_S2048x1024_o0_768_S2048x64 : S2048x1024.Slices ![0, 768] S2048x64
  inb_S512x1024_S512x64_0_768 : ∀ a, (![0, 768] : Fin 2 → Nat) a + S512x64.size a ≤ S512x1024.size a
  packedbf16_S512x1024_S512x64_0_768 : (Rect.unit (s := S512x1024) ![0, 768] S512x64.size inb_S512x1024_S512x64_0_768).PackedRows (EltTy.packing .bf16)
  slices_S512x1024_o0_832_S512x64 : S512x1024.Slices ![0, 832] S512x64
  slices_S2048x1024_o0_832_S2048x64 : S2048x1024.Slices ![0, 832] S2048x64
  inb_S512x1024_S512x64_0_832 : ∀ a, (![0, 832] : Fin 2 → Nat) a + S512x64.size a ≤ S512x1024.size a
  packedbf16_S512x1024_S512x64_0_832 : (Rect.unit (s := S512x1024) ![0, 832] S512x64.size inb_S512x1024_S512x64_0_832).PackedRows (EltTy.packing .bf16)
  slices_S512x1024_o0_896_S512x64 : S512x1024.Slices ![0, 896] S512x64
  slices_S2048x1024_o0_896_S2048x64 : S2048x1024.Slices ![0, 896] S2048x64
  inb_S512x1024_S512x64_0_896 : ∀ a, (![0, 896] : Fin 2 → Nat) a + S512x64.size a ≤ S512x1024.size a
  packedbf16_S512x1024_S512x64_0_896 : (Rect.unit (s := S512x1024) ![0, 896] S512x64.size inb_S512x1024_S512x64_0_896).PackedRows (EltTy.packing .bf16)
  slices_S512x1024_o0_960_S512x64 : S512x1024.Slices ![0, 960] S512x64
  slices_S2048x1024_o0_960_S2048x64 : S2048x1024.Slices ![0, 960] S2048x64
  inb_S512x1024_S512x64_0_960 : ∀ a, (![0, 960] : Fin 2 → Nat) a + S512x64.size a ≤ S512x1024.size a
  packedbf16_S512x1024_S512x64_0_960 : (Rect.unit (s := S512x1024) ![0, 960] S512x64.size inb_S512x1024_S512x64_0_960).PackedRows (EltTy.packing .bf16)
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S1024x1024_S3072x1024_S1024x3072_1_1_0_0_n_n_wf : DotDims.WF S1024x1024 S3072x1024 S1024x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S4096x3072.size a
  hwx0_3 : ∀ i : grid0.Coords, EltTy.bits .bf16 = 32 ∨ (Rect.block (s := S4096x3072) S1024x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x3072.size a
  hwx1_0 : ∀ i : grid1.Coords, EltTy.bits .bf16 = 32 ∨ (Rect.block (s := S2x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x3072.size a
  hwx1_1 : ∀ i : grid1.Coords, EltTy.bits .bf16 = 32 ∨ (Rect.block (s := S2x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S2x2048x3072.size a
  hwx1_2 : ∀ i : grid1.Coords, EltTy.bits .bf16 = 32 ∨ (Rect.block (s := S2x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S2x2048x1024.size a
  hwx1_5 : ∀ i : grid1.Coords, EltTy.bits .f32 = 32 ∨ (Rect.block (s := S2x2048x1024) S1x512x1024.size (cc1_transform_5 i) (hinb1_5 i)).WholeWords (EltTy.packing .f32)

variable [Facts₀]

def dot_S1024x1024_S3072x1024_S1024x3072_1_1_0_0_n_n : DotDims S1024x1024 S3072x1024 S1024x3072 where
  lhsContracting := [1]
  rhsContracting := [1]
  lhsNonContracting := [0]
  rhsNonContracting := [0]
  lhsBatch := []
  rhsBatch := []
  wf := dot_S1024x1024_S3072x1024_S1024x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v24) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1024x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.K.Defs.lean ====
import proofs.«106968_j70755291234837_2_alg».proof.Proof.Gen.Kernel.Launch
import proofs.«106968_j70755291234837_2_alg».proof.Proof.Gen.Kernel.Skeleton
import proofs.«106968_j70755291234837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the two kernel bodies read and write (each a whole buffer, or one head's 64 columns of the
    512 × 1024 scratch) -/

abbrev rx0 : Rect S1024x1024 := Rect.unit (s := S1024x1024) ![0, 0] S1024x1024.size inb_S1024x1024_S1024x1024_0_0
abbrev rw0 : Rect S3072x1024 := Rect.unit (s := S3072x1024) ![0, 0] S3072x1024.size inb_S3072x1024_S3072x1024_0_0
abbrev rb0 : Rect S1x3072 := Rect.unit (s := S1x3072) ![0, 0] S1x3072.size inb_S1x3072_S1x3072_0_0
abbrev ro0 : Rect S1024x3072 := Rect.unit (s := S1024x3072) ![0, 0] S1024x3072.size inb_S1024x3072_S1024x3072_0_0
abbrev rq : Rect S1x512x1024 := Rect.unit (s := S1x512x1024) ![0, 0, 0] S1x512x1024.size inb_S1x512x1024_S1x512x1024_0_0_0
abbrev rk : Rect S1x2048x1024 := Rect.unit (s := S1x2048x1024) ![0, 0, 0] S1x2048x1024.size inb_S1x2048x1024_S1x2048x1024_0_0_0
abbrev rwf : Rect S1024x1024 := Rect.unit (s := S1024x1024) ![0, 0] S1024x1024.size inb_S1024x1024_S1024x1024_0_0
abbrev rbf : Rect S1x1024 := Rect.unit (s := S1x1024) ![0, 0] S1x1024.size inb_S1x1024_S1x1024_0_0
abbrev rscr : Rect S512x1024 := Rect.unit (s := S512x1024) ![0, 0] S512x1024.size inb_S512x1024_S512x1024_0_0
abbrev rh960 : Rect S512x1024 := Rect.unit (s := S512x1024) ![0, 960] S512x64.size inb_S512x1024_S512x64_0_960
abbrev rh896 : Rect S512x1024 := Rect.unit (s := S512x1024) ![0, 896] S512x64.size inb_S512x1024_S512x64_0_896
abbrev rh832 : Rect S512x1024 := Rect.unit (s := S512x1024) ![0, 832] S512x64.size inb_S512x1024_S512x64_0_832
abbrev rh768 : Rect S512x1024 := Rect.unit (s := S512x1024) ![0, 768] S512x64.size inb_S512x1024_S512x64_0_768
abbrev rh704 : Rect S512x1024 := Rect.unit (s := S512x1024) ![0, 704] S512x64.size inb_S512x1024_S512x64_0_704
abbrev rh640 : Rect S512x1024 := Rect.unit (s := S512x1024) ![0, 640] S512x64.size inb_S512x1024_S512x64_0_640
abbrev rh576 : Rect S512x1024 := Rect.unit (s := S512x1024) ![0, 576] S512x64.size inb_S512x1024_S512x64_0_576
abbrev rh512 : Rect S512x1024 := Rect.unit (s := S512x1024) ![0, 512] S512x64.size inb_S512x1024_S512x64_0_512
abbrev rh448 : Rect S512x1024 := Rect.unit (s := S512x1024) ![0, 448] S512x64.size inb_S512x1024_S512x64_0_448
abbrev rh384 : Rect S512x1024 := Rect.unit (s := S512x1024) ![0, 384] S512x64.size inb_S512x1024_S512x64_0_384
abbrev rh320 : Rect S512x1024 := Rect.unit (s := S512x1024) ![0, 320] S512x64.size inb_S512x1024_S512x64_0_320
abbrev rh256 : Rect S512x1024 := Rect.unit (s := S512x1024) ![0, 256] S512x64.size inb_S512x1024_S512x64_0_256
abbrev rh192 : Rect S512x1024 := Rect.unit (s := S512x1024) ![0, 192] S512x64.size inb_S512x1024_S512x64_0_192
abbrev rh128 : Rect S512x1024 := Rect.unit (s := S512x1024) ![0, 128] S512x64.size inb_S512x1024_S512x64_0_128
abbrev rh64 : Rect S512x1024 := Rect.unit (s := S512x1024) ![0, 64] S512x64.size inb_S512x1024_S512x64_0_64
abbrev rh0 : Rect S512x1024 := Rect.unit (s := S512x1024) ![0, 0] S512x64.size inb_S512x1024_S512x64_0_0

/-! ## What the first body leaves in its output block: the projection of the row block -/

/-- The output block of the projection kernel after its body, from its three input blocks (one store). -/
def out0_3 (x0 : Vec F S1024x1024 .f32) (x1 : Vec F S3072x1024 .bf16) (x2 : Vec F S1x3072 .f32) : Vec F S1024x3072 .bf16 :=
  View.canon [⟨ro0, k0_pay1 (View.ld x0 rx0) (View.ld x1 rw0) (View.ld x2 rb0)⟩]

theorem cover0_3 (p0 : Vec F S1024x3072 .bf16) (y : S1024x3072.Idx) :
    ∃ pc ∈ ([⟨ro0, p0⟩] : List (View.Piece (Elt F) S1024x3072 .bf16)), y ∈ pc.1.set :=
  View.cover_of_tiled [⟨ro0, p0⟩] S1024x3072.size (by rfl) y

/-! ## What the second body leaves: sixteen heads' columns in the scratch, then their projection -/

/-- The scratch after the sixteen heads: head `h`'s 64 columns hold that head's result, computed from the query
    block `x0` and the key and value blocks `x1`, `x2` (the stores, last first). -/
def scrPieces (x0 : Vec F S1x512x1024 .bf16) (x1 x2 : Vec F S1x2048x1024 .bf16) : List (View.Piece (Elt F) S512x1024 .bf16) :=
  [⟨rh960, k1_pay33 (k1_pay2 (View.ld x0 rq)) (k1_pay3 (View.ld x1 rk)) (k1_pay4 (View.ld x2 rk))⟩,
   ⟨rh896, k1_pay32 (k1_pay2 (View.ld x0 rq)) (k1_pay3 (View.ld x1 rk)) (k1_pay4 (View.ld x2 rk))⟩,
   ⟨rh832, k1_pay31 (k1_pay30 (k1_pay2 (View.ld x0 rq)) (k1_pay3 (View.ld x1 rk)) (k1_pay4 (View.ld x2 rk)))⟩,
   ⟨rh768, k1_pay29 (k1_pay2 (View.ld x0 rq)) (k1_pay3 (View.ld x1 rk)) (k1_pay4 (View.ld x2 rk))⟩,
   ⟨rh704, k1_pay28 (k1_pay27 (k1_pay2 (View.ld x0 rq)) (k1_pay3 (View.ld x1 rk)) (k1_pay4 (View.ld x2 rk)))⟩,
   ⟨rh640, k1_pay26 (k1_pay2 (View.ld x0 rq)) (k1_pay3 (View.ld x1 rk)) (k1_pay4 (View.ld x2 rk))⟩,
   ⟨rh576, k1_pay25 (k1_pay24 (k1_pay2 (View.ld x0 rq)) (k1_pay3 (View.ld x1 rk)) (k1_pay4 (View.ld x2 rk)))⟩,
   ⟨rh512, k1_pay23 (k1_pay2 (View.ld x0 rq)) (k1_pay3 (View.ld x1 rk)) (k1_pay4 (View.ld x2 rk))⟩,
   ⟨rh448, k1_pay22 (k1_pay20 (k1_pay4 (View.ld x2 rk))) (k1_pay21 (k1_pay2 (View.ld x0 rq)) (k1_pay3 (View.ld x1 rk)))⟩,
   ⟨rh384, k1_pay19 (k1_pay2 (View.ld x0 rq)) (k1_pay3 (View.ld x1 rk)) (k1_pay4 (View.ld x2 rk))⟩,
   ⟨rh320, k1_pay18 (k1_pay15 (k1_pay4 (View.ld x2 rk))) (k1_pay16 (k1_pay2 (View.ld x0 rq)) (k1_pay3 (View.ld x1 rk))) (k1_pay17 (k1_pay2 (View.ld x0 rq)) (k1_pay3 (View.ld x1 rk)))⟩,
   ⟨rh256, k1_pay14 (k1_pay2 (View.ld x0 rq)) (k1_pay3 (View.ld x1 rk)) (k1_pay4 (View.ld x2 rk))⟩,
   ⟨rh192, k1_pay13 (k1_pay10 (k1_pay4 (View.ld x2 rk))) (k1_pay11 (k1_pay2 (View.ld x0 rq)) (k1_pay3 (View.ld x1 rk))) (k1_pay12 (k1_pay2 (View.ld x0 rq)) (k1_pay3 (View.ld x1 rk)))⟩,
   ⟨rh128, k1_pay9 (k1_pay2 (View.ld x0 rq)) (k1_pay3 (View.ld x1 rk)) (k1_pay4 (View.ld x2 rk))⟩,
   ⟨rh64, k1_pay8 (k1_pay6 (View.ld x2 rk)) (k1_pay7 (View.ld x0 rq) (View.ld x1 rk))⟩,
   ⟨rh0, k1_pay5 (View.ld x0 rq) (View.ld x1 rk) (View.ld x2 rk)⟩]

/-- The scratch read back whole. -/
def scr1 (x0 : Vec F S1x512x1024 .bf16) (x1 x2 : Vec F S1x2048x1024 .bf16) : Vec F S512x1024 .bf16 :=
  fun j => View.canon (scrPieces x0 x1 x2) (rscr.toLoadRect.idx j)

abbrev ro1 : Rect S1x512x1024 := Rect.unit (s := S1x512x1024) ![0, 0, 0] S1x512x1024.size inb_S1x512x1024_S1x512x1024_0_0_0

/-- The output block of the attention kernel after its body (one store). -/
def out1_5 (x0 : Vec F S1x512x1024 .bf16) (x1 x2 : Vec F S1x2048x1024 .bf16) (x3 : Vec F S1024x1024 .bf16) (x4 : Vec F S1x1024 .f32) :
    Vec F S1x512x1024 .f32 :=
  View.canon [⟨ro1, k1_pay1 (scr1 x0 x1 x2) (View.ld x3 rwf) (View.ld x4 rbf)⟩]

theorem cover1_5 (p0 : Vec F S1x512x1024 .f32) (y : S1x512x1024.Idx) :
    ∃ pc ∈ ([⟨ro1, p0⟩] : List (View.Piece (Elt F) S1x512x1024 .f32)), y ∈ pc.1.set :=
  View.cover_of_tiled [⟨ro1, p0⟩] S1x512x1024.size (by rfl) y

end Cert.Kernel.Hand
end
-- ==== Proof.K.Bodies.lean ====
import proofs.«106968_j70755291234837_2_alg».proof.Proof.Gen.Kernel.Launch
import proofs.«106968_j70755291234837_2_alg».proof.Proof.Gen.Kernel.Skeleton
import proofs.«106968_j70755291234837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106968_j70755291234837_2_alg».proof.Proof.K.Defs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two bodies' triples: on whole staging memrefs holding the input blocks, each body runs to its end
    leaving the inputs as they were and its output block at the function of the inputs named in the definitions
    module (the attention body also leaves its scratch at some contents) -/

set_option maxHeartbeats 1000000 in
theorem sound_kernel0 (c : Dev nD) (E : Set ℕ) (i : grid0.Coords)
    (arg1 : Memref sig .tc .vmem S1024x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S1024x3072 .bf16) (harg4 : arg4.IsWhole)
    (x0 : Vec F S1024x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

set_option maxHeartbeats 4000000 in
theorem sound_kernel1 (c : Dev nD) (E : Set ℕ) (i : grid1.Coords)
    (arg2 : Memref sig .tc .vmem S1x512x1024 .bf16) (harg2 : arg2.IsWhole)
    (arg3 : Memref sig .tc .vmem S1x2048x1024 .bf16) (harg3 : arg3.IsWhole)
    (arg4 : Memref sig .tc .vmem S1x2048x1024 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1x512x1024 .f32) (harg7 : arg7.IsWhole)
    (arg8 : Memref sig .tc .vmem S512x1024 .bf16) (harg8 : arg8.IsWhole)
    (x0 : Vec F S1x512x1024 .bf16) (x1 x2 : Vec F S1x2048x1024 .bf16) (x3 : Vec F S1024x1024 .bf16) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4) ∗ (∃ d, owns (c : Thread nD τ) arg8 fullShare d)) -∗ K ⟨⟩))
      ⊢ wp frame (wpE (defs₀ (F := F)) Variants.none c none) E (cc1__attn_outproj_kernel i arg2 harg2 arg3 harg3 arg4 harg4 arg5 harg5 arg6 harg6 arg7 harg7 arg8 harg8) K := by
  simp only [cc1__attn_outproj_kernel_eq_skeleton, k1_part1_eq_skeleton, k1_part2_eq_skeleton, k1_part3_eq_skeleton, k1_part4_eq_skeleton, k1_part5_eq_skeleton, k1_part6_eq_skeleton, k1_part7_eq_skeleton, k1_part8_eq_skeleton]
  unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_run_names
    rw [View.readCov_eq_canon']
    unfold out1_5 scr1 scrPieces
    exact View.read_writes_eq_canon _ _ _ (cover1_5 _)
  iexists _; iexists _; isplitr
  swap; · iexact H8
  ipureintro; rfl

end Cert.Kernel.Hand
end
-- ==== Proof.K.Dats.lean ====
import proofs.«106968_j70755291234837_2_alg».proof.Proof.Gen.Kernel.Launch
import proofs.«106968_j70755291234837_2_alg».proof.Proof.Gen.Kernel.Skeleton
import proofs.«106968_j70755291234837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106968_j70755291234837_2_alg».proof.Proof.K.Bodies
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two pipelines' proof data, at the contents `V` the TensorCore's buffers hold when the region is entered

Per window and grid point: the block the window shows of its array; what the body leaves in the window's staging
buffer (an input's block itself, the output's the body's function of the input blocks); and the obligation that the
body, called on the staging buffers, does that. The attention call reads ONE array through three windows (the query
rows, and the key and value column planes): they hold it at three shares that make up the whole. -/

section Regions

variable (V : (c : Dev nD) → (b : Ref sig .tc) → Buf (Elt F) ((c : Thread nD τ).loc b))

/-! ### The projection call -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ### The attention call -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The scratch buffer whole at some contents, as a points-to and as an owned whole memref: one proposition. -/
theorem scr_eq (c : Dev nD) :
    (iprop(∃ d, owns (c : Thread nD τ) (Memref.whole cc1_scratch0 : Memref sig .tc .vmem S512x1024 .bf16) fullShare d) : sProp 𝕄)
      = iprop(∃ f : Buf (Elt F) ((c : Thread nD τ).loc cc1_scratch0), ((c : Thread nD τ).loc cc1_scratch0) ↦{fullShare} f) := by
  simp only [owns_whole]

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl]
  unfold Pipeline.ΦA
  rw [scopedRest1_eq]
  iintro ⟨⟨⟨Hs0, Hs1, Hs2, Hs3, Hs4, Hs5, Hscr⟩, Hp⟩, Ho, ⟨%d0, H0⟩, ⟨%d1, H1⟩, ⟨%d2, H2⟩, ⟨%d3, H3⟩, ⟨%d4, H4⟩, ⟨%d5, H5⟩⟩
  ihave Hscr' := (Entails.of_eq (scr_eq (F := F) c).symm) $$ Hscr
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hscr']; · iexact Hscr'
  iintro ⟨H0, H1, H2, H3, H4, H5, Hscr'⟩
  ihave Hscr := (Entails.of_eq (scr_eq (F := F) c)) $$ Hscr'
  isplitl [Hs0 Hs1 Hs2 Hs3 Hs4 Hs5 Hscr Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hscr
    · iexact Hp
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Regions

end Cert.Kernel.Hand
end
-- ==== Proof.K.Shares.lean ====
import proofs.«106968_j70755291234837_2_alg».proof.Proof.Gen.Kernel.Launch
import proofs.«106968_j70755291234837_2_alg».proof.Proof.Gen.Kernel.Skeleton
import proofs.«106968_j70755291234837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106968_j70755291234837_2_alg».proof.Proof.K.Dats
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One array behind three windows

The attention call's query, key and value windows all show the same array. The four DISTINCT buffers behind the six
windows, each whole at the full share, are the pipeline's arrays: the shared buffer's share is cut in three
(left half; left and right halves of the right half), one piece per window — and the three pieces, at one
contents, join back to the whole. -/

theorem arrImage1 : Finset.univ.image (Pipeline.arrRef spec1) = ({main_v27, main_v23, main_v28, main_v29} : Finset (Ref sig .tc)) := by decide

section
variable (V' : (c : Dev nD) → (b : Ref sig .tc) → Buf (Elt F) ((c : Thread nD τ).loc b))

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v27) ↦{fullShare} V main_v27) ∗ (((c : Thread nD τ).loc main_v23) ↦{fullShare} V main_v23)
          ∗ (((c : Thread nD τ).loc main_v28) ↦{fullShare} V main_v28) ∗ (((c : Thread nD τ).loc main_v29) ↦{fullShare} V main_v29)) := by
  unfold Pipeline.arrBufs
  rw [arrImage1, bigSep_insert (by decide), bigSep_insert (by decide), bigSep_insert (by decide), bigSep_singleton]
  rfl

theorem arrays1_eq (c : Dev nD) (F' : (w : Fin cfg1.W) → Buf (Elt F) ((cfg1.win w).arr.view.loc (c : Thread nD τ))) :
    ((dat1 V' c).arrays F' : sProp 𝕄)
      = iprop((((c : Thread nD τ).loc main_v27) ↦{fullShare.left} F' 0) ∗ (((c : Thread nD τ).loc main_v27) ↦{fullShare.right.left} F' 1)
          ∗ (((c : Thread nD τ).loc main_v27) ↦{fullShare.right.right} F' 2) ∗ (((c : Thread nD τ).loc main_v23) ↦{fullShare} F' 3)
          ∗ (((c : Thread nD τ).loc main_v28) ↦{fullShare} F' 4) ∗ (((c : Thread nD τ).loc main_v29) ↦{fullShare} F' 5)) := by
  unfold Pipeline.Dat.arrays
  rw [bigSep_W1, (arr_whole1 0).set_eq_univ, (arr_whole1 3).set_eq_univ, (arr_whole1 4).set_eq_univ, (arr_whole1 5).set_eq_univ]
  rfl

theorem arrays_split1 (c : Dev nD) (V : (b : Ref sig .tc) → Buf (Elt F) ((c : Thread nD τ).loc b))
    (F' : (w : Fin cfg1.W) → Buf (Elt F) ((cfg1.win w).arr.view.loc (c : Thread nD τ))) (hF : ∀ w, F' w = V (Pipeline.arrRef spec1 w)) :
    (Pipeline.arrBufs (Ix := Unit) (Name := ℕ) (U := UR sig nD τ) (Lvl := ℕ) spec1 c V : sProp 𝕄) ⊢ (dat1 V' c).arrays F' := by
  rw [arrBufs1_eq, arrays1_eq, hF 0, hF 1, hF 2, hF 3, hF 4, hF 5]
  iintro ⟨H27, H23, H28, H29⟩
  ihave H27' := (pointsTo_share (PosShare.mem_left_op_right fullShare)).1 $$ H27
  icases H27' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  isplitl [H23]; · iexact H23
  isplitl [H28]; · iexact H28
  iexact H29

theorem arrays_join1 (c : Dev nD) (V : (b : Ref sig .tc) → Buf (Elt F) ((c : Thread nD τ).loc b))
    (F' : (w : Fin cfg1.W) → Buf (Elt F) ((cfg1.win w).arr.view.loc (c : Thread nD τ))) (hF : ∀ w, F' w = V (Pipeline.arrRef spec1 w)) :
    ((dat1 V' c).arrays F' : sProp 𝕄) ⊢ Pipeline.arrBufs (Ix := Unit) (Name := ℕ) (U := UR sig nD τ) (Lvl := ℕ) spec1 c V := by
  rw [arrBufs1_eq, arrays1_eq, hF 0, hF 1, hF 2, hF 3, hF 4, hF 5]
  iintro ⟨Hl, Hrl, Hrr, H23, H28, H29⟩
  isplitl [Hl Hrl Hrr]
  · iapply (pointsTo_share (PosShare.mem_left_op_right fullShare)).2
    isplitl [Hl]; · iexact Hl
    iapply (pointsTo_share (PosShare.mem_left_op_right fullShare.right)).2
    isplitl [Hrl] <;> iassumption
  isplitl [H23]; · iexact H23
  isplitl [H28]; · iexact H28
  iexact H29

end

end Cert.Kernel.Hand
end
-- ==== Proof.K.Run.lean ====
import proofs.«106968_j70755291234837_2_alg».proof.Proof.Gen.Kernel.Launch
import proofs.«106968_j70755291234837_2_alg».proof.Proof.Gen.Kernel.Skeleton
import proofs.«106968_j70755291234837_2_alg».proof.Proof.Gen.Kernel.Points
import proofs.«106968_j70755291234837_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106968_j70755291234837_2_alg».proof.Proof.K.Shares
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The run: the program's four stretches from the launch to the return

A stretch of host operations, the projection call, two more host operations, the attention call. Between stretches
every unscoped buffer of the core is held whole at known contents: the launch memory, then each host stretch's
results folded in, then what each call's write-backs leave in its result array (every other buffer as it was). -/

variable (m : (ℓ : Loc nD τ sig) → Buf (Elt F) ℓ) (ρ : Dev nD → PrngReg)

/-- At launch. -/
abbrev Wl0 : Dev nD → Valuation τ sig (Elt F) := fun c b => (s₀ m ρ).mem ((c : Dev nD), b)
/-- After the first host stretch (the projection call's entry). -/
abbrev Wl1 : Dev nD → Valuation τ sig (Elt F) := fun c => StableHlo.after hostOps0 (Wl0 m ρ c)
abbrev Vl1 : (c : Dev nD) → (b : Ref sig .tc) → Buf (Elt F) ((c : Thread nD τ).loc b) := fun c b => Wl1 m ρ c b
/-- After the projection call: its arrays at what the write-backs leave. -/
def Wl2 (c : Dev nD) : Valuation τ sig (Elt F) :=
  Pipeline.withArrays spec0 c (Wl1 m ρ c) fun w => (dat0 (Vl1 m ρ) c).arrAt w cfg0.N
theorem Wl2_arr (c : Dev nD) (w : Fin cfg0.W) :
    Wl2 m ρ c (Proc.devRef .tc (Pipeline.arrRef spec0 w)) = (dat0 (Vl1 m ρ) c).arrAt w cfg0.N := by
  unfold Wl2; exact Pipeline.withArrays_arr spec0 launch0.win.arr_inj c _ _ w
theorem Wl2_of_ne (c : Dev nD) (b : Ref sig .tc) (hb : ∀ w, Pipeline.arrRef spec0 w ≠ b) :
    Wl2 m ρ c (Proc.devRef .tc b) = Wl1 m ρ c (Proc.devRef .tc b) := by
  unfold Wl2; exact Pipeline.withArrays_of_ne spec0 c _ _ b hb
abbrev Vl2 : (c : Dev nD) → (b : Ref sig .tc) → Buf (Elt F) ((c : Thread nD τ).loc b) := fun c b => Wl2 m ρ c b
theorem hF0 (c : Dev nD) (w : Fin cfg0.W) : (dat0 (Vl1 m ρ) c).arrAt w cfg0.N = Vl2 m ρ c (Pipeline.arrRef spec0 w) :=
  (Wl2_arr m ρ c w).symm
theorem hrest0 (c : Dev nD) : ∀ b, b ∉ Finset.univ.image (Pipeline.arrRef spec0) → Vl2 m ρ c b = Vl1 m ρ c b :=
  fun b hb => Wl2_of_ne m ρ c b fun w e => hb (Finset.mem_image.mpr ⟨w, Finset.mem_univ _, e⟩)

/-- After the two host operations between the calls (the attention call's entry). -/
abbrev Wl3 : Dev nD → Valuation τ sig (Elt F) := fun c => StableHlo.after hostOps1 (Wl2 m ρ c)
abbrev Vl3 : (c : Dev nD) → (b : Ref sig .tc) → Buf (Elt F) ((c : Thread nD τ).loc b) := fun c b => Wl3 m ρ c b
/-- After the attention call: its result array at what the write-backs leave, every other buffer as it was. -/
def Wl4 (c : Dev nD) : Valuation τ sig (Elt F) :=
  Function.update (Wl3 m ρ c) (Proc.devRef .tc main_v29) ((dat1 (Vl3 m ρ) c).arrAt 5 cfg1.N)
abbrev Vl4 : (c : Dev nD) → (b : Ref sig .tc) → Buf (Elt F) ((c : Thread nD τ).loc b) := fun c b => Wl4 m ρ c b
theorem Wl4_out (c : Dev nD) : Wl4 m ρ c (Proc.devRef .tc main_v29) = (dat1 (Vl3 m ρ) c).arrAt 5 cfg1.N := by
  unfold Wl4; exact Function.update_self _ _ _
theorem Wl4_of_ne (c : Dev nD) (b : Ref sig .tc) (hb : b ≠ main_v29) :
    Wl4 m ρ c (Proc.devRef .tc b) = Wl3 m ρ c (Proc.devRef .tc b) := by
  unfold Wl4; exact Function.update_of_ne (StableHlo.devRef_ne_of_ne hb) _ _
theorem hF1 (c : Dev nD) : ∀ w : Fin cfg1.W, (dat1 (Vl3 m ρ) c).arrAt w cfg1.N = Vl4 m ρ c (Pipeline.arrRef spec1 w)
  | ⟨0, _⟩ => ((dat1 (Vl3 m ρ) c).arrAt_in 0 rfl _).trans ((A_eq1 (Vl3 m ρ) c 0).trans (Wl4_of_ne m ρ c main_v27 (by decide)).symm)
  | ⟨1, _⟩ => ((dat1 (Vl3 m ρ) c).arrAt_in 1 rfl _).trans ((A_eq1 (Vl3 m ρ) c 1).trans (Wl4_of_ne m ρ c main_v27 (by decide)).symm)
  | ⟨2, _⟩ => ((dat1 (Vl3 m ρ) c).arrAt_in 2 rfl _).trans ((A_eq1 (Vl3 m ρ) c 2).trans (Wl4_of_ne m ρ c main_v27 (by decide)).symm)
  | ⟨3, _⟩ => ((dat1 (Vl3 m ρ) c).arrAt_in 3 rfl _).trans ((A_eq1 (Vl3 m ρ) c 3).trans (Wl4_of_ne m ρ c main_v23 (by decide)).symm)
  | ⟨4, _⟩ => ((dat1 (Vl3 m ρ) c).arrAt_in 4 rfl _).trans ((A_eq1 (Vl3 m ρ) c 4).trans (Wl4_of_ne m ρ c main_v28 (by decide)).symm)
  | ⟨5, _⟩ => (Wl4_out m ρ c).symm
theorem hrest1 (c : Dev nD) : ∀ b, b ∉ Finset.univ.image (Pipeline.arrRef spec1) → Vl4 m ρ c b = Vl3 m ρ c b :=
  fun b hb => Wl4_of_ne m ρ c b fun e => hb (by rw [arrImage1, e]; decide)

/-! ### The proof data family and what rides along -/

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Vl1 m ρ) c
  | ⟨1, _⟩ => fun c => dat1 (Vl3 m ρ) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wl4 m ρ c) ∗ ∃ r, prngReg c r)

/-! ### The two calls as segments -/

set_option backward.isDefEq.respectTransparency.types false in
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vl1 m ρ) c).loose
  hwaits := Pipeline.hwaits_of_owed_zero _ _ _ _ LH lvH 0 fun _ _ => rfl
  pre c := iprop(StableHlo.held (c : Thread nD τ) (Pipeline.ucRefs τ sig) (Wl1 m ρ c) ∗ RH c)
  post c := iprop(StableHlo.held (c : Thread nD τ) (Pipeline.ucRefs τ sig) (Wl2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vl1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vl1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vl1 m ρ c) (Vl2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention call's entry: every unscoped buffer at the entry contents is the call's arrays (the shared array's
    share cut in three) and the rest. -/
theorem entry1 (c : Dev nD) :
    (unscopedBufs (Ix := Unit) (Name := ℕ) (U := UR sig nD τ) (Lvl := ℕ) c (Vl3 m ρ c) : sProp 𝕄)
      ⊢ iprop((dat1 (Vl3 m ρ) c).arrays ((dat1 (Vl3 m ρ) c).arrAt · 0) ∗ Pipeline.unscopedRest spec1 c (Vl3 m ρ c)) := by
  rw [Pipeline.unscopedBufs_split₀ cfgs 1 winFacts₀1.arr_unscoped c (Vl3 m ρ c)]
  exact sep_mono (arrays_split1 (Vl3 m ρ) c (Vl3 m ρ c) _ fun w => A_eq1 (Vl3 m ρ) c w) .rfl

/-- Its exit: the arrays as the write-backs leave them (the three shares at one contents joined) and the rest are
    every unscoped buffer at the exit contents. -/
theorem exit1 (c : Dev nD) :
    iprop((dat1 (Vl3 m ρ) c).arrays ((dat1 (Vl3 m ρ) c).arrAt · cfg1.N) ∗ Pipeline.unscopedRest spec1 c (Vl3 m ρ c))
      ⊢ (unscopedBufs (Ix := Unit) (Name := ℕ) (U := UR sig nD τ) (Lvl := ℕ) c (Vl4 m ρ c) : sProp 𝕄) := by
  rw [Pipeline.unscopedBufs_split₀ cfgs 1 winFacts₀1.arr_unscoped c (Vl4 m ρ c)]
  refine sep_mono (arrays_join1 (Vl3 m ρ) c (Vl4 m ρ c) _ (hF1 m ρ c)) (Entails.of_eq ?_)
  unfold Pipeline.unscopedRest
  exact bigSep_congr fun b hb => by rw [hrest1 m ρ c b (Finset.mem_sdiff.mp hb).2]

set_option backward.isDefEq.respectTransparency.types false in
def reg1 : Pipeline.RegionSeg (pcfgs (F := F)) admH (pdatsH m ρ) () defs₀ 𝒱H LH lvH 1 where
  win := winFacts₀1
  block_pos := block_pos1
  stage_whole := stage_whole1
  K := PEmpty
  osem k := k.elim
  ho := Pipeline.OwnSemFacts.none _
  hbody c := (body_obligation1 (Vl3 m ρ) c).loose
  hwaits := Pipeline.hwaits_of_owed_zero _ _ _ _ LH lvH 1 fun _ _ => rfl
  pre c := iprop(StableHlo.held (c : Thread nD τ) (Pipeline.ucRefs τ sig) (Wl3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vl3 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ### The program as its segments, and the run -/

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor

abbrev segsH : List (Pipeline.Seg (pcfgs (F := F)) admH (pdatsH m ρ) () defs₀ 𝒱H LH lvH) :=
  [ .host (hsegH hostOps0 hostOps0_sub hostOps0_freshH (Wl0 m ρ)),
    .region (reg0 m ρ),
    .host (hsegH hostOps1 hostOps1_sub hostOps1_freshH (Wl2 m ρ)),
    .region (reg1 m ρ) ]
theorem main_run (c : Dev nD) : main (F := F) c = Pipeline.Seg.run (segsH m ρ) := (main_chain c).trans (by chain_rfl)

set_option backward.isDefEq.respectTransparency.types false in
/-- Every weakly fair execution of the program from memory `m` with zero counters terminates, nothing faulting,
    with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wl4 m ρ c b) :=
  Pipeline.θ_run_regions_kit (pcfgs (F := F)) admH (pdatsH m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wl0 m ρ c)
        from Pipeline.unscopedBufs_held c (Wl0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wl4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wl4 m ρ c) s')
      isplitl [Hh] <;> iassumption)
    (hQ := fun s h c => h c)

end Cert.Kernel.Hand
end
-- ==== Proof.K.Frame.lean ====
/-
  What the run leaves in the argument arrays and in the result array.

  The run ends with every unscoped buffer of every core at the last boundary's contents. An argument array is
  written by no host operation and is no array of either call's windows that is written back changed, so walking the
  boundaries back from the last to the launch leaves it at the launch memory; the result array is at what the second
  call's write-backs leave.
-/
import proofs.«106968_j70755291234837_2_alg».proof.Proof.K.Run
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Argument 0 reaches the end as launched. -/
theorem Wl4_main_arg0 (c : Dev nD) : Wl4 m ρ c (Proc.devRef .tc main_arg0) = m ((c : Thread nD τ).loc main_arg0) :=
  calc Wl4 m ρ c (Proc.devRef .tc main_arg0)
    _ = Wl3 m ρ c (Proc.devRef .tc main_arg0) := Wl4_of_ne m ρ c main_arg0 (by decide)
    _ = Wl2 m ρ c (Proc.devRef .tc main_arg0) := StableHlo.after_of_writes_sub hostOps1 _ hostOps1_writes (by decide)
    _ = Wl1 m ρ c (Proc.devRef .tc main_arg0) := Wl2_of_ne m ρ c main_arg0 (by decide)
    _ = Wl0 m ρ c (Proc.devRef .tc main_arg0) := StableHlo.after_of_writes_sub hostOps0 _ hostOps0_writes (by decide)
    _ = m ((c : Thread nD τ).loc main_arg0) := rfl

/-- Argument 1 reaches the end as launched. -/
theorem Wl4_main_arg1 (c : Dev nD) : Wl4 m ρ c (Proc.devRef .tc main_arg1) = m ((c : Thread nD τ).loc main_arg1) :=
  calc Wl4 m ρ c (Proc.devRef .tc main_arg1)
    _ = Wl3 m ρ c (Proc.devRef .tc main_arg1) := Wl4_of_ne m ρ c main_arg1 (by decide)
    _ = Wl2 m ρ c (Proc.devRef .tc main_arg1) := StableHlo.after_of_writes_sub hostOps1 _ hostOps1_writes (by decide)
    _ = Wl1 m ρ c (Proc.devRef .tc main_arg1) := Wl2_of_ne m ρ c main_arg1 (by decide)
    _ = Wl0 m ρ c (Proc.devRef .tc main_arg1) := StableHlo.after_of_writes_sub hostOps0 _ hostOps0_writes (by decide)
    _ = m ((c : Thread nD τ).loc main_arg1) := rfl

/-- Argument 2 reaches the end as launched. -/
theorem Wl4_main_arg2 (c : Dev nD) : Wl4 m ρ c (Proc.devRef .tc main_arg2) = m ((c : Thread nD τ).loc main_arg2) :=
  calc Wl4 m ρ c (Proc.devRef .tc main_arg2)
    _ = Wl3 m ρ c (Proc.devRef .tc main_arg2) := Wl4_of_ne m ρ c main_arg2 (by decide)
    _ = Wl2 m ρ c (Proc.devRef .tc main_arg2) := StableHlo.after_of_writes_sub hostOps1 _ hostOps1_writes (by decide)
    _ = Wl1 m ρ c (Proc.devRef .tc main_arg2) := Wl2_of_ne m ρ c main_arg2 (by decide)
    _ = Wl0 m ρ c (Proc.devRef .tc main_arg2) := StableHlo.after_of_writes_sub hostOps0 _ hostOps0_writes (by decide)
    _ = m ((c : Thread nD τ).loc main_arg2) := rfl

/-- Argument 3 reaches the end as launched. -/
theorem Wl4_main_arg3 (c : Dev nD) : Wl4 m ρ c (Proc.devRef .tc main_arg3) = m ((c : Thread nD τ).loc main_arg3) :=
  calc Wl4 m ρ c (Proc.devRef .tc main_arg3)
    _ = Wl3 m ρ c (Proc.devRef .tc main_arg3) := Wl4_of_ne m ρ c main_arg3 (by decide)
    _ = Wl2 m ρ c (Proc.devRef .tc main_arg3) := StableHlo.after_of_writes_sub hostOps1 _ hostOps1_writes (by decide)
    _ = Wl1 m ρ c (Proc.devRef .tc main_arg3) := Wl2_of_ne m ρ c main_arg3 (by decide)
    _ = Wl0 m ρ c (Proc.devRef .tc main_arg3) := StableHlo.after_of_writes_sub hostOps0 _ hostOps0_writes (by decide)
    _ = m ((c : Thread nD τ).loc main_arg3) := rfl

/-- Argument 4 reaches the end as launched. -/
theorem Wl4_main_arg4 (c : Dev nD) : Wl4 m ρ c (Proc.devRef .tc main_arg4) = m ((c : Thread nD τ).loc main_arg4) :=
  calc Wl4 m ρ c (Proc.devRef .tc main_arg4)
    _ = Wl3 m ρ c (Proc.devRef .tc main_arg4) := Wl4_of_ne m ρ c main_arg4 (by decide)
    _ = Wl2 m ρ c (Proc.devRef .tc main_arg4) := StableHlo.after_of_writes_sub hostOps1 _ hostOps1_writes (by decide)
    _ = Wl1 m ρ c (Proc.devRef .tc main_arg4) := Wl2_of_ne m ρ c main_arg4 (by decide)
    _ = Wl0 m ρ c (Proc.devRef .tc main_arg4) := StableHlo.after_of_writes_sub hostOps0 _ hostOps0_writes (by decide)
    _ = m ((c : Thread nD τ).loc main_arg4) := rfl

/-- Every weakly fair execution from memory `m` with zero counters terminates, nothing faulting, and the five
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wl4_main_arg0 m ρ c),
      (h c _ (mem_uc main_arg1 (by decide))).trans (Wl4_main_arg1 m ρ c),
      (h c _ (mem_uc main_arg2 (by decide))).trans (Wl4_main_arg2 m ρ c),
      (h c _ (mem_uc main_arg3 (by decide))).trans (Wl4_main_arg3 m ρ c),
      (h c _ (mem_uc main_arg4 (by decide))).trans (Wl4_main_arg4 m ρ c)⟩) (run_all m ρ)

/-- The same run, with the result array at what the second call's write-backs leave. -/
theorem run_out : θ_run defs (onTc (τ := τ) (main (F := F))) ⟨m, fun _ => 0, ρ⟩ (fun r => ∀ c : Dev nD,
      r.2.mem ((c.tc : Thread nD τ).loc main_v29) = (dat1 (Vl3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v29 (by decide))).trans (Wl4_out m ρ c),
      (h c _ (mem_uc main_arg0 (by decide))).trans (Wl4_main_arg0 m ρ c),
      (h c _ (mem_uc main_arg1 (by decide))).trans (Wl4_main_arg1 m ρ c),
      (h c _ (mem_uc main_arg2 (by decide))).trans (Wl4_main_arg2 m ρ c),
      (h c _ (mem_uc main_arg3 (by decide))).trans (Wl4_main_arg3 m ρ c),
      (h c _ (mem_uc main_arg4 (by decide))).trans (Wl4_main_arg4 m ρ c)⟩) (run_all m ρ)

end Cert.Kernel.Hand

end
-- ==== Proof.KI.Defs.lean ====
import proofs.«106968_j70755291234837_2_alg».proof.Proof.Gen.KernelIdeal.Launch
import proofs.«106968_j70755291234837_2_alg».proof.Proof.Gen.KernelIdeal.Skeleton
import proofs.«106968_j70755291234837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the two kernel bodies read and write (each a whole buffer, or one head's 64 columns of the
    512 × 1024 scratch) -/

abbrev rx0 : Rect S1024x1024 := Rect.unit (s := S1024x1024) ![0, 0] S1024x1024.size inb_S1024x1024_S1024x1024_0_0
abbrev rw0 : Rect S3072x1024 := Rect.unit (s := S3072x1024) ![0, 0] S3072x1024.size inb_S3072x1024_S3072x1024_0_0
abbrev rb0 : Rect S1x3072 := Rect.unit (s := S1x3072) ![0, 0] S1x3072.size inb_S1x3072_S1x3072_0_0
abbrev ro0 : Rect S1024x3072 := Rect.unit (s := S1024x3072) ![0, 0] S1024x3072.size inb_S1024x3072_S1024x3072_0_0
abbrev rq : Rect S1x512x1024 := Rect.unit (s := S1x512x1024) ![0, 0, 0] S1x512x1024.size inb_S1x512x1024_S1x512x1024_0_0_0
abbrev rk : Rect S1x2048x1024 := Rect.unit (s := S1x2048x1024) ![0, 0, 0] S1x2048x1024.size inb_S1x2048x1024_S1x2048x1024_0_0_0
abbrev rwf : Rect S1024x1024 := Rect.unit (s := S1024x1024) ![0, 0] S1024x1024.size inb_S1024x1024_S1024x1024_0_0
abbrev rbf : Rect S1x1024 := Rect.unit (s := S1x1024) ![0, 0] S1x1024.size inb_S1x1024_S1x1024_0_0
abbrev rscr : Rect S512x1024 := Rect.unit (s := S512x1024) ![0, 0] S512x1024.size inb_S512x1024_S512x1024_0_0
abbrev rh960 : Rect S512x1024 := Rect.unit (s := S512x1024) ![0, 960] S512x64.size inb_S512x1024_S512x64_0_960
abbrev rh896 : Rect S512x1024 := Rect.unit (s := S512x1024) ![0, 896] S512x64.size inb_S512x1024_S512x64_0_896
abbrev rh832 : Rect S512x1024 := Rect.unit (s := S512x1024) ![0, 832] S512x64.size inb_S512x1024_S512x64_0_832
abbrev rh768 : Rect S512x1024 := Rect.unit (s := S512x1024) ![0, 768] S512x64.size inb_S512x1024_S512x64_0_768
abbrev rh704 : Rect S512x1024 := Rect.unit (s := S512x1024) ![0, 704] S512x64.size inb_S512x1024_S512x64_0_704
abbrev rh640 : Rect S512x1024 := Rect.unit (s := S512x1024) ![0, 640] S512x64.size inb_S512x1024_S512x64_0_640
abbrev rh576 : Rect S512x1024 := Rect.unit (s := S512x1024) ![0, 576] S512x64.size inb_S512x1024_S512x64_0_576
abbrev rh512 : Rect S512x1024 := Rect.unit (s := S512x1024) ![0, 512] S512x64.size inb_S512x1024_S512x64_0_512
abbrev rh448 : Rect S512x1024 := Rect.unit (s := S512x1024) ![0, 448] S512x64.size inb_S512x1024_S512x64_0_448
abbrev rh384 : Rect S512x1024 := Rect.unit (s := S512x1024) ![0, 384] S512x64.size inb_S512x1024_S512x64_0_384
abbrev rh320 : Rect S512x1024 := Rect.unit (s := S512x1024) ![0, 320] S512x64.size inb_S512x1024_S512x64_0_320
abbrev rh256 : Rect S512x1024 := Rect.unit (s := S512x1024) ![0, 256] S512x64.size inb_S512x1024_S512x64_0_256
abbrev rh192 : Rect S512x1024 := Rect.unit (s := S512x1024) ![0, 192] S512x64.size inb_S512x1024_S512x64_0_192
abbrev rh128 : Rect S512x1024 := Rect.unit (s := S512x1024) ![0, 128] S512x64.size inb_S512x1024_S512x64_0_128
abbrev rh64 : Rect S512x1024 := Rect.unit (s := S512x1024) ![0, 64] S512x64.size inb_S512x1024_S512x64_0_64
abbrev rh0 : Rect S512x1024 := Rect.unit (s := S512x1024) ![0, 0] S512x64.size inb_S512x1024_S512x64_0_0

/-! ## What the first body leaves in its output block: the projection of the row block -/

/-- The output block of the projection kernel after its body, from its three input blocks (one store). -/
def out0_3 (x0 : Vec F S1024x1024 .f32) (x1 : Vec F S3072x1024 .bf16) (x2 : Vec F S1x3072 .f32) : Vec F S1024x3072 .bf16 :=
  View.canon [⟨ro0, k0_pay1 (View.ld x0 rx0) (View.ld x1 rw0) (View.ld x2 rb0)⟩]

theorem cover0_3 (p0 : Vec F S1024x3072 .bf16) (y : S1024x3072.Idx) :
    ∃ pc ∈ ([⟨ro0, p0⟩] : List (View.Piece (Elt F) S1024x3072 .bf16)), y ∈ pc.1.set :=
  View.cover_of_tiled [⟨ro0, p0⟩] S1024x3072.size (by rfl) y

/-! ## What the second body leaves: sixteen heads' columns in the scratch, then their projection -/

/-- The scratch after the sixteen heads: head `h`'s 64 columns hold that head's result, computed from the query
    block `x0` and the key and value blocks `x1`, `x2` (the stores, last first). -/
def scrPieces (x0 : Vec F S1x512x1024 .bf16) (x1 x2 : Vec F S1x2048x1024 .bf16) : List (View.Piece (Elt F) S512x1024 .bf16) :=
  [⟨rh960, k1_pay33 (k1_pay2 (View.ld x0 rq)) (k1_pay3 (View.ld x1 rk)) (k1_pay4 (View.ld x2 rk))⟩,
   ⟨rh896, k1_pay32 (k1_pay2 (View.ld x0 rq)) (k1_pay3 (View.ld x1 rk)) (k1_pay4 (View.ld x2 rk))⟩,
   ⟨rh832, k1_pay31 (k1_pay30 (k1_pay2 (View.ld x0 rq)) (k1_pay3 (View.ld x1 rk)) (k1_pay4 (View.ld x2 rk)))⟩,
   ⟨rh768, k1_pay29 (k1_pay2 (View.ld x0 rq)) (k1_pay3 (View.ld x1 rk)) (k1_pay4 (View.ld x2 rk))⟩,
   ⟨rh704, k1_pay28 (k1_pay27 (k1_pay2 (View.ld x0 rq)) (k1_pay3 (View.ld x1 rk)) (k1_pay4 (View.ld x2 rk)))⟩,
   ⟨rh640, k1_pay26 (k1_pay2 (View.ld x0 rq)) (k1_pay3 (View.ld x1 rk)) (k1_pay4 (View.ld x2 rk))⟩,
   ⟨rh576, k1_pay25 (k1_pay24 (k1_pay2 (View.ld x0 rq)) (k1_pay3 (View.ld x1 rk)) (k1_pay4 (View.ld x2 rk)))⟩,
   ⟨rh512, k1_pay23 (k1_pay2 (View.ld x0 rq)) (k1_pay3 (View.ld x1 rk)) (k1_pay4 (View.ld x2 rk))⟩,
   ⟨rh448, k1_pay22 (k1_pay20 (k1_pay4 (View.ld x2 rk))) (k1_pay21 (k1_pay2 (View.ld x0 rq)) (k1_pay3 (View.ld x1 rk)))⟩,
   ⟨rh384, k1_pay19 (k1_pay2 (View.ld x0 rq)) (k1_pay3 (View.ld x1 rk)) (k1_pay4 (View.ld x2 rk))⟩,
   ⟨rh320, k1_pay18 (k1_pay15 (k1_pay4 (View.ld x2 rk))) (k1_pay16 (k1_pay2 (View.ld x0 rq)) (k1_pay3 (View.ld x1 rk))) (k1_pay17 (k1_pay2 (View.ld x0 rq)) (k1_pay3 (View.ld x1 rk)))⟩,
   ⟨rh256, k1_pay14 (k1_pay2 (View.ld x0 rq)) (k1_pay3 (View.ld x1 rk)) (k1_pay4 (View.ld x2 rk))⟩,
   ⟨rh192, k1_pay13 (k1_pay10 (k1_pay4 (View.ld x2 rk))) (k1_pay11 (k1_pay2 (View.ld x0 rq)) (k1_pay3 (View.ld x1 rk))) (k1_pay12 (k1_pay2 (View.ld x0 rq)) (k1_pay3 (View.ld x1 rk)))⟩,
   ⟨rh128, k1_pay9 (k1_pay2 (View.ld x0 rq)) (k1_pay3 (View.ld x1 rk)) (k1_pay4 (View.ld x2 rk))⟩,
   ⟨rh64, k1_pay8 (k1_pay6 (View.ld x2 rk)) (k1_pay7 (View.ld x0 rq) (View.ld x1 rk))⟩,
   ⟨rh0, k1_pay5 (View.ld x0 rq) (View.ld x1 rk) (View.ld x2 rk)⟩]

/-- The scratch read back whole. -/
def scr1 (x0 : Vec F S1x512x1024 .bf16) (x1 x2 : Vec F S1x2048x1024 .bf16) : Vec F S512x1024 .bf16 :=
  fun j => View.canon (scrPieces x0 x1 x2) (rscr.toLoadRect.idx j)

abbrev ro1 : Rect S1x512x1024 := Rect.unit (s := S1x512x1024) ![0, 0, 0] S1x512x1024.size inb_S1x512x1024_S1x512x1024_0_0_0

/-- The output block of the attention kernel after its body (one store). -/
def out1_5 (x0 : Vec F S1x512x1024 .bf16) (x1 x2 : Vec F S1x2048x1024 .bf16) (x3 : Vec F S1024x1024 .bf16) (x4 : Vec F S1x1024 .f32) :
    Vec F S1x512x1024 .f32 :=
  View.canon [⟨ro1, k1_pay1 (scr1 x0 x1 x2) (View.ld x3 rwf) (View.ld x4 rbf)⟩]

theorem cover1_5 (p0 : Vec F S1x512x1024 .f32) (y : S1x512x1024.Idx) :
    ∃ pc ∈ ([⟨ro1, p0⟩] : List (View.Piece (Elt F) S1x512x1024 .f32)), y ∈ pc.1.set :=
  View.cover_of_tiled [⟨ro1, p0⟩] S1x512x1024.size (by rfl) y

end Cert.KernelIdeal.Hand
end
-- ==== Proof.KI.Bodies.lean ====
import proofs.«106968_j70755291234837_2_alg».proof.Proof.Gen.KernelIdeal.Launch
import proofs.«106968_j70755291234837_2_alg».proof.Proof.Gen.KernelIdeal.Skeleton
import proofs.«106968_j70755291234837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106968_j70755291234837_2_alg».proof.Proof.KI.Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two bodies' triples: on whole staging memrefs holding the input blocks, each body runs to its end
    leaving the inputs as they were and its output block at the function of the inputs named in the definitions
    module (the attention body also leaves its scratch at some contents) -/

set_option maxHeartbeats 1000000 in
theorem sound_kernel0 (c : Dev nD) (E : Set ℕ) (i : grid0.Coords)
    (arg1 : Memref sig .tc .vmem S1024x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S1024x3072 .bf16) (harg4 : arg4.IsWhole)
    (x0 : Vec F S1024x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

set_option maxHeartbeats 4000000 in
theorem sound_kernel1 (c : Dev nD) (E : Set ℕ) (i : grid1.Coords)
    (arg2 : Memref sig .tc .vmem S1x512x1024 .bf16) (harg2 : arg2.IsWhole)
    (arg3 : Memref sig .tc .vmem S1x2048x1024 .bf16) (harg3 : arg3.IsWhole)
    (arg4 : Memref sig .tc .vmem S1x2048x1024 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1x512x1024 .f32) (harg7 : arg7.IsWhole)
    (arg8 : Memref sig .tc .vmem S512x1024 .bf16) (harg8 : arg8.IsWhole)
    (x0 : Vec F S1x512x1024 .bf16) (x1 x2 : Vec F S1x2048x1024 .bf16) (x3 : Vec F S1024x1024 .bf16) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4) ∗ (∃ d, owns (c : Thread nD τ) arg8 fullShare d)) -∗ K ⟨⟩))
      ⊢ wp frame (wpE (defs₀ (F := F)) Variants.none c none) E (cc1__attn_outproj_kernel i arg2 harg2 arg3 harg3 arg4 harg4 arg5 harg5 arg6 harg6 arg7 harg7 arg8 harg8) K := by
  simp only [cc1__attn_outproj_kernel_eq_skeleton, k1_part1_eq_skeleton, k1_part2_eq_skeleton, k1_part3_eq_skeleton, k1_part4_eq_skeleton, k1_part5_eq_skeleton, k1_part6_eq_skeleton, k1_part7_eq_skeleton, k1_part8_eq_skeleton]
  unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_run_names
    rw [View.readCov_eq_canon']
    unfold out1_5 scr1 scrPieces
    exact View.read_writes_eq_canon _ _ _ (cover1_5 _)
  iexists _; iexists _; isplitr
  swap; · iexact H8
  ipureintro; rfl

end Cert.KernelIdeal.Hand
end
-- ==== Proof.KI.Dats.lean ====
import proofs.«106968_j70755291234837_2_alg».proof.Proof.Gen.KernelIdeal.Launch
import proofs.«106968_j70755291234837_2_alg».proof.Proof.Gen.KernelIdeal.Skeleton
import proofs.«106968_j70755291234837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106968_j70755291234837_2_alg».proof.Proof.KI.Bodies
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two pipelines' proof data, at the contents `V` the TensorCore's buffers hold when the region is entered

Per window and grid point: the block the window shows of its array; what the body leaves in the window's staging
buffer (an input's block itself, the output's the body's function of the input blocks); and the obligation that the
body, called on the staging buffers, does that. The attention call reads ONE array through three windows (the query
rows, and the key and value column planes): they hold it at three shares that make up the whole. -/

section Regions

variable (V : (c : Dev nD) → (b : Ref sig .tc) → Buf (Elt F) ((c : Thread nD τ).loc b))

/-! ### The projection call -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ### The attention call -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The scratch buffer whole at some contents, as a points-to and as an owned whole memref: one proposition. -/
theorem scr_eq (c : Dev nD) :
    (iprop(∃ d, owns (c : Thread nD τ) (Memref.whole cc1_scratch0 : Memref sig .tc .vmem S512x1024 .bf16) fullShare d) : sProp 𝕄)
      = iprop(∃ f : Buf (Elt F) ((c : Thread nD τ).loc cc1_scratch0), ((c : Thread nD τ).loc cc1_scratch0) ↦{fullShare} f) := by
  simp only [owns_whole]

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl]
  unfold Pipeline.ΦA
  rw [scopedRest1_eq]
  iintro ⟨⟨⟨Hs0, Hs1, Hs2, Hs3, Hs4, Hs5, Hscr⟩, Hp⟩, Ho, ⟨%d0, H0⟩, ⟨%d1, H1⟩, ⟨%d2, H2⟩, ⟨%d3, H3⟩, ⟨%d4, H4⟩, ⟨%d5, H5⟩⟩
  ihave Hscr' := (Entails.of_eq (scr_eq (F := F) c).symm) $$ Hscr
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hscr']; · iexact Hscr'
  iintro ⟨H0, H1, H2, H3, H4, H5, Hscr'⟩
  ihave Hscr := (Entails.of_eq (scr_eq (F := F) c)) $$ Hscr'
  isplitl [Hs0 Hs1 Hs2 Hs3 Hs4 Hs5 Hscr Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hscr
    · iexact Hp
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand
end
-- ==== Proof.KI.Shares.lean ====
import proofs.«106968_j70755291234837_2_alg».proof.Proof.Gen.KernelIdeal.Launch
import proofs.«106968_j70755291234837_2_alg».proof.Proof.Gen.KernelIdeal.Skeleton
import proofs.«106968_j70755291234837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106968_j70755291234837_2_alg».proof.Proof.KI.Dats
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One array behind three windows

The attention call's query, key and value windows all show the same array. The four DISTINCT buffers behind the six
windows, each whole at the full share, are the pipeline's arrays: the shared buffer's share is cut in three
(left half; left and right halves of the right half), one piece per window — and the three pieces, at one
contents, join back to the whole. -/

theorem arrImage1 : Finset.univ.image (Pipeline.arrRef spec1) = ({main_v27, main_v23, main_v28, main_v29} : Finset (Ref sig .tc)) := by decide

section
variable (V' : (c : Dev nD) → (b : Ref sig .tc) → Buf (Elt F) ((c : Thread nD τ).loc b))

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v27) ↦{fullShare} V main_v27) ∗ (((c : Thread nD τ).loc main_v23) ↦{fullShare} V main_v23)
          ∗ (((c : Thread nD τ).loc main_v28) ↦{fullShare} V main_v28) ∗ (((c : Thread nD τ).loc main_v29) ↦{fullShare} V main_v29)) := by
  unfold Pipeline.arrBufs
  rw [arrImage1, bigSep_insert (by decide), bigSep_insert (by decide), bigSep_insert (by decide), bigSep_singleton]
  rfl

theorem arrays1_eq (c : Dev nD) (F' : (w : Fin cfg1.W) → Buf (Elt F) ((cfg1.win w).arr.view.loc (c : Thread nD τ))) :
    ((dat1 V' c).arrays F' : sProp 𝕄)
      = iprop((((c : Thread nD τ).loc main_v27) ↦{fullShare.left} F' 0) ∗ (((c : Thread nD τ).loc main_v27) ↦{fullShare.right.left} F' 1)
          ∗ (((c : Thread nD τ).loc main_v27) ↦{fullShare.right.right} F' 2) ∗ (((c : Thread nD τ).loc main_v23) ↦{fullShare} F' 3)
          ∗ (((c : Thread nD τ).loc main_v28) ↦{fullShare} F' 4) ∗ (((c : Thread nD τ).loc main_v29) ↦{fullShare} F' 5)) := by
  unfold Pipeline.Dat.arrays
  rw [bigSep_W1, (arr_whole1 0).set_eq_univ, (arr_whole1 3).set_eq_univ, (arr_whole1 4).set_eq_univ, (arr_whole1 5).set_eq_univ]
  rfl

theorem arrays_split1 (c : Dev nD) (V : (b : Ref sig .tc) → Buf (Elt F) ((c : Thread nD τ).loc b))
    (F' : (w : Fin cfg1.W) → Buf (Elt F) ((cfg1.win w).arr.view.loc (c : Thread nD τ))) (hF : ∀ w, F' w = V (Pipeline.arrRef spec1 w)) :
    (Pipeline.arrBufs (Ix := Unit) (Name := ℕ) (U := UR sig nD τ) (Lvl := ℕ) spec1 c V : sProp 𝕄) ⊢ (dat1 V' c).arrays F' := by
  rw [arrBufs1_eq, arrays1_eq, hF 0, hF 1, hF 2, hF 3, hF 4, hF 5]
  iintro ⟨H27, H23, H28, H29⟩
  ihave H27' := (pointsTo_share (PosShare.mem_left_op_right fullShare)).1 $$ H27
  icases H27' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  isplitl [H23]; · iexact H23
  isplitl [H28]; · iexact H28
  iexact H29

theorem arrays_join1 (c : Dev nD) (V : (b : Ref sig .tc) → Buf (Elt F) ((c : Thread nD τ).loc b))
    (F' : (w : Fin cfg1.W) → Buf (Elt F) ((cfg1.win w).arr.view.loc (c : Thread nD τ))) (hF : ∀ w, F' w = V (Pipeline.arrRef spec1 w)) :
    ((dat1 V' c).arrays F' : sProp 𝕄) ⊢ Pipeline.arrBufs (Ix := Unit) (Name := ℕ) (U := UR sig nD τ) (Lvl := ℕ) spec1 c V := by
  rw [arrBufs1_eq, arrays1_eq, hF 0, hF 1, hF 2, hF 3, hF 4, hF 5]
  iintro ⟨Hl, Hrl, Hrr, H23, H28, H29⟩
  isplitl [Hl Hrl Hrr]
  · iapply (pointsTo_share (PosShare.mem_left_op_right fullShare)).2
    isplitl [Hl]; · iexact Hl
    iapply (pointsTo_share (PosShare.mem_left_op_right fullShare.right)).2
    isplitl [Hrl] <;> iassumption
  isplitl [H23]; · iexact H23
  isplitl [H28]; · iexact H28
  iexact H29

end

end Cert.KernelIdeal.Hand
end
-- ==== Proof.KI.Run.lean ====
import proofs.«106968_j70755291234837_2_alg».proof.Proof.Gen.KernelIdeal.Launch
import proofs.«106968_j70755291234837_2_alg».proof.Proof.Gen.KernelIdeal.Skeleton
import proofs.«106968_j70755291234837_2_alg».proof.Proof.Gen.KernelIdeal.Points
import proofs.«106968_j70755291234837_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106968_j70755291234837_2_alg».proof.Proof.KI.Shares
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The run: the program's four stretches from the launch to the return

A stretch of host operations, the projection call, two more host operations, the attention call. Between stretches
every unscoped buffer of the core is held whole at known contents: the launch memory, then each host stretch's
results folded in, then what each call's write-backs leave in its result array (every other buffer as it was). -/

variable (m : (ℓ : Loc nD τ sig) → Buf (Elt F) ℓ) (ρ : Dev nD → PrngReg)

/-- At launch. -/
abbrev Wl0 : Dev nD → Valuation τ sig (Elt F) := fun c b => (s₀ m ρ).mem ((c : Dev nD), b)
/-- After the first host stretch (the projection call's entry). -/
abbrev Wl1 : Dev nD → Valuation τ sig (Elt F) := fun c => StableHlo.after hostOps0 (Wl0 m ρ c)
abbrev Vl1 : (c : Dev nD) → (b : Ref sig .tc) → Buf (Elt F) ((c : Thread nD τ).loc b) := fun c b => Wl1 m ρ c b
/-- After the projection call: its arrays at what the write-backs leave. -/
def Wl2 (c : Dev nD) : Valuation τ sig (Elt F) :=
  Pipeline.withArrays spec0 c (Wl1 m ρ c) fun w => (dat0 (Vl1 m ρ) c).arrAt w cfg0.N
theorem Wl2_arr (c : Dev nD) (w : Fin cfg0.W) :
    Wl2 m ρ c (Proc.devRef .tc (Pipeline.arrRef spec0 w)) = (dat0 (Vl1 m ρ) c).arrAt w cfg0.N := by
  unfold Wl2; exact Pipeline.withArrays_arr spec0 launch0.win.arr_inj c _ _ w
theorem Wl2_of_ne (c : Dev nD) (b : Ref sig .tc) (hb : ∀ w, Pipeline.arrRef spec0 w ≠ b) :
    Wl2 m ρ c (Proc.devRef .tc b) = Wl1 m ρ c (Proc.devRef .tc b) := by
  unfold Wl2; exact Pipeline.withArrays_of_ne spec0 c _ _ b hb
abbrev Vl2 : (c : Dev nD) → (b : Ref sig .tc) → Buf (Elt F) ((c : Thread nD τ).loc b) := fun c b => Wl2 m ρ c b
theorem hF0 (c : Dev nD) (w : Fin cfg0.W) : (dat0 (Vl1 m ρ) c).arrAt w cfg0.N = Vl2 m ρ c (Pipeline.arrRef spec0 w) :=
  (Wl2_arr m ρ c w).symm
theorem hrest0 (c : Dev nD) : ∀ b, b ∉ Finset.univ.image (Pipeline.arrRef spec0) → Vl2 m ρ c b = Vl1 m ρ c b :=
  fun b hb => Wl2_of_ne m ρ c b fun w e => hb (Finset.mem_image.mpr ⟨w, Finset.mem_univ _, e⟩)

/-- After the two host operations between the calls (the attention call's entry). -/
abbrev Wl3 : Dev nD → Valuation τ sig (Elt F) := fun c => StableHlo.after hostOps1 (Wl2 m ρ c)
abbrev Vl3 : (c : Dev nD) → (b : Ref sig .tc) → Buf (Elt F) ((c : Thread nD τ).loc b) := fun c b => Wl3 m ρ c b
/-- After the attention call: its result array at what the write-backs leave, every other buffer as it was. -/
def Wl4 (c : Dev nD) : Valuation τ sig (Elt F) :=
  Function.update (Wl3 m ρ c) (Proc.devRef .tc main_v29) ((dat1 (Vl3 m ρ) c).arrAt 5 cfg1.N)
abbrev Vl4 : (c : Dev nD) → (b : Ref sig .tc) → Buf (Elt F) ((c : Thread nD τ).loc b) := fun c b => Wl4 m ρ c b
theorem Wl4_out (c : Dev nD) : Wl4 m ρ c (Proc.devRef .tc main_v29) = (dat1 (Vl3 m ρ) c).arrAt 5 cfg1.N := by
  unfold Wl4; exact Function.update_self _ _ _
theorem Wl4_of_ne (c : Dev nD) (b : Ref sig .tc) (hb : b ≠ main_v29) :
    Wl4 m ρ c (Proc.devRef .tc b) = Wl3 m ρ c (Proc.devRef .tc b) := by
  unfold Wl4; exact Function.update_of_ne (StableHlo.devRef_ne_of_ne hb) _ _
theorem hF1 (c : Dev nD) : ∀ w : Fin cfg1.W, (dat1 (Vl3 m ρ) c).arrAt w cfg1.N = Vl4 m ρ c (Pipeline.arrRef spec1 w)
  | ⟨0, _⟩ => ((dat1 (Vl3 m ρ) c).arrAt_in 0 rfl _).trans ((A_eq1 (Vl3 m ρ) c 0).trans (Wl4_of_ne m ρ c main_v27 (by decide)).symm)
  | ⟨1, _⟩ => ((dat1 (Vl3 m ρ) c).arrAt_in 1 rfl _).trans ((A_eq1 (Vl3 m ρ) c 1).trans (Wl4_of_ne m ρ c main_v27 (by decide)).symm)
  | ⟨2, _⟩ => ((dat1 (Vl3 m ρ) c).arrAt_in 2 rfl _).trans ((A_eq1 (Vl3 m ρ) c 2).trans (Wl4_of_ne m ρ c main_v27 (by decide)).symm)
  | ⟨3, _⟩ => ((dat1 (Vl3 m ρ) c).arrAt_in 3 rfl _).trans ((A_eq1 (Vl3 m ρ) c 3).trans (Wl4_of_ne m ρ c main_v23 (by decide)).symm)
  | ⟨4, _⟩ => ((dat1 (Vl3 m ρ) c).arrAt_in 4 rfl _).trans ((A_eq1 (Vl3 m ρ) c 4).trans (Wl4_of_ne m ρ c main_v28 (by decide)).symm)
  | ⟨5, _⟩ => (Wl4_out m ρ c).symm
theorem hrest1 (c : Dev nD) : ∀ b, b ∉ Finset.univ.image (Pipeline.arrRef spec1) → Vl4 m ρ c b = Vl3 m ρ c b :=
  fun b hb => Wl4_of_ne m ρ c b fun e => hb (by rw [arrImage1, e]; decide)

/-! ### The proof data family and what rides along -/

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Vl1 m ρ) c
  | ⟨1, _⟩ => fun c => dat1 (Vl3 m ρ) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wl4 m ρ c) ∗ ∃ r, prngReg c r)

/-! ### The two calls as segments -/

set_option backward.isDefEq.respectTransparency.types false in
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vl1 m ρ) c).loose
  hwaits := Pipeline.hwaits_of_owed_zero _ _ _ _ LH lvH 0 fun _ _ => rfl
  pre c := iprop(StableHlo.held (c : Thread nD τ) (Pipeline.ucRefs τ sig) (Wl1 m ρ c) ∗ RH c)
  post c := iprop(StableHlo.held (c : Thread nD τ) (Pipeline.ucRefs τ sig) (Wl2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vl1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vl1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vl1 m ρ c) (Vl2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention call's entry: every unscoped buffer at the entry contents is the call's arrays (the shared array's
    share cut in three) and the rest. -/
theorem entry1 (c : Dev nD) :
    (unscopedBufs (Ix := Unit) (Name := ℕ) (U := UR sig nD τ) (Lvl := ℕ) c (Vl3 m ρ c) : sProp 𝕄)
      ⊢ iprop((dat1 (Vl3 m ρ) c).arrays ((dat1 (Vl3 m ρ) c).arrAt · 0) ∗ Pipeline.unscopedRest spec1 c (Vl3 m ρ c)) := by
  rw [Pipeline.unscopedBufs_split₀ cfgs 1 winFacts₀1.arr_unscoped c (Vl3 m ρ c)]
  exact sep_mono (arrays_split1 (Vl3 m ρ) c (Vl3 m ρ c) _ fun w => A_eq1 (Vl3 m ρ) c w) .rfl

/-- Its exit: the arrays as the write-backs leave them (the three shares at one contents joined) and the rest are
    every unscoped buffer at the exit contents. -/
theorem exit1 (c : Dev nD) :
    iprop((dat1 (Vl3 m ρ) c).arrays ((dat1 (Vl3 m ρ) c).arrAt · cfg1.N) ∗ Pipeline.unscopedRest spec1 c (Vl3 m ρ c))
      ⊢ (unscopedBufs (Ix := Unit) (Name := ℕ) (U := UR sig nD τ) (Lvl := ℕ) c (Vl4 m ρ c) : sProp 𝕄) := by
  rw [Pipeline.unscopedBufs_split₀ cfgs 1 winFacts₀1.arr_unscoped c (Vl4 m ρ c)]
  refine sep_mono (arrays_join1 (Vl3 m ρ) c (Vl4 m ρ c) _ (hF1 m ρ c)) (Entails.of_eq ?_)
  unfold Pipeline.unscopedRest
  exact bigSep_congr fun b hb => by rw [hrest1 m ρ c b (Finset.mem_sdiff.mp hb).2]

set_option backward.isDefEq.respectTransparency.types false in
def reg1 : Pipeline.RegionSeg (pcfgs (F := F)) admH (pdatsH m ρ) () defs₀ 𝒱H LH lvH 1 where
  win := winFacts₀1
  block_pos := block_pos1
  stage_whole := stage_whole1
  K := PEmpty
  osem k := k.elim
  ho := Pipeline.OwnSemFacts.none _
  hbody c := (body_obligation1 (Vl3 m ρ) c).loose
  hwaits := Pipeline.hwaits_of_owed_zero _ _ _ _ LH lvH 1 fun _ _ => rfl
  pre c := iprop(StableHlo.held (c : Thread nD τ) (Pipeline.ucRefs τ sig) (Wl3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vl3 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ### The program as its segments, and the run -/

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor

abbrev segsH : List (Pipeline.Seg (pcfgs (F := F)) admH (pdatsH m ρ) () defs₀ 𝒱H LH lvH) :=
  [ .host (hsegH hostOps0 hostOps0_sub hostOps0_freshH (Wl0 m ρ)),
    .region (reg0 m ρ),
    .host (hsegH hostOps1 hostOps1_sub hostOps1_freshH (Wl2 m ρ)),
    .region (reg1 m ρ) ]
theorem main_run (c : Dev nD) : main (F := F) c = Pipeline.Seg.run (segsH m ρ) := (main_chain c).trans (by chain_rfl)

set_option backward.isDefEq.respectTransparency.types false in
/-- Every weakly fair execution of the program from memory `m` with zero counters terminates, nothing faulting,
    with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wl4 m ρ c b) :=
  Pipeline.θ_run_regions_kit (pcfgs (F := F)) admH (pdatsH m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wl0 m ρ c)
        from Pipeline.unscopedBufs_held c (Wl0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wl4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wl4 m ρ c) s')
      isplitl [Hh] <;> iassumption)
    (hQ := fun s h c => h c)

end Cert.KernelIdeal.Hand
end
-- ==== Proof.KI.Frame.lean ====
/-
  What the run leaves in the argument arrays and in the result array.

  The run ends with every unscoped buffer of every core at the last boundary's contents. An argument array is
  written by no host operation and is no array of either call's windows that is written back changed, so walking the
  boundaries back from the last to the launch leaves it at the launch memory; the result array is at what the second
  call's write-backs leave.
-/
import proofs.«106968_j70755291234837_2_alg».proof.Proof.KI.Run
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Argument 0 reaches the end as launched. -/
theorem Wl4_main_arg0 (c : Dev nD) : Wl4 m ρ c (Proc.devRef .tc main_arg0) = m ((c : Thread nD τ).loc main_arg0) :=
  calc Wl4 m ρ c (Proc.devRef .tc main_arg0)
    _ = Wl3 m ρ c (Proc.devRef .tc main_arg0) := Wl4_of_ne m ρ c main_arg0 (by decide)
    _ = Wl2 m ρ c (Proc.devRef .tc main_arg0) := StableHlo.after_of_writes_sub hostOps1 _ hostOps1_writes (by decide)
    _ = Wl1 m ρ c (Proc.devRef .tc main_arg0) := Wl2_of_ne m ρ c main_arg0 (by decide)
    _ = Wl0 m ρ c (Proc.devRef .tc main_arg0) := StableHlo.after_of_writes_sub hostOps0 _ hostOps0_writes (by decide)
    _ = m ((c : Thread nD τ).loc main_arg0) := rfl

/-- Argument 1 reaches the end as launched. -/
theorem Wl4_main_arg1 (c : Dev nD) : Wl4 m ρ c (Proc.devRef .tc main_arg1) = m ((c : Thread nD τ).loc main_arg1) :=
  calc Wl4 m ρ c (Proc.devRef .tc main_arg1)
    _ = Wl3 m ρ c (Proc.devRef .tc main_arg1) := Wl4_of_ne m ρ c main_arg1 (by decide)
    _ = Wl2 m ρ c (Proc.devRef .tc main_arg1) := StableHlo.after_of_writes_sub hostOps1 _ hostOps1_writes (by decide)
    _ = Wl1 m ρ c (Proc.devRef .tc main_arg1) := Wl2_of_ne m ρ c main_arg1 (by decide)
    _ = Wl0 m ρ c (Proc.devRef .tc main_arg1) := StableHlo.after_of_writes_sub hostOps0 _ hostOps0_writes (by decide)
    _ = m ((c : Thread nD τ).loc main_arg1) := rfl

/-- Argument 2 reaches the end as launched. -/
theorem Wl4_main_arg2 (c : Dev nD) : Wl4 m ρ c (Proc.devRef .tc main_arg2) = m ((c : Thread nD τ).loc main_arg2) :=
  calc Wl4 m ρ c (Proc.devRef .tc main_arg2)
    _ = Wl3 m ρ c (Proc.devRef .tc main_arg2) := Wl4_of_ne m ρ c main_arg2 (by decide)
    _ = Wl2 m ρ c (Proc.devRef .tc main_arg2) := StableHlo.after_of_writes_sub hostOps1 _ hostOps1_writes (by decide)
    _ = Wl1 m ρ c (Proc.devRef .tc main_arg2) := Wl2_of_ne m ρ c main_arg2 (by decide)
    _ = Wl0 m ρ c (Proc.devRef .tc main_arg2) := StableHlo.after_of_writes_sub hostOps0 _ hostOps0_writes (by decide)
    _ = m ((c : Thread nD τ).loc main_arg2) := rfl

/-- Argument 3 reaches the end as launched. -/
theorem Wl4_main_arg3 (c : Dev nD) : Wl4 m ρ c (Proc.devRef .tc main_arg3) = m ((c : Thread nD τ).loc main_arg3) :=
  calc Wl4 m ρ c (Proc.devRef .tc main_arg3)
    _ = Wl3 m ρ c (Proc.devRef .tc main_arg3) := Wl4_of_ne m ρ c main_arg3 (by decide)
    _ = Wl2 m ρ c (Proc.devRef .tc main_arg3) := StableHlo.after_of_writes_sub hostOps1 _ hostOps1_writes (by decide)
    _ = Wl1 m ρ c (Proc.devRef .tc main_arg3) := Wl2_of_ne m ρ c main_arg3 (by decide)
    _ = Wl0 m ρ c (Proc.devRef .tc main_arg3) := StableHlo.after_of_writes_sub hostOps0 _ hostOps0_writes (by decide)
    _ = m ((c : Thread nD τ).loc main_arg3) := rfl

/-- Argument 4 reaches the end as launched. -/
theorem Wl4_main_arg4 (c : Dev nD) : Wl4 m ρ c (Proc.devRef .tc main_arg4) = m ((c : Thread nD τ).loc main_arg4) :=
  calc Wl4 m ρ c (Proc.devRef .tc main_arg4)
    _ = Wl3 m ρ c (Proc.devRef .tc main_arg4) := Wl4_of_ne m ρ c main_arg4 (by decide)
    _ = Wl2 m ρ c (Proc.devRef .tc main_arg4) := StableHlo.after_of_writes_sub hostOps1 _ hostOps1_writes (by decide)
    _ = Wl1 m ρ c (Proc.devRef .tc main_arg4) := Wl2_of_ne m ρ c main_arg4 (by decide)
    _ = Wl0 m ρ c (Proc.devRef .tc main_arg4) := StableHlo.after_of_writes_sub hostOps0 _ hostOps0_writes (by decide)
    _ = m ((c : Thread nD τ).loc main_arg4) := rfl

/-- Every weakly fair execution from memory `m` with zero counters terminates, nothing faulting, and the five
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wl4_main_arg0 m ρ c),
      (h c _ (mem_uc main_arg1 (by decide))).trans (Wl4_main_arg1 m ρ c),
      (h c _ (mem_uc main_arg2 (by decide))).trans (Wl4_main_arg2 m ρ c),
      (h c _ (mem_uc main_arg3 (by decide))).trans (Wl4_main_arg3 m ρ c),
      (h c _ (mem_uc main_arg4 (by decide))).trans (Wl4_main_arg4 m ρ c)⟩) (run_all m ρ)

/-- The same run, with the result array at what the second call's write-backs leave. -/
theorem run_out : θ_run defs (onTc (τ := τ) (main (F := F))) ⟨m, fun _ => 0, ρ⟩ (fun r => ∀ c : Dev nD,
      r.2.mem ((c.tc : Thread nD τ).loc main_v29) = (dat1 (Vl3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v29 (by decide))).trans (Wl4_out m ρ c),
      (h c _ (mem_uc main_arg0 (by decide))).trans (Wl4_main_arg0 m ρ c),
      (h c _ (mem_uc main_arg1 (by decide))).trans (Wl4_main_arg1 m ρ c),
      (h c _ (mem_uc main_arg2 (by decide))).trans (Wl4_main_arg2 m ρ c),
      (h c _ (mem_uc main_arg3 (by decide))).trans (Wl4_main_arg3 m ρ c),
      (h c _ (mem_uc main_arg4 (by decide))).trans (Wl4_main_arg4 m ρ c)⟩) (run_all m ρ)

end Cert.KernelIdeal.Hand

end
-- ==== Proof.Spec.lean ====
/-
  The attention layer as one function of its five argument arrays, entry by entry, on the extended reals.

  A token (b, s) of the input is projected to 3072 features (`proj`): feature e is the row-column sum of the
  token with row e of the weight, plus the bias. The features are grouped per head: head h owns the 192
  consecutive features from 192 h; the first 64 are its query, the next 64 its key, the last 64 its value
  (`feat h p d`, with p = 0, 1, 2). For a head, the score of a query token against a key token is the sum of
  the 64 products of their coordinates, divided by 8 (the square root of 64); a row of scores is turned into
  weights by the softmax: subtract the row's maximum, exponentiate, divide by the row's sum. The head's context
  at a query token is the weighted sum of the value coordinates over the key tokens. The 16 heads' contexts, side
  by side (coordinate 64 h + d), are projected once more by the second weight and bias: `out`.
-/
import Idealize.ShloMosaic.PureOps.Ideal
import Idealize.ShloMosaic.Lib.ValueIdx

noncomputable section

namespace Cert.Attn

open Idealize.ShloMosaic Idealize.ShloMosaic.ValueIdx
open scoped BigOperators

/-- Feature number of coordinate `d` of part `p` (0 the query, 1 the key, 2 the value) of head `h`. -/
def feat (h : Fin 16) (p : Fin 3) (d : Fin 64) : Fin 3072 := ⟨h.val * 192 + p.val * 64 + d.val, by omega⟩

/-- The projected features of token `(b, s)`: feature `e` is `∑ₖ x(b,s,k) · w(e,k) + bias(e)`. -/
def proj (x : (⟨3, ![2, 2048, 1024]⟩ : Shape).Idx → EReal) (w : (⟨2, ![3072, 1024]⟩ : Shape).Idx → EReal)
    (bq : (⟨1, ![3072]⟩ : Shape).Idx → EReal) (b : Fin 2) (s : Fin 2048) (e : Fin 3072) : EReal :=
  (∑ k : Fin 1024, x (ix3 b s k) * w (ix2 e k)) + bq (ix1 e)

section Heads

variable (P : Fin 2 → Fin 2048 → Fin 3072 → EReal)

/-- The score of query token `q` against key token `k` in head `h` of batch `b`: the sum of the products of
    their 64 coordinates, divided by 8. -/
def score (b : Fin 2) (h : Fin 16) (q k : Fin 2048) : EReal :=
  Ideal.div (∑ d : Fin 64, P b q (feat h 0 d) * P b k (feat h 1 d)) (Ideal.ofBits .f32 0x41000000#32)

/-- The largest score of a query token's row (the maximum folded from `-∞`). -/
def rowMax (b : Fin 2) (h : Fin 16) (q : Fin 2048) : EReal :=
  (Finset.univ : Finset (Fin 2048)).fold max (Ideal.ofBits .f32 0xFF800000#32) (fun k => score P b h q k)

/-- The exponential of a score less its row's maximum. -/
def expo (b : Fin 2) (h : Fin 16) (q k : Fin 2048) : EReal := Ideal.exp (score P b h q k - rowMax P b h q)

/-- The softmax weight of key token `k` for query token `q`. -/
def weight (b : Fin 2) (h : Fin 16) (q k : Fin 2048) : EReal :=
  Ideal.div (expo P b h q k) (∑ k' : Fin 2048, expo P b h q k')

/-- The head's context at query token `q`, coordinate `d`: the weighted sum of the value coordinates. -/
def ctx (b : Fin 2) (h : Fin 16) (q : Fin 2048) (d : Fin 64) : EReal :=
  ∑ k : Fin 2048, weight P b h q k * P b k (feat h 2 d)

/-- The heads' contexts side by side: coordinate `j = 64 h + d` of token `(b, s)`. -/
def merged (b : Fin 2) (s : Fin 2048) (j : Fin 1024) : EReal :=
  ctx P b ⟨j.val / 64, by omega⟩ s ⟨j.val % 64, by omega⟩

end Heads

/-- The layer's result at `(b, s, e)`. -/
def out (x : (⟨3, ![2, 2048, 1024]⟩ : Shape).Idx → EReal) (w : (⟨2, ![3072, 1024]⟩ : Shape).Idx → EReal)
    (bq : (⟨1, ![3072]⟩ : Shape).Idx → EReal) (wf : (⟨2, ![1024, 1024]⟩ : Shape).Idx → EReal)
    (bf : (⟨1, ![1024]⟩ : Shape).Idx → EReal) : (⟨3, ![2, 2048, 1024]⟩ : Shape).Idx → EReal := fun i =>
  (∑ j : Fin 1024, merged (proj x w bq) (i 0) (i 1) j * wf (ix2 (i 2) j)) + bf (ix1 (i 2))

end Cert.Attn

end
-- ==== Proof.RefSide.lean ====
/-
  The reference side: the reference program computes the attention layer of the specification.

  Stage by stage, every array the reference writes is read at an index given by its coordinates and found to be the
  specification's quantity there. The first product with its bias is the projected features. The features regrouped
  as 16 heads of 192 and the token and head axes exchanged send (b, h, s, j) to feature 192 h + j of token (b, s),
  because the row-major position of (b, s, h, j) in [2, 2048, 16, 192] is that of (b, s, 192 h + j) in
  [2, 2048, 3072]; the three slices of width 64 are the head's query, key and value coordinates. The product of the
  queries with the keys divided by 8 is the score. Its maximum over the key axis, folded from the bottom of the extended
  reals, is the row maximum, and the further maximum with the bottom changes nothing. The exponential of the score
  less the row maximum, its sum over the key axis from zero, and their quotient are the softmax weight. The product
  of the weights with the values is the head's context; the axes exchanged back and the heads laid side by side send
  (b, s, j) to coordinate j mod 64 of head j / 64. The last product with its bias is the layer's result.
-/
import proofs.«106968_j70755291234837_2_alg».proof.Proof.Gen.ReferenceIdeal.Read
import proofs.«106968_j70755291234837_2_alg».proof.Proof.Spec

noncomputable section

namespace Cert.Attn.RefSide

open Cert.ReferenceIdeal Cert.ReferenceIdeal.Gen Cert.ReferenceIdeal.Read
open Idealize.ShloMosaic Idealize.ShloMosaic.ValueIdx Idealize.SL.Sem
open scoped BigOperators

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The biased projection, read at token (b, s) and feature e, is the specification's feature. -/
theorem v3_at (b : Fin 2) (s : Fin 2048) (e : Fin 3072) :
    val_main_v3 (F := Ideal) x0 x1 x2 (ix3 b s e) = Cert.Attn.proj x0 x1 x2 b s e := by
  rw [val_main_v3_apply, val_main_v0_apply, val_main_v2_apply, val_main_v1_apply]
  have el : ∀ k : Fin 1024, lidx_main_v0 (ix3 b s e) k = ix3 b s k := fun k => funext fun a => by
    match a with | ⟨0, _⟩ => rfl | ⟨1, _⟩ => rfl | ⟨2, _⟩ => rfl
  have er : ∀ k : Fin 1024, ridx_main_v0 (ix3 b s e) k = ix2 e k := fun k => funext fun a => by
    match a with | ⟨0, _⟩ => rfl | ⟨1, _⟩ => rfl
  have eb : idx_main_v1 (idx_main_v2 (ix3 b s e)) = ix1 e := funext fun a => by
    match a with | ⟨0, _⟩ => rfl
  simp only [el, er, eb]
  rfl

/-- The features regrouped per head and the token and head axes exchanged: entry (b, h, s, j) is feature 192 h + j of token (b, s). -/
theorem v5_at (b : Fin 2) (h : Fin 16) (s : Fin 2048) (j : Fin 192) :
    val_main_v5 (F := Ideal) x0 x1 x2 (ix4 b h s j)
      = Cert.Attn.proj x0 x1 x2 b s ⟨h.val * 192 + j.val, by omega⟩ := by
  rw [val_main_v5_apply, val_main_v4_apply, ← v3_at]
  refine congrArg _ (funext fun a => Fin.ext ?_)
  have hb := b.isLt; have hh := h.isLt; have hs := s.isLt; have hj := j.isLt
  match a with
  | ⟨0, _⟩ => show (((b.val * 2048 + s.val) * 16 + h.val) * 192 + j.val) / 6291456 = b.val; omega
  | ⟨1, _⟩ => show (((b.val * 2048 + s.val) * 16 + h.val) * 192 + j.val) / 3072 % 2048 = s.val; omega
  | ⟨2, _⟩ => show (((b.val * 2048 + s.val) * 16 + h.val) * 192 + j.val) % 3072 = h.val * 192 + j.val; omega

/-- The query slice: entry (b, h, s, d) is the query coordinate d of head h at token (b, s). -/
theorem v6_at (b : Fin 2) (h : Fin 16) (s : Fin 2048) (d : Fin 64) :
    val_main_v6 (F := Ideal) x0 x1 x2 (ix4 b h s d) = Cert.Attn.proj x0 x1 x2 b s (Cert.Attn.feat h 0 d) := by
  have hd := d.isLt
  rw [val_main_v6_apply]
  have e : idx_main_v6 (ix4 b h s d) = ix4 b h s (⟨d.val, by omega⟩ : Fin 192) := funext fun a => by
    match a with | ⟨0, _⟩ => rfl | ⟨1, _⟩ => rfl | ⟨2, _⟩ => rfl | ⟨3, _⟩ => rfl
  rw [e, v5_at]
  refine congrArg _ (Fin.ext ?_)
  show h.val * 192 + d.val = h.val * 192 + 0 * 64 + d.val
  omega

/-- The key slice: entry (b, h, s, d) is the key coordinate d of head h at token (b, s). -/
theorem v7_at (b : Fin 2) (h : Fin 16) (s : Fin 2048) (d : Fin 64) :
    val_main_v7 (F := Ideal) x0 x1 x2 (ix4 b h s d) = Cert.Attn.proj x0 x1 x2 b s (Cert.Attn.feat h 1 d) := by
  have hd := d.isLt
  rw [val_main_v7_apply]
  have e : idx_main_v7 (ix4 b h s d) = ix4 b h s (⟨64 + d.val, by omega⟩ : Fin 192) := funext fun a => by
    match a with | ⟨0, _⟩ => rfl | ⟨1, _⟩ => rfl | ⟨2, _⟩ => rfl | ⟨3, _⟩ => rfl
  rw [e, v5_at]
  refine congrArg _ (Fin.ext ?_)
  show h.val * 192 + (64 + d.val) = h.val * 192 + 1 * 64 + d.val
  omega

/-- The value slice: entry (b, h, s, d) is the value coordinate d of head h at token (b, s). -/
theorem v8_at (b : Fin 2) (h : Fin 16) (s : Fin 2048) (d : Fin 64) :
    val_main_v8 (F := Ideal) x0 x1 x2 (ix4 b h s d) = Cert.Attn.proj x0 x1 x2 b s (Cert.Attn.feat h 2 d) := by
  have hd := d.isLt
  rw [val_main_v8_apply]
  have e : idx_main_v8 (ix4 b h s d) = ix4 b h s (⟨128 + d.val, by omega⟩ : Fin 192) := funext fun a => by
    match a with | ⟨0, _⟩ => rfl | ⟨1, _⟩ => rfl | ⟨2, _⟩ => rfl | ⟨3, _⟩ => rfl
  rw [e, v5_at]
  refine congrArg _ (Fin.ext ?_)
  show h.val * 192 + (128 + d.val) = h.val * 192 + 2 * 64 + d.val
  omega

/-- The scaled score: entry (b, h, q, k) is the specification's score of query token q against key token k. -/
theorem v11_at (b : Fin 2) (h : Fin 16) (q k : Fin 2048) :
    val_main_v11 (F := Ideal) x0 x1 x2 (ix4 b h q k) = Cert.Attn.score (Cert.Attn.proj x0 x1 x2) b h q k := by
  rw [val_main_v11_apply, val_main_v9_apply, val_main_v10_apply, val_main_cst_apply]
  have el : ∀ d : Fin 64, lidx_main_v9 (ix4 b h q k) d = ix4 b h q d := fun d => funext fun a => by
    match a with | ⟨0, _⟩ => rfl | ⟨1, _⟩ => rfl | ⟨2, _⟩ => rfl | ⟨3, _⟩ => rfl
  have er : ∀ d : Fin 64, ridx_main_v9 (ix4 b h q k) d = ix4 b h k d := fun d => funext fun a => by
    match a with | ⟨0, _⟩ => rfl | ⟨1, _⟩ => rfl | ⟨2, _⟩ => rfl | ⟨3, _⟩ => rfl
  simp only [el, er, v6_at, v7_at]
  rfl

/-- The reduced shape's index (b, h, q) with k put back on the last axis is (b, h, q, k). -/
theorem lift_last4 (hr : S2x16x2048x2048.Reduces [3] S2x16x2048) (b : Fin 2) (h : Fin 16) (q : Fin 2048)
    (k : Fin (S2x16x2048x2048.size 3)) : hr.lift (ix3 b h q) k = ix4 b h q (⟨k.val, k.isLt⟩ : Fin 2048) :=
  funext fun a => Fin.ext (by match a with | ⟨0, _⟩ => rfl | ⟨1, _⟩ => rfl | ⟨2, _⟩ => rfl | ⟨3, _⟩ => rfl)

/-- The word 0xFF800000 is the bottom of the extended reals: the maximum with it is the other operand. -/
theorem max_negInf (y : EReal) : max (Ideal.ofBits .f32 0xFF800000#32) y = y := by
  simp [Ideal.ofBits, Ideal.ieee]

/-- The row maximum: entry (b, h, q) of the reduction over the key axis is the fold of max from the bottom over the row's scores. -/
theorem v12_at (b : Fin 2) (h : Fin 16) (q : Fin 2048) :
    val_main_v12 (F := Ideal) x0 x1 x2 (ix3 b h q) = Cert.Attn.rowMax (Cert.Attn.proj x0 x1 x2) b h q := by
  have hr : S2x16x2048x2048.Reduces [3] S2x16x2048 := by decide
  unfold val_main_v12
  rw [Host.reduce_eq_fold_single FloatOps.maximumf _ _ reducesTo_S2x16x2048x2048_S2x16x2048_d3 hr h_S_]
  have hf : (val_main_v11 (F := Ideal) x0 x1 x2 ∘ hr.lift (ix3 b h q))
      = fun k : Fin 2048 => Cert.Attn.score (Cert.Attn.proj x0 x1 x2) b h q k := funext fun k => by
    show val_main_v11 (F := Ideal) x0 x1 x2 (hr.lift (ix3 b h q) k) = _
    rw [lift_last4, v11_at]
    rfl
  rw [hf]
  rfl

/-- The maximum with the bottom again changes nothing. -/
theorem v14_at (b : Fin 2) (h : Fin 16) (q : Fin 2048) :
    val_main_v14 (F := Ideal) x0 x1 x2 (ix3 b h q) = Cert.Attn.rowMax (Cert.Attn.proj x0 x1 x2) b h q := by
  rw [val_main_v14_apply, val_main_v13_apply, val_main_cst_1_apply, v12_at]
  exact max_negInf _

/-- The row maximum repeated along the key axis. -/
theorem v16_at (b : Fin 2) (h : Fin 16) (q k : Fin 2048) :
    val_main_v16 (F := Ideal) x0 x1 x2 (ix4 b h q k) = Cert.Attn.rowMax (Cert.Attn.proj x0 x1 x2) b h q := by
  rw [val_main_v16_apply, val_main_v15_apply, ← v14_at]
  refine congrArg _ (funext fun a => ?_)
  match a with | ⟨0, _⟩ => rfl | ⟨1, _⟩ => rfl | ⟨2, _⟩ => rfl

/-- The exponential of a score less its row maximum. -/
theorem v18_at (b : Fin 2) (h : Fin 16) (q k : Fin 2048) :
    val_main_v18 (F := Ideal) x0 x1 x2 (ix4 b h q k) = Cert.Attn.expo (Cert.Attn.proj x0 x1 x2) b h q k := by
  rw [val_main_v18_apply, val_main_v17_apply, v11_at, v16_at]
  rfl

/-- The row's sum of exponentials: the sum from the zero word is the sum. -/
theorem v19_at (b : Fin 2) (h : Fin 16) (q : Fin 2048) :
    val_main_v19 (F := Ideal) x0 x1 x2 (ix3 b h q) = ∑ k : Fin 2048, Cert.Attn.expo (Cert.Attn.proj x0 x1 x2) b h q k := by
  rw [val_main_v19_apply, val_main_cst_2_apply]
  have e : ∀ k : Fin 2048, idx_main_v19 (ix3 b h q) k = ix4 b h q k := fun k => funext fun a => by
    match a with | ⟨0, _⟩ => rfl | ⟨1, _⟩ => rfl | ⟨2, _⟩ => rfl | ⟨3, _⟩ => rfl
  simp only [e, v18_at]
  rw [Ideal.ofBits_def, Ideal.ofBits_zero_f32, zero_add]

/-- The softmax weight. -/
theorem v22_at (b : Fin 2) (h : Fin 16) (q k : Fin 2048) :
    val_main_v22 (F := Ideal) x0 x1 x2 (ix4 b h q k) = Cert.Attn.weight (Cert.Attn.proj x0 x1 x2) b h q k := by
  rw [val_main_v22_apply, val_main_v21_apply, val_main_v20_apply, v18_at]
  have e : idx_main_v20 (idx_main_v21 (ix4 b h q k)) = ix3 b h q := funext fun a => by
    match a with | ⟨0, _⟩ => rfl | ⟨1, _⟩ => rfl | ⟨2, _⟩ => rfl
  rw [e, v19_at]
  rfl

/-- The head's context: the weighted sum of the value coordinates over the key tokens. -/
theorem v23_at (b : Fin 2) (h : Fin 16) (q : Fin 2048) (d : Fin 64) :
    val_main_v23 (F := Ideal) x0 x1 x2 (ix4 b h q d) = Cert.Attn.ctx (Cert.Attn.proj x0 x1 x2) b h q d := by
  rw [val_main_v23_apply]
  have el : ∀ k : Fin 2048, lidx_main_v23 (ix4 b h q d) k = ix4 b h q k := fun k => funext fun a => by
    match a with | ⟨0, _⟩ => rfl | ⟨1, _⟩ => rfl | ⟨2, _⟩ => rfl | ⟨3, _⟩ => rfl
  have er : ∀ k : Fin 2048, ridx_main_v23 (ix4 b h q d) k = ix4 b h k d := fun k => funext fun a => by
    match a with | ⟨0, _⟩ => rfl | ⟨1, _⟩ => rfl | ⟨2, _⟩ => rfl | ⟨3, _⟩ => rfl
  simp only [el, er, v22_at, v8_at]
  rfl

/-- The heads' contexts side by side: entry (b, s, j) is coordinate j mod 64 of head j / 64. -/
theorem v25_at (b : Fin 2) (s : Fin 2048) (j : Fin 1024) :
    val_main_v25 (F := Ideal) x0 x1 x2 (ix3 b s j) = Cert.Attn.merged (Cert.Attn.proj x0 x1 x2) b s j := by
  have hb := b.isLt; have hs := s.isLt; have hj := j.isLt
  rw [val_main_v25_apply, val_main_v24_apply]
  have e : idx_main_v24 (idx_main_v25 (ix3 b s j))
      = ix4 b (⟨j.val / 64, by omega⟩ : Fin 16) s (⟨j.val % 64, by omega⟩ : Fin 64) := funext fun a => Fin.ext (by
    match a with
    | ⟨0, _⟩ => show ((b.val * 2048 + s.val) * 1024 + j.val) / 2097152 = b.val; omega
    | ⟨1, _⟩ => show ((b.val * 2048 + s.val) * 1024 + j.val) / 64 % 16 = j.val / 64; omega
    | ⟨2, _⟩ => show ((b.val * 2048 + s.val) * 1024 + j.val) / 1024 % 2048 = s.val; omega
    | ⟨3, _⟩ => show ((b.val * 2048 + s.val) * 1024 + j.val) % 64 = j.val % 64; omega)
  rw [e, v23_at]
  rfl

variable (x3 : (⟨S1024x1024, .f32⟩ : BufTy).Contents (Elt Ideal)) (x4 : (⟨S1024, .f32⟩ : BufTy).Contents (Elt Ideal))

/-- The second projection with its bias, read at (b, s, e). -/
theorem v29_at (b : Fin 2) (s : Fin 2048) (e : Fin 1024) :
    val_main_v29 (F := Ideal) x0 x1 x2 x3 x4 (ix3 b s e) = Cert.Attn.out x0 x1 x2 x3 x4 (ix3 b s e) := by
  rw [val_main_v29_apply, val_main_v26_apply, val_main_v28_apply, val_main_v27_apply]
  have el : ∀ k : Fin 1024, lidx_main_v26 (ix3 b s e) k = ix3 b s k := fun k => funext fun a => by
    match a with | ⟨0, _⟩ => rfl | ⟨1, _⟩ => rfl | ⟨2, _⟩ => rfl
  have er : ∀ k : Fin 1024, ridx_main_v26 (ix3 b s e) k = ix2 e k := fun k => funext fun a => by
    match a with | ⟨0, _⟩ => rfl | ⟨1, _⟩ => rfl
  have eb : idx_main_v27 (idx_main_v28 (ix3 b s e)) = ix1 e := funext fun a => by
    match a with | ⟨0, _⟩ => rfl
  simp only [el, er, eb, v25_at]
  rfl

/-- The reference's result is the specification's layer. -/
theorem v29_eq : val_main_v29 (F := Ideal) x0 x1 x2 x3 x4 = Cert.Attn.out x0 x1 x2 x3 x4 := by
  funext i
  obtain ⟨b, s, e, rfl⟩ : ∃ (b : Fin 2) (s : Fin 2048) (e : Fin 1024), i = ix3 b s e :=
    ⟨i 0, i 1, i 2, eq_ix3 (n0 := 2) (n1 := 2048) (n2 := 1024) i⟩
  exact v29_at x0 x1 x2 x3 x4 b s e

/-- Every execution of the reference ends with its result at the specification's layer of the arguments, the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v29)
          = Cert.Attn.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans ((val_main_v29_eq (F := Ideal) m c).trans (v29_eq _ _ _ _ _)), (h c).2⟩)
    (Cert.ReferenceIdeal.Value.run (F := Ideal) m ρ)

end Cert.Attn.RefSide

end
-- ==== Proof.HostSide.lean ====
/-
  The host-side layout of the kernel program, read entry by entry.

  Before the first kernel call the fused weight [3072, 1024] (row h*192 + p*64 + d: head h, part p, coordinate d)
  is regrouped into three planes laid one after the other: row p*1024 + h*64 + d of the result is row
  h*192 + p*64 + d of the argument. The program does this by a reshape to [16, 3, 64, 1024], a cut of part p,
  two reshapes down to [1024, 1024], and a concatenation of the three cuts along the rows. The bias [3072] goes
  through the same steps one rank lower. This file proves each step over an arbitrary operand, by its row-major
  arithmetic.
-/
import proofs.«106968_j70755291234837_2_alg».proof.Proof.Gen.KernelIdeal.Regions
import proofs.«106968_j70755291234837_2_alg».proof.Proof.Spec
import Idealize.ShloMosaic.Lib.Pipeline.Value
import Idealize.ShloMosaic.Lib.ValueLayout

noncomputable section

namespace Cert.Attn.HostSide

open Cert.KernelIdeal Cert.KernelIdeal.Gen Idealize.ShloMosaic Idealize.ShloMosaic.ValueIdx

variable {α : Type}

/-- One plane of the weight: row `r = h*64 + d` of the cut of part `o` is row `h*192 + o*64 + d` of the argument. -/
theorem wcut_read (X : S3072x1024.Idx → α) (o : Nat) (ho : o < 3)
    (h0 : S3072x1024.ShapeCasts S16x3x64x1024) (hs : S16x3x64x1024.Slices ![0, o, 0, 0] S16x1x64x1024)
    (h1 : S16x1x64x1024.ShapeCasts S16x64x1024) (h2 : S16x64x1024.ShapeCasts S1024x1024)
    (r : Fin 1024) (k : Fin 1024) :
    shapeCast S1024x1024 (shapeCast S16x64x1024 (extractStridedSlice S16x1x64x1024 ![0, o, 0, 0] (shapeCast S16x3x64x1024 X h0) hs) h1) h2 (ix2 r k)
      = X (ix2 (⟨(r.val / 64) * 192 + o * 64 + r.val % 64, by omega⟩ : Fin 3072) k) := by
  refine (shapeCast_apply _ _ (ix2 r k) (ix3 (⟨r.val / 64, by omega⟩ : Fin 16) (⟨r.val % 64, by omega⟩ : Fin 64) k) ?_).trans ?_
  · rw [Shape.rowMajor_val_three, Shape.rowMajor_val_two]
    show (r.val / 64 * 64 + r.val % 64) * 1024 + k.val = r.val * 1024 + k.val
    omega
  refine (shapeCast_apply _ _ _ (ix4 (⟨r.val / 64, by omega⟩ : Fin 16) (0 : Fin 1) (⟨r.val % 64, by omega⟩ : Fin 64) k) ?_).trans ?_
  · rw [Shape.rowMajor_val_four, Shape.rowMajor_val_three]
    show ((r.val / 64 * 1 + 0) * 64 + r.val % 64) * 1024 + k.val = (r.val / 64 * 64 + r.val % 64) * 1024 + k.val
    omega
  refine (slice4_axis1_apply o _ hs _ (0 : Fin 1) _ _ (⟨o, ho⟩ : Fin 3) (by simp)).trans ?_
  refine shapeCast_apply _ _ _ _ ?_
  rw [Shape.rowMajor_val_two, Shape.rowMajor_val_four]
  show (r.val / 64 * 192 + o * 64 + r.val % 64) * 1024 + k.val = ((r.val / 64 * 3 + o) * 64 + r.val % 64) * 1024 + k.val
  omega

/-- One plane of the bias: entry `r = h*64 + d` of the cut of part `o` is entry `h*192 + o*64 + d` of the argument. -/
theorem bcut_read (X : S3072.Idx → α) (o : Nat) (ho : o < 3)
    (h0 : S3072.ShapeCasts S16x3x64) (hs : S16x3x64.Slices ![0, o, 0] S16x1x64)
    (h1 : S16x1x64.ShapeCasts S16x64) (h2 : S16x64.ShapeCasts S1024)
    (r : Fin 1024) :
    shapeCast S1024 (shapeCast S16x64 (extractStridedSlice S16x1x64 ![0, o, 0] (shapeCast S16x3x64 X h0) hs) h1) h2 (ix1 r)
      = X (ix1 (⟨(r.val / 64) * 192 + o * 64 + r.val % 64, by omega⟩ : Fin 3072)) := by
  refine (shapeCast_apply _ _ (ix1 r) (ix2 (⟨r.val / 64, by omega⟩ : Fin 16) (⟨r.val % 64, by omega⟩ : Fin 64)) ?_).trans ?_
  · rw [Shape.rowMajor_val_two, Shape.rowMajor_val_one]
    show r.val / 64 * 64 + r.val % 64 = r.val
    omega
  refine (shapeCast_apply _ _ _ (ix3 (⟨r.val / 64, by omega⟩ : Fin 16) (0 : Fin 1) (⟨r.val % 64, by omega⟩ : Fin 64)) ?_).trans ?_
  · rw [Shape.rowMajor_val_three, Shape.rowMajor_val_two]
    show (r.val / 64 * 1 + 0) * 64 + r.val % 64 = r.val / 64 * 64 + r.val % 64
    omega
  refine (slice3_axis1_apply o _ hs _ (0 : Fin 1) _ (⟨o, ho⟩ : Fin 3) (by simp)).trans ?_
  refine shapeCast_apply _ _ _ _ ?_
  rw [Shape.rowMajor_val_one, Shape.rowMajor_val_three]
  show r.val / 64 * 192 + o * 64 + r.val % 64 = (r.val / 64 * 3 + o) * 64 + r.val % 64
  omega

/-- Three [1024, 1024] pieces laid one after the other along the rows: row `cc` of the whole is row `cc % 1024`
    of piece `cc / 1024`. -/
theorem wcat_read (P : Fin 3 → (S1024x1024.Idx → α))
    (h : Shape.Concatenates [S1024x1024, S1024x1024, S1024x1024] S3072x1024 0) (cc : Fin 3072) (k : Fin 1024) :
    concatenate S3072x1024 0 [⟨S1024x1024, P 0⟩, ⟨S1024x1024, P 1⟩, ⟨S1024x1024, P 2⟩] h (ix2 cc k)
      = P ⟨cc.val / 1024, by omega⟩ (ix2 (⟨cc.val % 1024, by omega⟩ : Fin 1024) k) := by
  have hi : ∀ b : Fin S1024x1024.rank, b.cast (rfl : S1024x1024.rank = S3072x1024.rank) ≠ (0 : Fin S3072x1024.rank) →
      ((ix2 (⟨cc.val % 1024, by omega⟩ : Fin 1024) k : S1024x1024.Idx) b).val = ((ix2 cc k : S3072x1024.Idx) (b.cast rfl)).val := by
    intro b hb
    match b with
    | ⟨0, _⟩ => exact absurd rfl hb
    | ⟨1, _⟩ => rfl
  have hc : cc.val / 1024 = 0 ∨ cc.val / 1024 = 1 ∨ cc.val / 1024 = 2 := by omega
  rcases hc with hc | hc | hc
  · rw [show (⟨cc.val / 1024, by omega⟩ : Fin 3) = 0 from Fin.ext hc]
    exact concatenate_apply_piece (t := S3072x1024) 0 [⟨S1024x1024, P 0⟩, ⟨S1024x1024, P 1⟩, ⟨S1024x1024, P 2⟩] h (ix2 cc k) 0 (by simp) S1024x1024 (P 0) rfl rfl 0 rfl _ hi
      (by show 0 + cc.val % 1024 = cc.val; omega)
  · rw [show (⟨cc.val / 1024, by omega⟩ : Fin 3) = 1 from Fin.ext hc]
    exact concatenate_apply_piece (t := S3072x1024) 0 [⟨S1024x1024, P 0⟩, ⟨S1024x1024, P 1⟩, ⟨S1024x1024, P 2⟩] h (ix2 cc k) 1 (by simp) S1024x1024 (P 1) rfl rfl 1024 rfl _ hi
      (by show 1024 + cc.val % 1024 = cc.val; omega)
  · rw [show (⟨cc.val / 1024, by omega⟩ : Fin 3) = 2 from Fin.ext hc]
    exact concatenate_apply_piece (t := S3072x1024) 0 [⟨S1024x1024, P 0⟩, ⟨S1024x1024, P 1⟩, ⟨S1024x1024, P 2⟩] h (ix2 cc k) 2 (by simp) S1024x1024 (P 2) rfl rfl 2048 rfl _ hi
      (by show 2048 + cc.val % 1024 = cc.val; omega)

/-- Three [1024] pieces laid one after the other: entry `cc` of the whole is entry `cc % 1024` of piece `cc / 1024`. -/
theorem bcat_read (P : Fin 3 → (S1024.Idx → α))
    (h : Shape.Concatenates [S1024, S1024, S1024] S3072 0) (cc : Fin 3072) :
    concatenate S3072 0 [⟨S1024, P 0⟩, ⟨S1024, P 1⟩, ⟨S1024, P 2⟩] h (ix1 cc)
      = P ⟨cc.val / 1024, by omega⟩ (ix1 (⟨cc.val % 1024, by omega⟩ : Fin 1024)) := by
  have hi : ∀ b : Fin S1024.rank, b.cast (rfl : S1024.rank = S3072.rank) ≠ (0 : Fin S3072.rank) →
      ((ix1 (⟨cc.val % 1024, by omega⟩ : Fin 1024) : S1024.Idx) b).val = ((ix1 cc : S3072.Idx) (b.cast rfl)).val := by
    intro b hb
    match b with
    | ⟨0, _⟩ => exact absurd rfl hb
  have hc : cc.val / 1024 = 0 ∨ cc.val / 1024 = 1 ∨ cc.val / 1024 = 2 := by omega
  rcases hc with hc | hc | hc
  · rw [show (⟨cc.val / 1024, by omega⟩ : Fin 3) = 0 from Fin.ext hc]
    exact concatenate_apply_piece (t := S3072) 0 [⟨S1024, P 0⟩, ⟨S1024, P 1⟩, ⟨S1024, P 2⟩] h (ix1 cc) 0 (by simp) S1024 (P 0) rfl rfl 0 rfl _ hi
      (by show 0 + cc.val % 1024 = cc.val; omega)
  · rw [show (⟨cc.val / 1024, by omega⟩ : Fin 3) = 1 from Fin.ext hc]
    exact concatenate_apply_piece (t := S3072) 0 [⟨S1024, P 0⟩, ⟨S1024, P 1⟩, ⟨S1024, P 2⟩] h (ix1 cc) 1 (by simp) S1024 (P 1) rfl rfl 1024 rfl _ hi
      (by show 1024 + cc.val % 1024 = cc.val; omega)
  · rw [show (⟨cc.val / 1024, by omega⟩ : Fin 3) = 2 from Fin.ext hc]
    exact concatenate_apply_piece (t := S3072) 0 [⟨S1024, P 0⟩, ⟨S1024, P 1⟩, ⟨S1024, P 2⟩] h (ix1 cc) 2 (by simp) S1024 (P 2) rfl rfl 2048 rfl _ hi
      (by show 2048 + cc.val % 1024 = cc.val; omega)

/-- plane column cc = p*1024 + h*64 + d  ↦  feature h*192 + p*64 + d -/
def planeFeat (cc : Fin 3072) : Fin 3072 :=
  Cert.Attn.feat ⟨(cc.val % 1024) / 64, by omega⟩ ⟨cc.val / 1024, by omega⟩ ⟨cc.val % 64, by omega⟩

/-- The cut of part `p` of the weight exists. -/
theorem wslices (p : Fin 3) : S16x3x64x1024.Slices ![0, p.val, 0, 0] S16x1x64x1024 :=
  match p with
  | ⟨0, _⟩ => slices_S16x3x64x1024_S16x1x64x1024_0_0_0_0
  | ⟨1, _⟩ => slices_S16x3x64x1024_S16x1x64x1024_0_1_0_0
  | ⟨2, _⟩ => slices_S16x3x64x1024_S16x1x64x1024_0_2_0_0

/-- The cut of part `p` of the bias exists. -/
theorem bslices (p : Fin 3) : S16x3x64.Slices ![0, p.val, 0] S16x1x64 :=
  match p with
  | ⟨0, _⟩ => slices_S16x3x64_S16x1x64_0_0_0
  | ⟨1, _⟩ => slices_S16x3x64_S16x1x64_0_1_0
  | ⟨2, _⟩ => slices_S16x3x64_S16x1x64_0_2_0

/-- Plane `p` of the weight as the program computes it: reshape, cut part `p`, reshape twice. -/
def wcuts (X : S3072x1024.Idx → α) (p : Fin 3) : S1024x1024.Idx → α :=
  shapeCast S1024x1024 (shapeCast S16x64x1024 (extractStridedSlice S16x1x64x1024 ![0, p.val, 0, 0]
    (shapeCast S16x3x64x1024 X shapeCasts_S3072x1024_S16x3x64x1024) (wslices p)) shapeCasts_S16x1x64x1024_S16x64x1024)
    shapeCasts_S16x64x1024_S1024x1024

/-- Plane `p` of the bias as the program computes it. -/
def bcuts (X : S3072.Idx → α) (p : Fin 3) : S1024.Idx → α :=
  shapeCast S1024 (shapeCast S16x64 (extractStridedSlice S16x1x64 ![0, p.val, 0]
    (shapeCast S16x3x64 X shapeCasts_S3072_S16x3x64) (bslices p)) shapeCasts_S16x1x64_S16x64)
    shapeCasts_S16x64_S1024

/-- The three planes of the weight one after the other, read at row `cc`: the argument's row `planeFeat cc`. -/
theorem wplanes_read (X : S3072x1024.Idx → α) (cc : Fin 3072) (k : Fin 1024) :
    concatenate S3072x1024 0 [⟨S1024x1024, wcuts X 0⟩, ⟨S1024x1024, wcuts X 1⟩, ⟨S1024x1024, wcuts X 2⟩]
      concatenates_S1024x1024_S1024x1024_S1024x1024_S3072x1024_d0 (ix2 cc k) = X (ix2 (planeFeat cc) k) := by
  refine (wcat_read (wcuts X) _ cc k).trans ?_
  refine (wcut_read X (cc.val / 1024) (by omega) _ (wslices ⟨cc.val / 1024, by omega⟩) _ _ ⟨cc.val % 1024, by omega⟩ k).trans ?_
  have e : (⟨(cc.val % 1024) / 64 * 192 + cc.val / 1024 * 64 + (cc.val % 1024) % 64, by omega⟩ : Fin 3072) = planeFeat cc :=
    Fin.ext (by show (cc.val % 1024) / 64 * 192 + cc.val / 1024 * 64 + (cc.val % 1024) % 64 = (cc.val % 1024) / 64 * 192 + cc.val / 1024 * 64 + cc.val % 64; omega)
  rw [e]

/-- The three planes of the bias one after the other, read at entry `cc`: the argument's entry `planeFeat cc`. -/
theorem bplanes_read (X : S3072.Idx → α) (cc : Fin 3072) :
    concatenate S3072 0 [⟨S1024, bcuts X 0⟩, ⟨S1024, bcuts X 1⟩, ⟨S1024, bcuts X 2⟩]
      concatenates_S1024_S1024_S1024_S3072_d0 (ix1 cc) = X (ix1 (planeFeat cc)) := by
  refine (bcat_read (bcuts X) _ cc).trans ?_
  refine (bcut_read X (cc.val / 1024) (by omega) _ (bslices ⟨cc.val / 1024, by omega⟩) _ _ ⟨cc.val % 1024, by omega⟩).trans ?_
  have e : (⟨(cc.val % 1024) / 64 * 192 + cc.val / 1024 * 64 + (cc.val % 1024) % 64, by omega⟩ : Fin 3072) = planeFeat cc :=
    Fin.ext (by show (cc.val % 1024) / 64 * 192 + cc.val / 1024 * 64 + (cc.val % 1024) % 64 = (cc.val % 1024) / 64 * 192 + cc.val / 1024 * 64 + cc.val % 64; omega)
  rw [e]

/-- The result of a three-operand operation, each operand's contents read at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Evaluates a line of reshapes, cuts, converts and three-way concatenations at one reference: each operation's
    result at its own reference is its function's value, and any other reference is left as it was. -/
macro "host_results" : tactic =>
  `(tactic| (simp only [StableHlo.after_cons, StableHlo.after_nil]
             repeat (first
               | rw [Cert.Attn.HostSide.nary3_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

variable (V : Valuation τ sig (Elt Ideal))

/-- The weight the first kernel call reads: row `cc` is row `planeFeat cc` of the weight argument. -/
theorem wplane (cc : Fin 3072) (k : Fin 1024) :
    StableHlo.after (hostOps0 (F := Ideal)) V (Proc.devRef .tc main_v11) (ix2 cc k)
      = V (Proc.devRef .tc main_arg1) (ix2 (planeFeat cc) k) := by
  have e : StableHlo.after (hostOps0 (F := Ideal)) V (Proc.devRef .tc main_v11)
      = (truncf (F := Ideal) .bf16 (concatenate S3072x1024 0
          [⟨S1024x1024, wcuts (α := Ideal .f32) (V (Proc.devRef .tc main_arg1)) 0⟩,
           ⟨S1024x1024, wcuts (α := Ideal .f32) (V (Proc.devRef .tc main_arg1)) 1⟩,
           ⟨S1024x1024, wcuts (α := Ideal .f32) (V (Proc.devRef .tc main_arg1)) 2⟩]
          concatenates_S1024x1024_S1024x1024_S1024x1024_S3072x1024_d0) bitsLt_bf16_f32 : FVec Ideal S3072x1024 .bf16) := by
    host_results; rfl
  rw [e]
  exact wplanes_read (α := Ideal .f32) (V (Proc.devRef .tc main_arg1)) cc k

/-- The bias the first kernel call reads: entry `cc` of its one row is entry `planeFeat cc` of the bias argument. -/
theorem bplane (cc : Fin 3072) :
    StableHlo.after (hostOps0 (F := Ideal)) V (Proc.devRef .tc main_v25) (ix2 (0 : Fin 1) cc)
      = V (Proc.devRef .tc main_arg2) (ix1 (planeFeat cc)) := by
  have e : StableHlo.after (hostOps0 (F := Ideal)) V (Proc.devRef .tc main_v25)
      = shapeCast S1x3072 (concatenate S3072 0
          [⟨S1024, bcuts (α := Ideal .f32) (V (Proc.devRef .tc main_arg2)) 0⟩, ⟨S1024, bcuts (α := Ideal .f32) (V (Proc.devRef .tc main_arg2)) 1⟩,
           ⟨S1024, bcuts (α := Ideal .f32) (V (Proc.devRef .tc main_arg2)) 2⟩]
          concatenates_S1024_S1024_S1024_S3072_d0) shapeCasts_S3072_S1x3072 := by
    host_results; rfl
  rw [e]
  refine (shapeCast_apply _ _ (ix2 (0 : Fin 1) cc) (ix1 cc) ?_).trans ?_
  · rw [Shape.rowMajor_val_one, Shape.rowMajor_val_two]
    show cc.val = 0 * 3072 + cc.val
    omega
  exact bplanes_read (α := Ideal .f32) (V (Proc.devRef .tc main_arg2)) cc

/-- The tokens the first kernel call reads: row `r` is token `(r / 2048, r % 2048)` of the input argument. -/
theorem xrows (r : Fin 4096) (k : Fin 1024) :
    StableHlo.after (hostOps0 (F := Ideal)) V (Proc.devRef .tc main_v24) (ix2 r k)
      = V (Proc.devRef .tc main_arg0) (ix3 (⟨r.val / 2048, by omega⟩ : Fin 2) (⟨r.val % 2048, by omega⟩ : Fin 2048) k) := by
  have e : StableHlo.after (hostOps0 (F := Ideal)) V (Proc.devRef .tc main_v24)
      = shapeCast S4096x1024 (V (Proc.devRef .tc main_arg0)) shapeCasts_S2x2048x1024_S4096x1024 := by
    host_results; rfl
  rw [e]
  refine shapeCast_apply (s := S2x2048x1024) _ _ _ _ ?_
  rw [Shape.rowMajor_val_three, Shape.rowMajor_val_two]
  show (r.val / 2048 * 2048 + r.val % 2048) * 1024 + k.val = r.val * 1024 + k.val
  omega

/-- The second weight the second kernel call reads is the argument itself: the conversion to the narrower float
    type is the identity on the extended reals. -/
theorem wfc : StableHlo.after (hostOps0 (F := Ideal)) V (Proc.devRef .tc main_v23) = V (Proc.devRef .tc main_arg3) := by
  host_results; rfl

/-- Between the calls: token `(b, s)` of the reshaped projection is row `b * 2048 + s` of what the first call left. -/
theorem qkv3 (b : Fin 2) (s : Fin 2048) (cc : Fin 3072) :
    StableHlo.after (hostOps1 (F := Ideal)) V (Proc.devRef .tc main_v27) (ix3 b s cc)
      = V (Proc.devRef .tc main_v26) (ix2 (⟨b.val * 2048 + s.val, by omega⟩ : Fin 4096) cc) := by
  have e : StableHlo.after (hostOps1 (F := Ideal)) V (Proc.devRef .tc main_v27)
      = shapeCast S2x2048x3072 (V (Proc.devRef .tc main_v26)) shapeCasts_S4096x3072_S2x2048x3072 := by
    host_results; rfl
  rw [e]
  refine shapeCast_apply (s := S4096x3072) _ _ _ _ ?_
  rw [Shape.rowMajor_val_two, Shape.rowMajor_val_three]
  show (b.val * 2048 + s.val) * 3072 + cc.val = (b.val * 2048 + s.val) * 3072 + cc.val
  rfl

/-- The second bias the second kernel call reads: entry `e` of its one row is entry `e` of the argument. -/
theorem bfc (e : Fin 1024) :
    StableHlo.after (hostOps1 (F := Ideal)) V (Proc.devRef .tc main_v28) (ix2 (0 : Fin 1) e)
      = V (Proc.devRef .tc main_arg4) (ix1 e) := by
  have e' : StableHlo.after (hostOps1 (F := Ideal)) V (Proc.devRef .tc main_v28)
      = shapeCast S1x1024 (V (Proc.devRef .tc main_arg4)) shapeCasts_S1024_S1x1024 := by
    host_results; rfl
  rw [e']
  refine shapeCast_apply (s := S1024) _ _ _ _ ?_
  rw [Shape.rowMajor_val_one, Shape.rowMajor_val_two]
  show e.val = 0 * 1024 + e.val
  omega

/-! ## What the two lines leave alone -/

/-- The first line changes only the references it writes. -/
theorem hostOps0_of (r : Ref sig .tc) (h : r ∉ hostOps0_W) :
    StableHlo.after (hostOps0 (F := Ideal)) V (Proc.devRef .tc r) = V (Proc.devRef .tc r) :=
  StableHlo.after_of_writes_sub hostOps0 V hostOps0_writes h

/-- The second line changes only the references it writes. -/
theorem hostOps1_of (r : Ref sig .tc) (h : r ∉ hostOps1_W) :
    StableHlo.after (hostOps1 (F := Ideal)) V (Proc.devRef .tc r) = V (Proc.devRef .tc r) :=
  StableHlo.after_of_writes_sub hostOps1 V hostOps1_writes h

theorem hostOps0_arg0 : StableHlo.after (hostOps0 (F := Ideal)) V (Proc.devRef .tc main_arg0) = V (Proc.devRef .tc main_arg0) := hostOps0_of V _ (by decide)
theorem hostOps0_arg1 : StableHlo.after (hostOps0 (F := Ideal)) V (Proc.devRef .tc main_arg1) = V (Proc.devRef .tc main_arg1) := hostOps0_of V _ (by decide)
theorem hostOps0_arg2 : StableHlo.after (hostOps0 (F := Ideal)) V (Proc.devRef .tc main_arg2) = V (Proc.devRef .tc main_arg2) := hostOps0_of V _ (by decide)
theorem hostOps0_arg3 : StableHlo.after (hostOps0 (F := Ideal)) V (Proc.devRef .tc main_arg3) = V (Proc.devRef .tc main_arg3) := hostOps0_of V _ (by decide)
theorem hostOps0_arg4 : StableHlo.after (hostOps0 (F := Ideal)) V (Proc.devRef .tc main_arg4) = V (Proc.devRef .tc main_arg4) := hostOps0_of V _ (by decide)
theorem hostOps1_arg0 : StableHlo.after (hostOps1 (F := Ideal)) V (Proc.devRef .tc main_arg0) = V (Proc.devRef .tc main_arg0) := hostOps1_of V _ (by decide)
theorem hostOps1_arg1 : StableHlo.after (hostOps1 (F := Ideal)) V (Proc.devRef .tc main_arg1) = V (Proc.devRef .tc main_arg1) := hostOps1_of V _ (by decide)
theorem hostOps1_arg2 : StableHlo.after (hostOps1 (F := Ideal)) V (Proc.devRef .tc main_arg2) = V (Proc.devRef .tc main_arg2) := hostOps1_of V _ (by decide)
theorem hostOps1_arg3 : StableHlo.after (hostOps1 (F := Ideal)) V (Proc.devRef .tc main_arg3) = V (Proc.devRef .tc main_arg3) := hostOps1_of V _ (by decide)
theorem hostOps1_arg4 : StableHlo.after (hostOps1 (F := Ideal)) V (Proc.devRef .tc main_arg4) = V (Proc.devRef .tc main_arg4) := hostOps1_of V _ (by decide)
theorem hostOps1_v11 : StableHlo.after (hostOps1 (F := Ideal)) V (Proc.devRef .tc main_v11) = V (Proc.devRef .tc main_v11) := hostOps1_of V _ (by decide)
theorem hostOps1_v23 : StableHlo.after (hostOps1 (F := Ideal)) V (Proc.devRef .tc main_v23) = V (Proc.devRef .tc main_v23) := hostOps1_of V _ (by decide)
theorem hostOps1_v24 : StableHlo.after (hostOps1 (F := Ideal)) V (Proc.devRef .tc main_v24) = V (Proc.devRef .tc main_v24) := hostOps1_of V _ (by decide)
theorem hostOps1_v25 : StableHlo.after (hostOps1 (F := Ideal)) V (Proc.devRef .tc main_v25) = V (Proc.devRef .tc main_v25) := hostOps1_of V _ (by decide)
theorem hostOps1_v26 : StableHlo.after (hostOps1 (F := Ideal)) V (Proc.devRef .tc main_v26) = V (Proc.devRef .tc main_v26) := hostOps1_of V _ (by decide)

end Cert.Attn.HostSide

end
-- ==== Proof.LibRowLanes.lean ====
/-
  Matrices `[a, b]` handled along their rows, read at coordinates, at the ideal values.

  * a sum over the last axis, at row `i`, is the sum over `k` of the entries `(i, k)`; a maximum over it is the fold
    of `max` over those entries from the accumulator's value;
  * a matrix product into a zero accumulator whose dimension numbers contract the LAST axis of both operands —
    rows against rows, `A · Bᵀ` — is at `(p, q)` the sum over `j` of `A (p, j) · B (q, j)`. The four coordinate facts
    of the dimension numbers are hypotheses (each record proves them by unfolding).
-/
import Idealize.ShloMosaic.Lib.ValueIdx
import Idealize.ShloMosaic.PureOps.Ideal.Laws

noncomputable section

namespace Cert.LibRowLanes

open Idealize.ShloMosaic Idealize.ShloMosaic.ValueIdx
open scoped BigOperators

/-- The index `i` of `[a]` with `k` inserted on the last axis of `[a, b]` is `(i, k)`. -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A float sum over the last axis, read at row `i` on the extended reals: the sum of the entries `(i, k)`. -/
theorem sum_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (i : Fin a) :
    multiReduction .add [1] ⟨1, ![a]⟩ v acc h hφ hacc (ix1 i) = ∑ k : Fin b, v (ix2 i k) := by
  refine (Ideal.multiReduction_add_single v acc h hφ hacc (ix1 i)).trans ?_
  exact Finset.sum_congr rfl fun k _ => congrArg v (lift_row h i k)

/-- A float maximum over the last axis, read at row `i`: the fold of `max` over the entries `(i, k)` from the
    accumulator's value. -/
theorem max_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (i : Fin a) :
    multiReduction .maximumf [1] ⟨1, ![a]⟩ v acc h hφ hacc (ix1 i)
      = (Finset.univ : Finset (Fin b)).fold max (Ideal.ofBits .f32 acc) (fun k => v (ix2 i k)) := by
  refine (Ideal.multiReduction_maximumf_single v acc h hφ hacc (ix1 i)).trans ?_
  exact congrArg (Finset.univ.fold max (Ideal.ofBits .f32 acc)) (funext fun k => congrArg v (lift_row h i k))

/-- Rows against rows: the matrix product into zeros that contracts the last axis of both operands is, at entry
    `(p, q)`, the sum over the contraction position of `A (p, ·) · B (q, ·)`. -/
theorem matmul_zero_rows_rows {n k c : Nat} {φ₁ φ₂ : FTy}
    (D : DotDims ⟨2, ![n, k]⟩ ⟨2, ![c, k]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (i 1).val)
    (r1 : ∀ (i : (⟨2, ![n, c]⟩ : Shape).Idx) (q : D.contr.Idx), (D.rhsIdx i q 1).val = (q ⟨0, by omega⟩).val)
    (prec : Option ContractPrecision) (A : FVec Ideal ⟨2, ![n, k]⟩ φ₁) (B : FVec Ideal ⟨2, ![c, k]⟩ φ₂)
    (p : Fin n) (q : Fin c) :
    matmul D prec A B (constant ⟨2, ![n, c]⟩ .f32 0x00000000#32) (ix2 p q) = ∑ j : Fin k, A (ix2 p j) * B (ix2 q j) := by
  show FloatOps.matmul D prec A B (constant ⟨2, ![n, c]⟩ .f32 0x00000000#32) (ix2 p q) = _
  rw [Ideal.matmul_constant_zero_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 q j := funext fun ax => Fin.ext (by
    match ax with
    | ⟨0, _⟩ => exact r0 _ _
    | ⟨1, _⟩ => exact (r1 _ _).trans hk)
  rw [el, er]

end Cert.LibRowLanes

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«106968_j70755291234837_2_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.KI.Head.lean ====
/-
  One attention head computed on 64-column slices, read entry by entry on the extended reals.

  From a query slice `qh` (512 rows of 64 coordinates) and key and value slices `kh`, `vh` (2048 rows of 64):
  the scaled scores `sHead` — row against row products summed over the 64 coordinates, times 1/8 —, their
  exponentials less the row maximum `eHead`, and the context `cHead` — the exponentials divided by their row sum,
  multiplied into the value slice. Each is the printed chain of array operations; the lemmas read them at `(r, k)`.
-/
import proofs.«106968_j70755291234837_2_alg».proof.Proof.Gen.KernelIdeal
import proofs.«106968_j70755291234837_2_alg».proof.Proof.LibRowLanes
import proofs.«106968_j70755291234837_2_alg».proof.Proof.LibKeepdims
import proofs.«106968_j70755291234837_2_alg».proof.Proof.LibRowsDot
import Idealize.ShloMosaic.Lib.ValueLayout

noncomputable section

namespace Cert.Attn.KSide

open Cert.KernelIdeal Cert.KernelIdeal.Gen Idealize.ShloMosaic Idealize.ShloMosaic.ValueIdx
open scoped BigOperators

/-- The scaled scores of one head: the rows of the query slice against the rows of the key slice, times 1/8. -/
def sHead (qh : FVec Ideal S512x64 .bf16) (kh : FVec Ideal S2048x64 .bf16) : FVec Ideal S512x2048 .f32 :=
  mulf (matmul dot_S512x64_S2048x64_S512x2048_1_1_0_0_n_n none qh kh (constant S512x2048 .f32 0x00000000#32))
    (broadcast S512x2048 (Scalar.ofBits .f32 0x3E000000#32))

/-- The exponentials of the scores less their row's maximum. -/
def eHead (qh : FVec Ideal S512x64 .bf16) (kh : FVec Ideal S2048x64 .bf16) : FVec Ideal S512x2048 .f32 :=
  exp (subf (sHead qh kh)
    (broadcastTo S512x2048
      (shapeCast S512x1 (multiReduction .maximumf [1] S512 (sHead qh kh) 0xFF800000#32 reduces_S512x2048_S512 (.inl rfl) rfl)
        shapeCasts_S512_S512x1)
      broadcasts_S512x1_S512x2048))

/-- The row sums of an array of exponentials. -/
def rowSum (E : FVec Ideal S512x2048 .f32) : FVec Ideal S512 .f32 :=
  multiReduction .add [1] S512 E 0x00000000#32 reduces_S512x2048_S512 (.inl rfl) rfl

/-- The context from the exponentials, their row sums and the value slice: the exponentials divided by the sums,
    multiplied into the values. -/
def cTail (vh : FVec Ideal S2048x64 .bf16) (E : FVec Ideal S512x2048 .f32) (sm : FVec Ideal S512 .f32) :
    FVec Ideal S512x64 .bf16 :=
  shapeCast S512x64
    (truncf .bf16
      (matmul dot_S512x2048_S2048x64_S512x64_1_0_0_1_n_n none
        (truncf .bf16
          (divf E (broadcastTo S512x2048 (shapeCast S512x1 sm shapeCasts_S512_S512x1) broadcasts_S512x1_S512x2048))
          bitsLt_bf16_f32)
        vh (constant S512x64 .f32 0x00000000#32))
      bitsLt_bf16_f32)
    shapeCasts_S512x64_S512x64

/-- One head's context. -/
def cHead (qh : FVec Ideal S512x64 .bf16) (kh vh : FVec Ideal S2048x64 .bf16) : FVec Ideal S512x64 .bf16 :=
  cTail vh (eHead qh kh) (rowSum (eHead qh kh))

/-! ## Read at an entry -/

/-- The score at `(r, k)`. -/
def sAt (qh : FVec Ideal S512x64 .bf16) (kh : FVec Ideal S2048x64 .bf16) (r : Fin 512) (k : Fin 2048) : EReal :=
  (∑ j : Fin 64, qh (ix2 r j) * kh (ix2 k j)) * Ideal.ofBits .f32 0x3E000000#32

/-- The exponential at `(r, k)`. -/
def eAt (qh : FVec Ideal S512x64 .bf16) (kh : FVec Ideal S2048x64 .bf16) (r : Fin 512) (k : Fin 2048) : EReal :=
  Ideal.exp (sAt qh kh r k - (Finset.univ : Finset (Fin 2048)).fold max (Ideal.ofBits .f32 0xFF800000#32) (fun k' => sAt qh kh r k'))

theorem sHead_apply (qh : FVec Ideal S512x64 .bf16) (kh : FVec Ideal S2048x64 .bf16) (r : Fin 512) (k : Fin 2048) :
    sHead qh kh (ix2 r k) = sAt qh kh r k := by
  unfold sHead sAt
  rw [mulf_apply, broadcast_apply, Cert.LibKeepdims.scalar_ofBits]
  refine congrArg (· * Ideal.ofBits .f32 0x3E000000#32) ?_
  exact Cert.LibRowLanes.matmul_zero_rows_rows (n := 512) (k := 64) (c := 2048)
    dot_S512x64_S2048x64_S512x2048_1_1_0_0_n_n rfl rfl
    (fun i q => rfl) (fun i q => DotDims.lhsIdx_val_of_single _ rfl i q)
    (fun i q => rfl) (fun i q => DotDims.rhsIdx_val_of_single _ rfl i q) none qh kh r k

theorem rowMax_apply (S : FVec Ideal S512x2048 .f32) (r : Fin 512) (k : Fin 2048) :
    broadcastTo S512x2048
      (shapeCast S512x1 (multiReduction .maximumf [1] S512 S 0xFF800000#32 reduces_S512x2048_S512 (.inl rfl) rfl)
        shapeCasts_S512_S512x1)
      broadcasts_S512x1_S512x2048 (ix2 r k)
      = (Finset.univ : Finset (Fin 2048)).fold max (Ideal.ofBits .f32 0xFF800000#32) (fun k' => S (ix2 r k')) := by
  refine (Cert.LibKeepdims.broadcastTo_a1_ab_apply (a := 512) (b := 2048) _ broadcasts_S512x1_S512x2048 r k).trans ?_
  refine (Cert.LibKeepdims.shapeCast_a_a1_apply (a := 512) _ shapeCasts_S512_S512x1 r (0 : Fin 1)).trans ?_
  exact Cert.LibRowLanes.max_row_apply (a := 512) (b := 2048) S 0xFF800000#32 reduces_S512x2048_S512 (.inl rfl) rfl r

theorem eHead_apply (qh : FVec Ideal S512x64 .bf16) (kh : FVec Ideal S2048x64 .bf16) (r : Fin 512) (k : Fin 2048) :
    eHead qh kh (ix2 r k) = eAt qh kh r k := by
  unfold eHead eAt
  rw [Cert.LibKeepdims.exp_apply, subf_apply, rowMax_apply, sHead_apply]
  refine congrArg (fun m => Ideal.exp (sAt qh kh r k - m)) ?_
  exact congrArg ((Finset.univ : Finset (Fin 2048)).fold max (Ideal.ofBits .f32 0xFF800000#32)) (funext fun k' => sHead_apply qh kh r k')

theorem rowSumB_apply (E : FVec Ideal S512x2048 .f32) (r : Fin 512) (k : Fin 2048) :
    broadcastTo S512x2048 (shapeCast S512x1 (rowSum E) shapeCasts_S512_S512x1) broadcasts_S512x1_S512x2048 (ix2 r k)
      = ∑ k' : Fin 2048, E (ix2 r k') := by
  refine (Cert.LibKeepdims.broadcastTo_a1_ab_apply (a := 512) (b := 2048) _ broadcasts_S512x1_S512x2048 r k).trans ?_
  refine (Cert.LibKeepdims.shapeCast_a_a1_apply (a := 512) _ shapeCasts_S512_S512x1 r (0 : Fin 1)).trans ?_
  exact Cert.LibRowLanes.sum_row_apply (a := 512) (b := 2048) E 0x00000000#32 reduces_S512x2048_S512 (.inl rfl) rfl r

/-- The context's tail read at `(r, d)` when the sums are the exponentials' row sums. -/
theorem cTail_apply (vh : FVec Ideal S2048x64 .bf16) (E : FVec Ideal S512x2048 .f32) (r : Fin 512) (d : Fin 64) :
    cTail vh E (rowSum E) (ix2 r d)
      = ∑ k : Fin 2048, Ideal.div (E (ix2 r k)) (∑ k' : Fin 2048, E (ix2 r k')) * vh (ix2 k d) := by
  unfold cTail
  rw [shapeCast_self, truncf_apply]
  refine (Cert.Sage.matmul_zero_rows (n := 512) (k := 2048) (c := 64)
    dot_S512x2048_S2048x64_S512x64_1_0_0_1_n_n rfl rfl
    (fun i q => rfl) (fun i q => DotDims.lhsIdx_val_of_single _ rfl i q)
    (fun i q => DotDims.rhsIdx_val_of_single _ rfl i q) (fun i q => rfl) none _ vh r d).trans ?_
  unfold Cert.Sage.rowsMul
  refine Finset.sum_congr rfl fun k _ => ?_
  show (truncf .bf16 _ bitsLt_bf16_f32 : FVec Ideal S512x2048 .bf16) (ix2 r k) * vh (ix2 k d) = _
  rw [truncf_apply, divf_apply, rowSumB_apply]

theorem cHead_apply (qh : FVec Ideal S512x64 .bf16) (kh vh : FVec Ideal S2048x64 .bf16) (r : Fin 512) (d : Fin 64) :
    cHead qh kh vh (ix2 r d)
      = ∑ k : Fin 2048, Ideal.div (eAt qh kh r k) (∑ k' : Fin 2048, eAt qh kh r k') * vh (ix2 k d) := by
  unfold cHead
  rw [cTail_apply]
  refine Finset.sum_congr rfl fun k _ => ?_
  rw [eHead_apply, Finset.sum_congr rfl (fun k' _ => eHead_apply qh kh r k')]

end Cert.Attn.KSide

end
-- ==== Proof.KI.HeadDefs.lean ====
/-
  One head of the attention kernel read off its three blocks: the query block `x0` ([1, 512, 1024]: the 512 query
  rows of this grid point, all 16 heads' columns side by side) and the key and value blocks `x1`, `x2`
  ([1, 2048, 1024]). Head `h` owns columns 64 h … 64 h + 63 of each. Its score of query row `r` against key row `k` is
  the sum of the 64 products of coordinates times 1/8; the softmax of a row of scores weights the value rows.
-/
import proofs.«106968_j70755291234837_2_alg».proof.Proof.Gen.KernelIdeal
import Idealize.ShloMosaic.PureOps.Ideal
import Idealize.ShloMosaic.Lib.ValueIdx

noncomputable section

namespace Cert.Attn.KSide

open Cert.KernelIdeal Idealize.ShloMosaic Idealize.ShloMosaic.ValueIdx
open scoped BigOperators

def hscore (x0 : S1x512x1024.Idx → EReal) (x1 : S1x2048x1024.Idx → EReal) (h : Fin 16) (r : Fin 512) (k : Fin 2048) : EReal :=
  (∑ d : Fin 64, x0 (ix3 (0 : Fin 1) r ⟨64 * h.val + d.val, by omega⟩) * x1 (ix3 (0 : Fin 1) k ⟨64 * h.val + d.val, by omega⟩)) * Ideal.ofBits .f32 0x3E000000#32

def hmax (x0 : S1x512x1024.Idx → EReal) (x1 : S1x2048x1024.Idx → EReal) (h : Fin 16) (r : Fin 512) : EReal :=
  (Finset.univ : Finset (Fin 2048)).fold max (Ideal.ofBits .f32 0xFF800000#32) (fun k => hscore x0 x1 h r k)

def hexp (x0 : S1x512x1024.Idx → EReal) (x1 : S1x2048x1024.Idx → EReal) (h : Fin 16) (r : Fin 512) (k : Fin 2048) : EReal :=
  Ideal.exp (hscore x0 x1 h r k - hmax x0 x1 h r)

def hweight (x0 : S1x512x1024.Idx → EReal) (x1 : S1x2048x1024.Idx → EReal) (h : Fin 16) (r : Fin 512) (k : Fin 2048) : EReal :=
  Ideal.div (hexp x0 x1 h r k) (∑ k' : Fin 2048, hexp x0 x1 h r k')

def hctx (x0 : S1x512x1024.Idx → EReal) (x1 x2 : S1x2048x1024.Idx → EReal) (h : Fin 16) (r : Fin 512) (d : Fin 64) : EReal :=
  ∑ k : Fin 2048, hweight x0 x1 h r k * x2 (ix3 (0 : Fin 1) k ⟨64 * h.val + d.val, by omega⟩)

end Cert.Attn.KSide

end
-- ==== Proof.KI.HeadAt.lean ====
/-
  One head of the attention kernel from the whole query, key and value blocks.

  Head `h` works on the 64 columns from `64 h` of each block; `hctx` is its context written entry by entry on the
  blocks themselves. `headOf` is the printed chain on the three column slices, and `headOf_apply` reads it at `(r, d)` as `hctx`.
-/
import proofs.«106968_j70755291234837_2_alg».proof.Proof.Gen.KernelIdeal.Skeleton
import proofs.«106968_j70755291234837_2_alg».proof.Proof.KI.Head
import proofs.«106968_j70755291234837_2_alg».proof.Proof.KI.HeadDefs

noncomputable section

namespace Cert.Attn.KSide

open Cert.KernelIdeal Cert.KernelIdeal.Gen Idealize.ShloMosaic Idealize.ShloMosaic.ValueIdx
open scoped BigOperators

/-- The printed chain of one head on the 64-column slices at column offset `o` of the three blocks. -/
def headOf (o : Nat) (q : FVec Ideal S512x1024 .bf16) (k v : FVec Ideal S2048x1024 .bf16)
    (hq : S512x1024.Slices ![0, o] S512x64) (hk : S2048x1024.Slices ![0, o] S2048x64) : FVec Ideal S512x64 .bf16 :=
  cHead (extractStridedSlice S512x64 ![0, o] q hq) (extractStridedSlice S2048x64 ![0, o] k hk)
    (extractStridedSlice S2048x64 ![0, o] v hk)

/-- A 64-column slice of the query block with its unit axis dropped, read at `(r, j)`. -/
theorem qslice_apply (x0 : Vec Ideal S1x512x1024 .bf16) (o : Nat) (hq : S512x1024.Slices ![0, o] S512x64)
    (r : Fin 512) (j : Fin 64) (hj : o + j.val < 1024) :
    extractStridedSlice S512x64 ![0, o] (k1_pay2 x0) hq (ix2 r j) = x0 (ix3 (0 : Fin 1) r ⟨o + j.val, hj⟩) :=
  (slice2_axis1_apply (n0 := 512) (n1 := 1024) (m := 64) o (k1_pay2 x0) hq r j ⟨o + j.val, hj⟩ rfl).trans
    (shapeCast_1ab_ab_apply (a := 512) (b := 1024) x0 shapeCasts_S1x512x1024_S512x1024 r ⟨o + j.val, hj⟩)

/-- A 64-column slice of the key block with its unit axis dropped, read at `(k, j)`. -/
theorem kslice_apply (x1 : Vec Ideal S1x2048x1024 .bf16) (o : Nat) (hk : S2048x1024.Slices ![0, o] S2048x64)
    (k : Fin 2048) (j : Fin 64) (hj : o + j.val < 1024) :
    extractStridedSlice S2048x64 ![0, o] (k1_pay3 x1) hk (ix2 k j) = x1 (ix3 (0 : Fin 1) k ⟨o + j.val, hj⟩) :=
  (slice2_axis1_apply (n0 := 2048) (n1 := 1024) (m := 64) o (k1_pay3 x1) hk k j ⟨o + j.val, hj⟩ rfl).trans
    (shapeCast_1ab_ab_apply (a := 2048) (b := 1024) x1 shapeCasts_S1x2048x1024_S2048x1024 k ⟨o + j.val, hj⟩)

/-- A 64-column slice of the value block with its unit axis dropped, read at `(k, j)`. -/
theorem vslice_apply (x2 : Vec Ideal S1x2048x1024 .bf16) (o : Nat) (hk : S2048x1024.Slices ![0, o] S2048x64)
    (k : Fin 2048) (j : Fin 64) (hj : o + j.val < 1024) :
    extractStridedSlice S2048x64 ![0, o] (k1_pay4 x2) hk (ix2 k j) = x2 (ix3 (0 : Fin 1) k ⟨o + j.val, hj⟩) :=
  (slice2_axis1_apply (n0 := 2048) (n1 := 1024) (m := 64) o (k1_pay4 x2) hk k j ⟨o + j.val, hj⟩ rfl).trans
    (shapeCast_1ab_ab_apply (a := 2048) (b := 1024) x2 shapeCasts_S1x2048x1024_S2048x1024 k ⟨o + j.val, hj⟩)

/-- Head `h`'s chain on the slices at offset `64 h`, read at `(r, d)`, is the head's context. -/
theorem headOf_apply (x0 : Vec Ideal S1x512x1024 .bf16) (x1 x2 : Vec Ideal S1x2048x1024 .bf16) (h : Fin 16)
    (hq : S512x1024.Slices ![0, 64 * h.val] S512x64) (hk : S2048x1024.Slices ![0, 64 * h.val] S2048x64)
    (r : Fin 512) (d : Fin 64) :
    headOf (64 * h.val) (k1_pay2 x0) (k1_pay3 x1) (k1_pay4 x2) hq hk (ix2 r d) = hctx x0 x1 x2 h r d := by
  have hb : ∀ j : Fin 64, 64 * h.val + j.val < 1024 := fun j => by omega
  have hs : ∀ k : Fin 2048,
      sAt (extractStridedSlice S512x64 ![0, 64 * h.val] (k1_pay2 x0) hq)
        (extractStridedSlice S2048x64 ![0, 64 * h.val] (k1_pay3 x1) hk) r k = hscore x0 x1 h r k := fun k => by
    unfold sAt hscore
    refine congrArg (· * Ideal.ofBits .f32 0x3E000000#32) (Finset.sum_congr rfl fun j _ => ?_)
    rw [qslice_apply x0 _ hq r j (hb j), kslice_apply x1 _ hk k j (hb j)]
  have he : ∀ k : Fin 2048,
      eAt (extractStridedSlice S512x64 ![0, 64 * h.val] (k1_pay2 x0) hq)
        (extractStridedSlice S2048x64 ![0, 64 * h.val] (k1_pay3 x1) hk) r k = hexp x0 x1 h r k := fun k => by
    unfold eAt hexp hmax
    rw [hs k, show (fun k' => sAt (extractStridedSlice S512x64 ![0, 64 * h.val] (k1_pay2 x0) hq)
        (extractStridedSlice S2048x64 ![0, 64 * h.val] (k1_pay3 x1) hk) r k') = fun k' => hscore x0 x1 h r k' from funext hs]
  unfold headOf hctx
  rw [cHead_apply]
  refine Finset.sum_congr rfl fun k _ => ?_
  unfold hweight
  rw [he k, Finset.sum_congr rfl (fun k' _ => he k'), vslice_apply x2 _ hk k d (hb d)]

end Cert.Attn.KSide

end
-- ==== Proof.KI.Pieces.lean ====
/-
  The sixteen stored pieces of the attention kernel's scratch are the sixteen heads.

  The body computes head `h` from the 64-column slices at offset `64 h` of the three blocks, each time by the same
  chain of operations (`headOf`); the printed text cuts the chain at different places for different heads, and each
  cut unfolds to the same chain. Read at `(r, d)`, piece `h` is the head's context `hctx … h r d`.
-/
import proofs.«106968_j70755291234837_2_alg».proof.Proof.Gen.KernelIdeal.Skeleton
import proofs.«106968_j70755291234837_2_alg».proof.Proof.KI.HeadAt

noncomputable section

namespace Cert.Attn.KSide

open Cert.KernelIdeal Cert.KernelIdeal.Gen Idealize.ShloMosaic Idealize.ShloMosaic.ValueIdx
open scoped BigOperators

variable (a : Vec Ideal S1x512x1024 .bf16) (b c : Vec Ideal S1x2048x1024 .bf16)

/-- Head 0's piece is the chain on the slices at column 0. -/
theorem pay_h0 : k1_pay5 a b c
    = headOf 0 (k1_pay2 a) (k1_pay3 b) (k1_pay4 c) slices_S512x1024_o0_0_S512x64 slices_S2048x1024_o0_0_S2048x64 := rfl

/-- Head 0's piece read at `(r, d)`. -/
theorem pay_h0_apply (r : Fin 512) (d : Fin 64) :
    (k1_pay5 a b c : FVec Ideal S512x64 .bf16) (ix2 r d) = hctx a b c ⟨0, by omega⟩ r d :=
  (congrFun (pay_h0 a b c) (ix2 r d)).trans
    (headOf_apply a b c ⟨0, by omega⟩ slices_S512x1024_o0_0_S512x64 slices_S2048x1024_o0_0_S2048x64 r d)

/-- Head 1's piece is the chain on the slices at column 64. -/
theorem pay_h1 : k1_pay8 (k1_pay6 c) (k1_pay7 a b)
    = headOf 64 (k1_pay2 a) (k1_pay3 b) (k1_pay4 c) slices_S512x1024_o0_64_S512x64 slices_S2048x1024_o0_64_S2048x64 := rfl

/-- Head 1's piece read at `(r, d)`. -/
theorem pay_h1_apply (r : Fin 512) (d : Fin 64) :
    (k1_pay8 (k1_pay6 c) (k1_pay7 a b) : FVec Ideal S512x64 .bf16) (ix2 r d) = hctx a b c ⟨1, by omega⟩ r d :=
  (congrFun (pay_h1 a b c) (ix2 r d)).trans
    (headOf_apply a b c ⟨1, by omega⟩ slices_S512x1024_o0_64_S512x64 slices_S2048x1024_o0_64_S2048x64 r d)

/-- Head 2's piece is the chain on the slices at column 128. -/
theorem pay_h2 : k1_pay9 (k1_pay2 a) (k1_pay3 b) (k1_pay4 c)
    = headOf 128 (k1_pay2 a) (k1_pay3 b) (k1_pay4 c) slices_S512x1024_o0_128_S512x64 slices_S2048x1024_o0_128_S2048x64 := rfl

/-- Head 2's piece read at `(r, d)`. -/
theorem pay_h2_apply (r : Fin 512) (d : Fin 64) :
    (k1_pay9 (k1_pay2 a) (k1_pay3 b) (k1_pay4 c) : FVec Ideal S512x64 .bf16) (ix2 r d) = hctx a b c ⟨2, by omega⟩ r d :=
  (congrFun (pay_h2 a b c) (ix2 r d)).trans
    (headOf_apply a b c ⟨2, by omega⟩ slices_S512x1024_o0_128_S512x64 slices_S2048x1024_o0_128_S2048x64 r d)

/-- Head 3's piece is the chain on the slices at column 192. -/
theorem pay_h3 : k1_pay13 (k1_pay10 (k1_pay4 c)) (k1_pay11 (k1_pay2 a) (k1_pay3 b)) (k1_pay12 (k1_pay2 a) (k1_pay3 b))
    = headOf 192 (k1_pay2 a) (k1_pay3 b) (k1_pay4 c) slices_S512x1024_o0_192_S512x64 slices_S2048x1024_o0_192_S2048x64 := rfl

/-- Head 3's piece read at `(r, d)`. -/
theorem pay_h3_apply (r : Fin 512) (d : Fin 64) :
    (k1_pay13 (k1_pay10 (k1_pay4 c)) (k1_pay11 (k1_pay2 a) (k1_pay3 b)) (k1_pay12 (k1_pay2 a) (k1_pay3 b)) : FVec Ideal S512x64 .bf16) (ix2 r d) = hctx a b c ⟨3, by omega⟩ r d :=
  (congrFun (pay_h3 a b c) (ix2 r d)).trans
    (headOf_apply a b c ⟨3, by omega⟩ slices_S512x1024_o0_192_S512x64 slices_S2048x1024_o0_192_S2048x64 r d)

/-- Head 4's piece is the chain on the slices at column 256. -/
theorem pay_h4 : k1_pay14 (k1_pay2 a) (k1_pay3 b) (k1_pay4 c)
    = headOf 256 (k1_pay2 a) (k1_pay3 b) (k1_pay4 c) slices_S512x1024_o0_256_S512x64 slices_S2048x1024_o0_256_S2048x64 := rfl

/-- Head 4's piece read at `(r, d)`. -/
theorem pay_h4_apply (r : Fin 512) (d : Fin 64) :
    (k1_pay14 (k1_pay2 a) (k1_pay3 b) (k1_pay4 c) : FVec Ideal S512x64 .bf16) (ix2 r d) = hctx a b c ⟨4, by omega⟩ r d :=
  (congrFun (pay_h4 a b c) (ix2 r d)).trans
    (headOf_apply a b c ⟨4, by omega⟩ slices_S512x1024_o0_256_S512x64 slices_S2048x1024_o0_256_S2048x64 r d)

/-- Head 5's piece is the chain on the slices at column 320. -/
theorem pay_h5 : k1_pay18 (k1_pay15 (k1_pay4 c)) (k1_pay16 (k1_pay2 a) (k1_pay3 b)) (k1_pay17 (k1_pay2 a) (k1_pay3 b))
    = headOf 320 (k1_pay2 a) (k1_pay3 b) (k1_pay4 c) slices_S512x1024_o0_320_S512x64 slices_S2048x1024_o0_320_S2048x64 := rfl

/-- Head 5's piece read at `(r, d)`. -/
theorem pay_h5_apply (r : Fin 512) (d : Fin 64) :
    (k1_pay18 (k1_pay15 (k1_pay4 c)) (k1_pay16 (k1_pay2 a) (k1_pay3 b)) (k1_pay17 (k1_pay2 a) (k1_pay3 b)) : FVec Ideal S512x64 .bf16) (ix2 r d) = hctx a b c ⟨5, by omega⟩ r d :=
  (congrFun (pay_h5 a b c) (ix2 r d)).trans
    (headOf_apply a b c ⟨5, by omega⟩ slices_S512x1024_o0_320_S512x64 slices_S2048x1024_o0_320_S2048x64 r d)

/-- Head 6's piece is the chain on the slices at column 384. -/
theorem pay_h6 : k1_pay19 (k1_pay2 a) (k1_pay3 b) (k1_pay4 c)
    = headOf 384 (k1_pay2 a) (k1_pay3 b) (k1_pay4 c) slices_S512x1024_o0_384_S512x64 slices_S2048x1024_o0_384_S2048x64 := rfl

/-- Head 6's piece read at `(r, d)`. -/
theorem pay_h6_apply (r : Fin 512) (d : Fin 64) :
    (k1_pay19 (k1_pay2 a) (k1_pay3 b) (k1_pay4 c) : FVec Ideal S512x64 .bf16) (ix2 r d) = hctx a b c ⟨6, by omega⟩ r d :=
  (congrFun (pay_h6 a b c) (ix2 r d)).trans
    (headOf_apply a b c ⟨6, by omega⟩ slices_S512x1024_o0_384_S512x64 slices_S2048x1024_o0_384_S2048x64 r d)

/-- Head 7's piece is the chain on the slices at column 448. -/
theorem pay_h7 : k1_pay22 (k1_pay20 (k1_pay4 c)) (k1_pay21 (k1_pay2 a) (k1_pay3 b))
    = headOf 448 (k1_pay2 a) (k1_pay3 b) (k1_pay4 c) slices_S512x1024_o0_448_S512x64 slices_S2048x1024_o0_448_S2048x64 := rfl

/-- Head 7's piece read at `(r, d)`. -/
theorem pay_h7_apply (r : Fin 512) (d : Fin 64) :
    (k1_pay22 (k1_pay20 (k1_pay4 c)) (k1_pay21 (k1_pay2 a) (k1_pay3 b)) : FVec Ideal S512x64 .bf16) (ix2 r d) = hctx a b c ⟨7, by omega⟩ r d :=
  (congrFun (pay_h7 a b c) (ix2 r d)).trans
    (headOf_apply a b c ⟨7, by omega⟩ slices_S512x1024_o0_448_S512x64 slices_S2048x1024_o0_448_S2048x64 r d)

/-- Head 8's piece is the chain on the slices at column 512. -/
theorem pay_h8 : k1_pay23 (k1_pay2 a) (k1_pay3 b) (k1_pay4 c)
    = headOf 512 (k1_pay2 a) (k1_pay3 b) (k1_pay4 c) slices_S512x1024_o0_512_S512x64 slices_S2048x1024_o0_512_S2048x64 := rfl

/-- Head 8's piece read at `(r, d)`. -/
theorem pay_h8_apply (r : Fin 512) (d : Fin 64) :
    (k1_pay23 (k1_pay2 a) (k1_pay3 b) (k1_pay4 c) : FVec Ideal S512x64 .bf16) (ix2 r d) = hctx a b c ⟨8, by omega⟩ r d :=
  (congrFun (pay_h8 a b c) (ix2 r d)).trans
    (headOf_apply a b c ⟨8, by omega⟩ slices_S512x1024_o0_512_S512x64 slices_S2048x1024_o0_512_S2048x64 r d)

/-- Head 9's piece is the chain on the slices at column 576. -/
theorem pay_h9 : k1_pay25 (k1_pay24 (k1_pay2 a) (k1_pay3 b) (k1_pay4 c))
    = headOf 576 (k1_pay2 a) (k1_pay3 b) (k1_pay4 c) slices_S512x1024_o0_576_S512x64 slices_S2048x1024_o0_576_S2048x64 := rfl

/-- Head 9's piece read at `(r, d)`. -/
theorem pay_h9_apply (r : Fin 512) (d : Fin 64) :
    (k1_pay25 (k1_pay24 (k1_pay2 a) (k1_pay3 b) (k1_pay4 c)) : FVec Ideal S512x64 .bf16) (ix2 r d) = hctx a b c ⟨9, by omega⟩ r d :=
  (congrFun (pay_h9 a b c) (ix2 r d)).trans
    (headOf_apply a b c ⟨9, by omega⟩ slices_S512x1024_o0_576_S512x64 slices_S2048x1024_o0_576_S2048x64 r d)

/-- Head 10's piece is the chain on the slices at column 640. -/
theorem pay_h10 : k1_pay26 (k1_pay2 a) (k1_pay3 b) (k1_pay4 c)
    = headOf 640 (k1_pay2 a) (k1_pay3 b) (k1_pay4 c) slices_S512x1024_o0_640_S512x64 slices_S2048x1024_o0_640_S2048x64 := rfl

/-- Head 10's piece read at `(r, d)`. -/
theorem pay_h10_apply (r : Fin 512) (d : Fin 64) :
    (k1_pay26 (k1_pay2 a) (k1_pay3 b) (k1_pay4 c) : FVec Ideal S512x64 .bf16) (ix2 r d) = hctx a b c ⟨10, by omega⟩ r d :=
  (congrFun (pay_h10 a b c) (ix2 r d)).trans
    (headOf_apply a b c ⟨10, by omega⟩ slices_S512x1024_o0_640_S512x64 slices_S2048x1024_o0_640_S2048x64 r d)

/-- Head 11's piece is the chain on the slices at column 704. -/
theorem pay_h11 : k1_pay28 (k1_pay27 (k1_pay2 a) (k1_pay3 b) (k1_pay4 c))
    = headOf 704 (k1_pay2 a) (k1_pay3 b) (k1_pay4 c) slices_S512x1024_o0_704_S512x64 slices_S2048x1024_o0_704_S2048x64 := rfl

/-- Head 11's piece read at `(r, d)`. -/
theorem pay_h11_apply (r : Fin 512) (d : Fin 64) :
    (k1_pay28 (k1_pay27 (k1_pay2 a) (k1_pay3 b) (k1_pay4 c)) : FVec Ideal S512x64 .bf16) (ix2 r d) = hctx a b c ⟨11, by omega⟩ r d :=
  (congrFun (pay_h11 a b c) (ix2 r d)).trans
    (headOf_apply a b c ⟨11, by omega⟩ slices_S512x1024_o0_704_S512x64 slices_S2048x1024_o0_704_S2048x64 r d)

/-- Head 12's piece is the chain on the slices at column 768. -/
theorem pay_h12 : k1_pay29 (k1_pay2 a) (k1_pay3 b) (k1_pay4 c)
    = headOf 768 (k1_pay2 a) (k1_pay3 b) (k1_pay4 c) slices_S512x1024_o0_768_S512x64 slices_S2048x1024_o0_768_S2048x64 := rfl

/-- Head 12's piece read at `(r, d)`. -/
theorem pay_h12_apply (r : Fin 512) (d : Fin 64) :
    (k1_pay29 (k1_pay2 a) (k1_pay3 b) (k1_pay4 c) : FVec Ideal S512x64 .bf16) (ix2 r d) = hctx a b c ⟨12, by omega⟩ r d :=
  (congrFun (pay_h12 a b c) (ix2 r d)).trans
    (headOf_apply a b c ⟨12, by omega⟩ slices_S512x1024_o0_768_S512x64 slices_S2048x1024_o0_768_S2048x64 r d)

/-- Head 13's piece is the chain on the slices at column 832. -/
theorem pay_h13 : k1_pay31 (k1_pay30 (k1_pay2 a) (k1_pay3 b) (k1_pay4 c))
    = headOf 832 (k1_pay2 a) (k1_pay3 b) (k1_pay4 c) slices_S512x1024_o0_832_S512x64 slices_S2048x1024_o0_832_S2048x64 := rfl

/-- Head 13's piece read at `(r, d)`. -/
theorem pay_h13_apply (r : Fin 512) (d : Fin 64) :
    (k1_pay31 (k1_pay30 (k1_pay2 a) (k1_pay3 b) (k1_pay4 c)) : FVec Ideal S512x64 .bf16) (ix2 r d) = hctx a b c ⟨13, by omega⟩ r d :=
  (congrFun (pay_h13 a b c) (ix2 r d)).trans
    (headOf_apply a b c ⟨13, by omega⟩ slices_S512x1024_o0_832_S512x64 slices_S2048x1024_o0_832_S2048x64 r d)

/-- Head 14's piece is the chain on the slices at column 896. -/
theorem pay_h14 : k1_pay32 (k1_pay2 a) (k1_pay3 b) (k1_pay4 c)
    = headOf 896 (k1_pay2 a) (k1_pay3 b) (k1_pay4 c) slices_S512x1024_o0_896_S512x64 slices_S2048x1024_o0_896_S2048x64 := rfl

/-- Head 14's piece read at `(r, d)`. -/
theorem pay_h14_apply (r : Fin 512) (d : Fin 64) :
    (k1_pay32 (k1_pay2 a) (k1_pay3 b) (k1_pay4 c) : FVec Ideal S512x64 .bf16) (ix2 r d) = hctx a b c ⟨14, by omega⟩ r d :=
  (congrFun (pay_h14 a b c) (ix2 r d)).trans
    (headOf_apply a b c ⟨14, by omega⟩ slices_S512x1024_o0_896_S512x64 slices_S2048x1024_o0_896_S2048x64 r d)

/-- Head 15's piece is the chain on the slices at column 960. -/
theorem pay_h15 : k1_pay33 (k1_pay2 a) (k1_pay3 b) (k1_pay4 c)
    = headOf 960 (k1_pay2 a) (k1_pay3 b) (k1_pay4 c) slices_S512x1024_o0_960_S512x64 slices_S2048x1024_o0_960_S2048x64 := rfl

/-- Head 15's piece read at `(r, d)`. -/
theorem pay_h15_apply (r : Fin 512) (d : Fin 64) :
    (k1_pay33 (k1_pay2 a) (k1_pay3 b) (k1_pay4 c) : FVec Ideal S512x64 .bf16) (ix2 r d) = hctx a b c ⟨15, by omega⟩ r d :=
  (congrFun (pay_h15 a b c) (ix2 r d)).trans
    (headOf_apply a b c ⟨15, by omega⟩ slices_S512x1024_o0_960_S512x64 slices_S2048x1024_o0_960_S2048x64 r d)

end Cert.Attn.KSide

end
-- ==== Proof.KI.Scr.lean ====
/-
  The attention kernel's scratch read back as one function.

  Sixteen stores write the scratch, each the 64 columns from `64 h` with head `h`'s result. Every piece is a block
  of one function of the scratch's index — at `(r, j)` the context of head `j / 64` at row `r`, coordinate
  `j % 64` — and the pieces tile the scratch, so the scratch read back whole is that function.
-/
import proofs.«106968_j70755291234837_2_alg».proof.Proof.KI.Defs
import proofs.«106968_j70755291234837_2_alg».proof.Proof.KI.Pieces

noncomputable section

namespace Cert.Attn.KSide

open Cert.KernelIdeal Cert.KernelIdeal.Gen Cert.KernelIdeal.Hand Idealize.ShloMosaic Idealize.ShloMosaic.ValueIdx
open Idealize.ShloMosaic.Tactic
open scoped BigOperators

variable (x0 : Vec Ideal S1x512x1024 .bf16) (x1 x2 : Vec Ideal S1x2048x1024 .bf16)

theorem hz3' : (![0, 0, 0] : Fin 3 → Nat) = fun _ => 0 := funext fun a => by fin_cases a <;> rfl

/-- The query block loaded whole. -/
theorem ld_q : View.ld x0 rq = x0 := View.ld_unit_zero hz3' _ x0
/-- A key or value block loaded whole. -/
theorem ld_k : View.ld x1 rk = x1 := View.ld_unit_zero hz3' _ x1

/-- The scratch as one function of its index: at `(r, j)`, head `j / 64`'s context at row `r`, coordinate `j % 64`. -/
def scrG : S512x1024.Idx → EReal := fun y =>
  hctx x0 x1 x2 ⟨(y 1).val / 64, by have := idx2_lt1 y; omega⟩ ⟨(y 0).val, idx2_lt0 y⟩ ⟨(y 1).val % 64, by omega⟩

/-- At row `r`, column `64 h + d`, the scratch function is head `h`'s context at `(r, d)`. -/
theorem scrG_at (h : Fin 16) (y : S512x1024.Idx) (r : Fin 512) (d : Fin 64) (h0 : (y 0).val = r.val)
    (h1 : (y 1).val = 64 * h.val + d.val) : scrG x0 x1 x2 y = hctx x0 x1 x2 h r d := by
  have key : ∀ (a a' : Fin 16) (b b' : Fin 512) (c c' : Fin 64), a = a' → b = b' → c = c' →
      hctx x0 x1 x2 a b c = hctx x0 x1 x2 a' b' c' := by
    intro a a' b b' c c' e1 e2 e3; rw [e1, e2, e3]
  unfold scrG
  exact key _ _ _ _ _ _ (Fin.ext (by show (y 1).val / 64 = h.val; omega)) (Fin.ext h0)
    (Fin.ext (by show (y 1).val % 64 = d.val; omega))

/-- Head 15's piece is the block of the scratch function its rectangle names. -/
theorem piece15 (x : rh960.shape.Idx) :
    (k1_pay33 (k1_pay2 (View.ld x0 rq)) (k1_pay3 (View.ld x1 rk)) (k1_pay4 (View.ld x2 rk)) : FVec Ideal S512x64 .bf16) x = scrG x0 x1 x2 (rh960.emb x) := by
  obtain ⟨r, d, rfl⟩ : ∃ (r : Fin 512) (d : Fin 64), x = ix2 r d := ⟨x 0, x 1, eq_ix2 x⟩
  rw [ld_q, ld_k, ld_k]
  refine (pay_h15_apply x0 x1 x2 r d).trans (scrG_at x0 x1 x2 ⟨15, by omega⟩ _ r d ?_ ?_).symm
  · show 0 + 1 * r.val = r.val; omega
  · show 960 + 1 * d.val = 64 * 15 + d.val; omega

/-- Head 14's piece is the block of the scratch function its rectangle names. -/
theorem piece14 (x : rh896.shape.Idx) :
    (k1_pay32 (k1_pay2 (View.ld x0 rq)) (k1_pay3 (View.ld x1 rk)) (k1_pay4 (View.ld x2 rk)) : FVec Ideal S512x64 .bf16) x = scrG x0 x1 x2 (rh896.emb x) := by
  obtain ⟨r, d, rfl⟩ : ∃ (r : Fin 512) (d : Fin 64), x = ix2 r d := ⟨x 0, x 1, eq_ix2 x⟩
  rw [ld_q, ld_k, ld_k]
  refine (pay_h14_apply x0 x1 x2 r d).trans (scrG_at x0 x1 x2 ⟨14, by omega⟩ _ r d ?_ ?_).symm
  · show 0 + 1 * r.val = r.val; omega
  · show 896 + 1 * d.val = 64 * 14 + d.val; omega

/-- Head 13's piece is the block of the scratch function its rectangle names. -/
theorem piece13 (x : rh832.shape.Idx) :
    (k1_pay31 (k1_pay30 (k1_pay2 (View.ld x0 rq)) (k1_pay3 (View.ld x1 rk)) (k1_pay4 (View.ld x2 rk))) : FVec Ideal S512x64 .bf16) x = scrG x0 x1 x2 (rh832.emb x) := by
  obtain ⟨r, d, rfl⟩ : ∃ (r : Fin 512) (d : Fin 64), x = ix2 r d := ⟨x 0, x 1, eq_ix2 x⟩
  rw [ld_q, ld_k, ld_k]
  refine (pay_h13_apply x0 x1 x2 r d).trans (scrG_at x0 x1 x2 ⟨13, by omega⟩ _ r d ?_ ?_).symm
  · show 0 + 1 * r.val = r.val; omega
  · show 832 + 1 * d.val = 64 * 13 + d.val; omega

/-- Head 12's piece is the block of the scratch function its rectangle names. -/
theorem piece12 (x : rh768.shape.Idx) :
    (k1_pay29 (k1_pay2 (View.ld x0 rq)) (k1_pay3 (View.ld x1 rk)) (k1_pay4 (View.ld x2 rk)) : FVec Ideal S512x64 .bf16) x = scrG x0 x1 x2 (rh768.emb x) := by
  obtain ⟨r, d, rfl⟩ : ∃ (r : Fin 512) (d : Fin 64), x = ix2 r d := ⟨x 0, x 1, eq_ix2 x⟩
  rw [ld_q, ld_k, ld_k]
  refine (pay_h12_apply x0 x1 x2 r d).trans (scrG_at x0 x1 x2 ⟨12, by omega⟩ _ r d ?_ ?_).symm
  · show 0 + 1 * r.val = r.val; omega
  · show 768 + 1 * d.val = 64 * 12 + d.val; omega

/-- Head 11's piece is the block of the scratch function its rectangle names. -/
theorem piece11 (x : rh704.shape.Idx) :
    (k1_pay28 (k1_pay27 (k1_pay2 (View.ld x0 rq)) (k1_pay3 (View.ld x1 rk)) (k1_pay4 (View.ld x2 rk))) : FVec Ideal S512x64 .bf16) x = scrG x0 x1 x2 (rh704.emb x) := by
  obtain ⟨r, d, rfl⟩ : ∃ (r : Fin 512) (d : Fin 64), x = ix2 r d := ⟨x 0, x 1, eq_ix2 x⟩
  rw [ld_q, ld_k, ld_k]
  refine (pay_h11_apply x0 x1 x2 r d).trans (scrG_at x0 x1 x2 ⟨11, by omega⟩ _ r d ?_ ?_).symm
  · show 0 + 1 * r.val = r.val; omega
  · show 704 + 1 * d.val = 64 * 11 + d.val; omega

/-- Head 10's piece is the block of the scratch function its rectangle names. -/
theorem piece10 (x : rh640.shape.Idx) :
    (k1_pay26 (k1_pay2 (View.ld x0 rq)) (k1_pay3 (View.ld x1 rk)) (k1_pay4 (View.ld x2 rk)) : FVec Ideal S512x64 .bf16) x = scrG x0 x1 x2 (rh640.emb x) := by
  obtain ⟨r, d, rfl⟩ : ∃ (r : Fin 512) (d : Fin 64), x = ix2 r d := ⟨x 0, x 1, eq_ix2 x⟩
  rw [ld_q, ld_k, ld_k]
  refine (pay_h10_apply x0 x1 x2 r d).trans (scrG_at x0 x1 x2 ⟨10, by omega⟩ _ r d ?_ ?_).symm
  · show 0 + 1 * r.val = r.val; omega
  · show 640 + 1 * d.val = 64 * 10 + d.val; omega

/-- Head 9's piece is the block of the scratch function its rectangle names. -/
theorem piece9 (x : rh576.shape.Idx) :
    (k1_pay25 (k1_pay24 (k1_pay2 (View.ld x0 rq)) (k1_pay3 (View.ld x1 rk)) (k1_pay4 (View.ld x2 rk))) : FVec Ideal S512x64 .bf16) x = scrG x0 x1 x2 (rh576.emb x) := by
  obtain ⟨r, d, rfl⟩ : ∃ (r : Fin 512) (d : Fin 64), x = ix2 r d := ⟨x 0, x 1, eq_ix2 x⟩
  rw [ld_q, ld_k, ld_k]
  refine (pay_h9_apply x0 x1 x2 r d).trans (scrG_at x0 x1 x2 ⟨9, by omega⟩ _ r d ?_ ?_).symm
  · show 0 + 1 * r.val = r.val; omega
  · show 576 + 1 * d.val = 64 * 9 + d.val; omega

/-- Head 8's piece is the block of the scratch function its rectangle names. -/
theorem piece8 (x : rh512.shape.Idx) :
    (k1_pay23 (k1_pay2 (View.ld x0 rq)) (k1_pay3 (View.ld x1 rk)) (k1_pay4 (View.ld x2 rk)) : FVec Ideal S512x64 .bf16) x = scrG x0 x1 x2 (rh512.emb x) := by
  obtain ⟨r, d, rfl⟩ : ∃ (r : Fin 512) (d : Fin 64), x = ix2 r d := ⟨x 0, x 1, eq_ix2 x⟩
  rw [ld_q, ld_k, ld_k]
  refine (pay_h8_apply x0 x1 x2 r d).trans (scrG_at x0 x1 x2 ⟨8, by omega⟩ _ r d ?_ ?_).symm
  · show 0 + 1 * r.val = r.val; omega
  · show 512 + 1 * d.val = 64 * 8 + d.val; omega

/-- Head 7's piece is the block of the scratch function its rectangle names. -/
theorem piece7 (x : rh448.shape.Idx) :
    (k1_pay22 (k1_pay20 (k1_pay4 (View.ld x2 rk))) (k1_pay21 (k1_pay2 (View.ld x0 rq)) (k1_pay3 (View.ld x1 rk))) : FVec Ideal S512x64 .bf16) x = scrG x0 x1 x2 (rh448.emb x) := by
  obtain ⟨r, d, rfl⟩ : ∃ (r : Fin 512) (d : Fin 64), x = ix2 r d := ⟨x 0, x 1, eq_ix2 x⟩
  rw [ld_q, ld_k, ld_k]
  refine (pay_h7_apply x0 x1 x2 r d).trans (scrG_at x0 x1 x2 ⟨7, by omega⟩ _ r d ?_ ?_).symm
  · show 0 + 1 * r.val = r.val; omega
  · show 448 + 1 * d.val = 64 * 7 + d.val; omega

/-- Head 6's piece is the block of the scratch function its rectangle names. -/
theorem piece6 (x : rh384.shape.Idx) :
    (k1_pay19 (k1_pay2 (View.ld x0 rq)) (k1_pay3 (View.ld x1 rk)) (k1_pay4 (View.ld x2 rk)) : FVec Ideal S512x64 .bf16) x = scrG x0 x1 x2 (rh384.emb x) := by
  obtain ⟨r, d, rfl⟩ : ∃ (r : Fin 512) (d : Fin 64), x = ix2 r d := ⟨x 0, x 1, eq_ix2 x⟩
  rw [ld_q, ld_k, ld_k]
  refine (pay_h6_apply x0 x1 x2 r d).trans (scrG_at x0 x1 x2 ⟨6, by omega⟩ _ r d ?_ ?_).symm
  · show 0 + 1 * r.val = r.val; omega
  · show 384 + 1 * d.val = 64 * 6 + d.val; omega

/-- Head 5's piece is the block of the scratch function its rectangle names. -/
theorem piece5 (x : rh320.shape.Idx) :
    (k1_pay18 (k1_pay15 (k1_pay4 (View.ld x2 rk))) (k1_pay16 (k1_pay2 (View.ld x0 rq)) (k1_pay3 (View.ld x1 rk))) (k1_pay17 (k1_pay2 (View.ld x0 rq)) (k1_pay3 (View.ld x1 rk))) : FVec Ideal S512x64 .bf16) x = scrG x0 x1 x2 (rh320.emb x) := by
  obtain ⟨r, d, rfl⟩ : ∃ (r : Fin 512) (d : Fin 64), x = ix2 r d := ⟨x 0, x 1, eq_ix2 x⟩
  rw [ld_q, ld_k, ld_k]
  refine (pay_h5_apply x0 x1 x2 r d).trans (scrG_at x0 x1 x2 ⟨5, by omega⟩ _ r d ?_ ?_).symm
  · show 0 + 1 * r.val = r.val; omega
  · show 320 + 1 * d.val = 64 * 5 + d.val; omega

/-- Head 4's piece is the block of the scratch function its rectangle names. -/
theorem piece4 (x : rh256.shape.Idx) :
    (k1_pay14 (k1_pay2 (View.ld x0 rq)) (k1_pay3 (View.ld x1 rk)) (k1_pay4 (View.ld x2 rk)) : FVec Ideal S512x64 .bf16) x = scrG x0 x1 x2 (rh256.emb x) := by
  obtain ⟨r, d, rfl⟩ : ∃ (r : Fin 512) (d : Fin 64), x = ix2 r d := ⟨x 0, x 1, eq_ix2 x⟩
  rw [ld_q, ld_k, ld_k]
  refine (pay_h4_apply x0 x1 x2 r d).trans (scrG_at x0 x1 x2 ⟨4, by omega⟩ _ r d ?_ ?_).symm
  · show 0 + 1 * r.val = r.val; omega
  · show 256 + 1 * d.val = 64 * 4 + d.val; omega

/-- Head 3's piece is the block of the scratch function its rectangle names. -/
theorem piece3 (x : rh192.shape.Idx) :
    (k1_pay13 (k1_pay10 (k1_pay4 (View.ld x2 rk))) (k1_pay11 (k1_pay2 (View.ld x0 rq)) (k1_pay3 (View.ld x1 rk))) (k1_pay12 (k1_pay2 (View.ld x0 rq)) (k1_pay3 (View.ld x1 rk))) : FVec Ideal S512x64 .bf16) x = scrG x0 x1 x2 (rh192.emb x) := by
  obtain ⟨r, d, rfl⟩ : ∃ (r : Fin 512) (d : Fin 64), x = ix2 r d := ⟨x 0, x 1, eq_ix2 x⟩
  rw [ld_q, ld_k, ld_k]
  refine (pay_h3_apply x0 x1 x2 r d).trans (scrG_at x0 x1 x2 ⟨3, by omega⟩ _ r d ?_ ?_).symm
  · show 0 + 1 * r.val = r.val; omega
  · show 192 + 1 * d.val = 64 * 3 + d.val; omega

/-- Head 2's piece is the block of the scratch function its rectangle names. -/
theorem piece2 (x : rh128.shape.Idx) :
    (k1_pay9 (k1_pay2 (View.ld x0 rq)) (k1_pay3 (View.ld x1 rk)) (k1_pay4 (View.ld x2 rk)) : FVec Ideal S512x64 .bf16) x = scrG x0 x1 x2 (rh128.emb x) := by
  obtain ⟨r, d, rfl⟩ : ∃ (r : Fin 512) (d : Fin 64), x = ix2 r d := ⟨x 0, x 1, eq_ix2 x⟩
  rw [ld_q, ld_k, ld_k]
  refine (pay_h2_apply x0 x1 x2 r d).trans (scrG_at x0 x1 x2 ⟨2, by omega⟩ _ r d ?_ ?_).symm
  · show 0 + 1 * r.val = r.val; omega
  · show 128 + 1 * d.val = 64 * 2 + d.val; omega

/-- Head 1's piece is the block of the scratch function its rectangle names. -/
theorem piece1 (x : rh64.shape.Idx) :
    (k1_pay8 (k1_pay6 (View.ld x2 rk)) (k1_pay7 (View.ld x0 rq) (View.ld x1 rk)) : FVec Ideal S512x64 .bf16) x = scrG x0 x1 x2 (rh64.emb x) := by
  obtain ⟨r, d, rfl⟩ : ∃ (r : Fin 512) (d : Fin 64), x = ix2 r d := ⟨x 0, x 1, eq_ix2 x⟩
  rw [ld_q, ld_k, ld_k]
  refine (pay_h1_apply x0 x1 x2 r d).trans (scrG_at x0 x1 x2 ⟨1, by omega⟩ _ r d ?_ ?_).symm
  · show 0 + 1 * r.val = r.val; omega
  · show 64 + 1 * d.val = 64 * 1 + d.val; omega

/-- Head 0's piece is the block of the scratch function its rectangle names. -/
theorem piece0 (x : rh0.shape.Idx) :
    (k1_pay5 (View.ld x0 rq) (View.ld x1 rk) (View.ld x2 rk) : FVec Ideal S512x64 .bf16) x = scrG x0 x1 x2 (rh0.emb x) := by
  obtain ⟨r, d, rfl⟩ : ∃ (r : Fin 512) (d : Fin 64), x = ix2 r d := ⟨x 0, x 1, eq_ix2 x⟩
  rw [ld_q, ld_k, ld_k]
  refine (pay_h0_apply x0 x1 x2 r d).trans (scrG_at x0 x1 x2 ⟨0, by omega⟩ _ r d ?_ ?_).symm
  · show 0 + 1 * r.val = r.val; omega
  · show 0 + 1 * d.val = 64 * 0 + d.val; omega

/-- Every piece of the scratch is a block of the scratch function. -/
theorem scrPieces_blocks : ∀ p ∈ scrPieces (F := Ideal) x0 x1 x2, ∀ x : p.1.shape.Idx, p.2 x = scrG x0 x1 x2 (p.1.emb x) := by
  intro p hp
  unfold scrPieces at hp
  simp only [List.mem_cons, List.not_mem_nil, or_false] at hp
  rcases hp with rfl | rfl | rfl | rfl | rfl | rfl | rfl | rfl | rfl | rfl | rfl | rfl | rfl | rfl | rfl | rfl
  · exact piece15 x0 x1 x2
  · exact piece14 x0 x1 x2
  · exact piece13 x0 x1 x2
  · exact piece12 x0 x1 x2
  · exact piece11 x0 x1 x2
  · exact piece10 x0 x1 x2
  · exact piece9 x0 x1 x2
  · exact piece8 x0 x1 x2
  · exact piece7 x0 x1 x2
  · exact piece6 x0 x1 x2
  · exact piece5 x0 x1 x2
  · exact piece4 x0 x1 x2
  · exact piece3 x0 x1 x2
  · exact piece2 x0 x1 x2
  · exact piece1 x0 x1 x2
  · exact piece0 x0 x1 x2

/-- The pieces tile the scratch. -/
theorem scrPieces_cover (y : S512x1024.Idx) : ∃ p ∈ scrPieces (F := Ideal) x0 x1 x2, y ∈ p.1.set :=
  View.cover_of_tiledL (scrPieces (F := Ideal) x0 x1 x2) S512x64.size (by sl_kernel_rfl) y

/-- The scratch read back at `(r, j)`. -/
theorem scr1_apply (r : Fin 512) (j : Fin 1024) :
    scr1 (F := Ideal) x0 x1 x2 (ix2 r j) = hctx x0 x1 x2 ⟨j.val / 64, by omega⟩ r ⟨j.val % 64, by omega⟩ := by
  unfold scr1
  refine (View.canon_apply_of_pieces (scrG x0 x1 x2) (scrPieces (F := Ideal) x0 x1 x2) (scrPieces_blocks x0 x1 x2) _
    (scrPieces_cover x0 x1 x2 _)).trans ?_
  refine scrG_at x0 x1 x2 ⟨j.val / 64, by omega⟩ _ r ⟨j.val % 64, by omega⟩ ?_ ?_
  · show 0 + 1 * r.val = r.val; omega
  · show 0 + 1 * j.val = 64 * (j.val / 64) + j.val % 64; omega

end Cert.Attn.KSide

end
-- ==== Proof.KI.Proj.lean ====
/-
  The two projections of the kernel bodies, read entry by entry on the extended reals.

  The first body stores, for its block of rows, the rows against the rows of the weight plus the bias:
  entry `(r, c)` is `∑ₖ x(r,k) · w(c,k) + b(c)`. The second body's last store is the same projection of the
  scratch — the sixteen heads side by side — by the second weight and bias.
-/
import proofs.«106968_j70755291234837_2_alg».proof.Proof.KI.Defs
import proofs.«106968_j70755291234837_2_alg».proof.Proof.LibRowLanes
import Idealize.ShloMosaic.Lib.ValueLayout

noncomputable section

namespace Cert.Attn.KSide

open Cert.KernelIdeal Cert.KernelIdeal.Gen Cert.KernelIdeal.Hand Idealize.ShloMosaic Idealize.ShloMosaic.ValueIdx
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The first body's stored value as one expression. -/
theorem k0_pay1_eq (v0 : FVec Ideal S1024x1024 .f32) (v3 : FVec Ideal S3072x1024 .bf16) (v6 : FVec Ideal S1x3072 .f32) :
    k0_pay1 v0 v3 v6 = truncf .bf16
      (addf
        (matmul dot_S1024x1024_S3072x1024_S1024x3072_1_1_0_0_n_n none
          (truncf .bf16 (shapeCast S1024x1024 v0 shapeCasts_S1024x1024_S1024x1024) bitsLt_bf16_f32)
          (shapeCast S3072x1024 v3 shapeCasts_S3072x1024_S3072x1024) (constant S1024x3072 .f32 0x00000000#32))
        (broadcastTo S1024x3072 (shapeCast S1x3072 v6 shapeCasts_S1x3072_S1x3072) broadcasts_S1x3072_S1024x3072))
      bitsLt_bf16_f32 := rfl

/-- The first body's stored value at `(r, c)`. -/
theorem k0_pay1_apply (v0 : Vec Ideal S1024x1024 .f32) (v3 : Vec Ideal S3072x1024 .bf16) (v6 : Vec Ideal S1x3072 .f32)
    (r : Fin 1024) (cc : Fin 3072) :
    k0_pay1 v0 v3 v6 (ix2 r cc) = (∑ k : Fin 1024, v0 (ix2 r k) * v3 (ix2 cc k)) + v6 (ix2 (0 : Fin 1) cc) := by
  rw [k0_pay1_eq, shapeCast_self, shapeCast_self, shapeCast_self, truncf_apply, addf_apply]
  refine congrArg₂ (· + ·) ?_ ?_
  · refine (Cert.LibRowLanes.matmul_zero_rows_rows (n := 1024) (k := 1024) (c := 3072) (φ₁ := .bf16) (φ₂ := .bf16)
      dot_S1024x1024_S3072x1024_S1024x3072_1_1_0_0_n_n rfl rfl
      (fun i q => rfl) (fun i q => DotDims.lhsIdx_val_of_single _ rfl i q)
      (fun i q => rfl) (fun i q => DotDims.rhsIdx_val_of_single _ rfl i q) none _ v3 r cc).trans ?_
    exact Finset.sum_congr rfl fun k _ => rfl
  · exact broadcastTo_1b_ab_apply (a := 1024) (b := 3072) v6 broadcasts_S1x3072_S1024x3072 r cc

theorem out0_3_apply (x0 : Vec Ideal S1024x1024 .f32) (x1 : Vec Ideal S3072x1024 .bf16) (x2 : Vec Ideal S1x3072 .f32)
    (r : Fin 1024) (cc : Fin 3072) :
    out0_3 (F := Ideal) x0 x1 x2 (ix2 r cc) = (∑ k : Fin 1024, x0 (ix2 r k) * x1 (ix2 cc k)) + x2 (ix2 (0 : Fin 1) cc) := by
  unfold out0_3
  rw [View.canon_unit_zero hz2, View.ld_unit_zero hz2, View.ld_unit_zero hz2, View.ld_unit_zero hz2]
  exact k0_pay1_apply x0 x1 x2 r cc

/-- The second body's last stored value as one expression. -/
theorem k1_pay1_eq (v342 : FVec Ideal S512x1024 .bf16) (v343 : FVec Ideal S1024x1024 .bf16) (v346 : FVec Ideal S1x1024 .f32) :
    k1_pay1 v342 v343 v346 = shapeCast S1x512x1024
      (addf
        (matmul dot_S512x1024_S1024x1024_S512x1024_1_1_0_0_n_n none v342
          (shapeCast S1024x1024 v343 shapeCasts_S1024x1024_S1024x1024) (constant S512x1024 .f32 0x00000000#32))
        (broadcastTo S512x1024 (shapeCast S1x1024 v346 shapeCasts_S1x1024_S1x1024) broadcasts_S1x1024_S512x1024))
      shapeCasts_S512x1024_S1x512x1024 := rfl

/-- The second body's last stored value at `(0, r, e)`. -/
theorem k1_pay1_apply (v342 : Vec Ideal S512x1024 .bf16) (v343 : Vec Ideal S1024x1024 .bf16) (v346 : Vec Ideal S1x1024 .f32)
    (r : Fin 512) (e : Fin 1024) :
    k1_pay1 v342 v343 v346 (ix3 (0 : Fin 1) r e)
      = (∑ j : Fin 1024, v342 (ix2 r j) * v343 (ix2 e j)) + v346 (ix2 (0 : Fin 1) e) := by
  rw [k1_pay1_eq, shapeCast_self, shapeCast_self]
  refine (shapeCast_ab_1ab_apply (a := 512) (b := 1024) _ shapeCasts_S512x1024_S1x512x1024 (0 : Fin 1) r e).trans ?_
  rw [addf_apply]
  refine congrArg₂ (· + ·) ?_ ?_
  · exact Cert.LibRowLanes.matmul_zero_rows_rows (n := 512) (k := 1024) (c := 1024) (φ₁ := .bf16) (φ₂ := .bf16)
      dot_S512x1024_S1024x1024_S512x1024_1_1_0_0_n_n rfl rfl
      (fun i q => rfl) (fun i q => DotDims.lhsIdx_val_of_single _ rfl i q)
      (fun i q => rfl) (fun i q => DotDims.rhsIdx_val_of_single _ rfl i q) none v342 v343 r e
  · exact broadcastTo_1b_ab_apply (a := 512) (b := 1024) v346 broadcasts_S1x1024_S512x1024 r e

/-- The second body's output block at `(0, r, e)` from the scratch read back. -/
theorem out1_5_apply_scr (x0 : Vec Ideal S1x512x1024 .bf16) (x1 x2 : Vec Ideal S1x2048x1024 .bf16)
    (x3 : Vec Ideal S1024x1024 .bf16) (x4 : Vec Ideal S1x1024 .f32) (r : Fin 512) (e : Fin 1024) :
    out1_5 (F := Ideal) x0 x1 x2 x3 x4 (ix3 (0 : Fin 1) r e)
      = (∑ j : Fin 1024, scr1 (F := Ideal) x0 x1 x2 (ix2 r j) * x3 (ix2 e j)) + x4 (ix2 (0 : Fin 1) e) := by
  unfold out1_5
  rw [View.canon_unit_zero hz3, View.ld_unit_zero hz2, View.ld_unit_zero hz2]
  exact k1_pay1_apply (scr1 (F := Ideal) x0 x1 x2) x3 x4 r e

end Cert.Attn.KSide

end
-- ==== Proof.KI.HeadMath.lean ====
/-
  The two kernel bodies' arithmetic, entry by entry on the extended reals.

  The projection kernel's output block at `(r, c)` is the row of its input against row `c` of the weight plus the
  bias (`out0_3_apply`). The attention kernel's scratch at `(r, j)` is head `j / 64`'s context at row `r`,
  coordinate `j % 64` (`scr1_apply`), and its output block at `(0, r, e)` is the scratch's row `r` against row `e`
  of the second weight plus the second bias (`out1_5_apply`).
-/
import proofs.«106968_j70755291234837_2_alg».proof.Proof.KI.Scr
import proofs.«106968_j70755291234837_2_alg».proof.Proof.KI.Proj

noncomputable section

namespace Cert.Attn.KSide

open Cert.KernelIdeal Cert.KernelIdeal.Gen Cert.KernelIdeal.Hand Idealize.ShloMosaic Idealize.ShloMosaic.ValueIdx
open scoped BigOperators

/-- The attention kernel's output block at `(0, r, e)`: the sixteen heads' contexts of row `r`, side by side,
    against row `e` of the second weight, plus the second bias. -/
theorem out1_5_apply (x0 : Vec Ideal S1x512x1024 .bf16) (x1 x2 : Vec Ideal S1x2048x1024 .bf16)
    (x3 : Vec Ideal S1024x1024 .bf16) (x4 : Vec Ideal S1x1024 .f32) (r : Fin 512) (e : Fin 1024) :
    out1_5 (F := Ideal) x0 x1 x2 x3 x4 (ix3 (0 : Fin 1) r e)
      = (∑ j : Fin 1024, hctx x0 x1 x2 ⟨j.val / 64, by omega⟩ r ⟨j.val % 64, by omega⟩ * x3 (ix2 e j))
        + x4 (ix2 (0 : Fin 1) e) := by
  refine (out1_5_apply_scr x0 x1 x2 x3 x4 r e).trans ?_
  refine congrArg (· + x4 (ix2 (0 : Fin 1) e)) (Finset.sum_congr rfl fun j _ => ?_)
  rw [scr1_apply x0 x1 x2 r j]

end Cert.Attn.KSide

end
-- ==== Proof.Value0.lean ====
/-
  The projection call's result array, whole: the call's four grid points each write back the 1024 rows of their
  block, row `r` of point `t` being row `1024 t + r` of the array, every entry the row-column sum of the input row
  with the weight plane's row plus the bias plane's entry; the four blocks tile the array.
-/
import proofs.«106968_j70755291234837_2_alg».proof.Proof.KI.Dats
import proofs.«106968_j70755291234837_2_alg».proof.Proof.KI.HeadMath
import Idealize.ShloMosaic.Lib.Pipeline.Value
import Idealize.ShloMosaic.Lib.ValueIdx

set_option maxRecDepth 16384

noncomputable section

namespace Cert.Attn.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.Attn.KSide
open scoped BigOperators

variable (V : (c : Dev nD) → (b : Ref sig .tc) → Buf (Elt Ideal) ((c : Thread nD τ).loc b))

/-- Entry (row, column) of the projected array: from the row of the flattened input, the plane's row, the bias. -/
def projAt (x : S4096x1024.Idx → EReal) (w : S3072x1024.Idx → EReal) (b : S1x3072.Idx → EReal) : S4096x3072.Idx → EReal := fun i =>
  (∑ k : Fin 1024, x (ix2 (i 0) k) * w (ix2 (i 1) k)) + b (ix2 (0 : Fin 1) (i 1))

/-- The projected array from the call's three input arrays as the call finds them. -/
def G0 (c : Dev nD) : S4096x3072.Idx → EReal := projAt (V c main_v24) (V c main_v11) (V c main_v25)

/-- The index maps of the call's four windows, decided over its four grid points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem tlt0 (t : Fin cfg0.N) : t.val < 4 := by have h := t.isLt; have hN : cfg0.N = 4 := N_0; omega

/-- The input window's block at point `t`: rows `1024 t …` of the flattened input. -/
theorem iblk0_0_at (c : Dev nD) (t : Fin cfg0.N) (r : Fin 1024) (k : Fin 1024) :
    iblk0 V c 0 t (ix2 r k) = V c main_v24 (ix2 (⟨t.val * 1024 + r.val, by have := tlt0 t; omega⟩ : Fin 4096) k) := by
  show V c main_v24 (((cfg0.win 0).blk t).view.emb (ix2 r k)) = _
  refine congrArg (V c main_v24) ?_
  obtain ⟨e0, e1, -⟩ := idx0 t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

/-- The weight plane's window shows the whole plane at every point. -/
theorem iblk0_1_at (c : Dev nD) (t : Fin cfg0.N) (cc : Fin 3072) (k : Fin 1024) :
    iblk0 V c 1 t (ix2 cc k) = V c main_v11 (ix2 cc k) := by
  show V c main_v11 (((cfg0.win 1).blk t).view.emb (ix2 cc k)) = _
  refine congrArg (V c main_v11) ?_
  obtain ⟨-, -, e0, e1, -⟩ := idx0 t
  funext a; apply Fin.ext
  match a with
  | ⟨0, _⟩ => show win0_1.index t (0 : Fin 2) * 3072 + 1 * cc.val = cc.val; omega
  | ⟨1, _⟩ => show win0_1.index t (1 : Fin 2) * 1024 + 1 * k.val = k.val; omega

/-- The bias plane's window shows the whole plane at every point. -/
theorem iblk0_2_at (c : Dev nD) (t : Fin cfg0.N) (cc : Fin 3072) :
    iblk0 V c 2 t (ix2 (0 : Fin 1) cc) = V c main_v25 (ix2 (0 : Fin 1) cc) := by
  show V c main_v25 (((cfg0.win 2).blk t).view.emb (ix2 (0 : Fin 1) cc)) = _
  refine congrArg (V c main_v25) ?_
  obtain ⟨-, -, -, -, e0, e1, -⟩ := idx0 t
  funext a; apply Fin.ext
  match a with
  | ⟨0, _⟩ => show win0_2.index t (0 : Fin 2) * 1 + 1 * 0 = 0; omega
  | ⟨1, _⟩ => show win0_2.index t (1 : Fin 2) * 3072 + 1 * cc.val = cc.val; omega

/-- Where the output block's entry (r, cc) of point `t` sits in the array. -/
theorem emb0_3 (t : Fin cfg0.N) (r : Fin 1024) (cc : Fin 3072) :
    ((cfg0.win 3).blk t).view.emb (ix2 r cc) = ix2 (⟨t.val * 1024 + r.val, by have := tlt0 t; omega⟩ : Fin 4096) cc := by
  obtain ⟨-, -, -, -, -, -, e0, e1⟩ := idx0 t
  funext a; apply Fin.ext
  match a with
  | ⟨0, _⟩ => show win0_3.index t (0 : Fin 2) * 1024 + 1 * r.val = t.val * 1024 + r.val; omega
  | ⟨1, _⟩ => show win0_3.index t (1 : Fin 2) * 3072 + 1 * cc.val = cc.val; omega

/-- What point `t` writes back is block `t` of `G0`. -/
theorem flushed0_3_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  funext j
  obtain ⟨r, cc, rfl⟩ : ∃ (r : Fin 1024) (cc : Fin 3072), j = ix2 r cc := ⟨j 0, j 1, eq_ix2 j⟩
  show out0_3 (iblk0 V c 0 t) (iblk0 V c 1 t) (iblk0 V c 2 t) (ix2 r cc) = G0 V c (((cfg0.win 3).blk t).view.emb (ix2 r cc))
  refine (out0_3_apply (iblk0 V c 0 t) (iblk0 V c 1 t) (iblk0 V c 2 t) r cc).trans ?_
  rw [emb0_3 t r cc, iblk0_2_at V c t cc]
  unfold G0 projAt
  refine congrArg (· + _) (Finset.sum_congr rfl fun k _ => ?_)
  rw [iblk0_0_at V c t r k, iblk0_1_at V c t cc k]

/-- An index of the array is in point `t`'s block iff its row is among the block's 1024. -/
theorem mem_blk0_3 (t : Fin cfg0.N) (i : S4096x3072.Idx) :
    i ∈ ((cfg0.win 3).blk t).view.set ↔ ∀ a : Fin 2, win0_3.index t a * S1024x3072.size a ≤ (i a).val ∧ (i a).val < win0_3.index t a * S1024x3072.size a + S1024x3072.size a := by
  show i ∈ ((View.whole main_v26).slice (win0_3.rect t)).set ↔ _
  rw [View.set_slice_whole, Rect.mem_set_unit]
  exact Iff.rfl

/-- The four blocks cover the array: row `i₀` is in the block of point `i₀ / 1024`. -/
theorem cover0_3 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  have hN : cfg0.N = 4 := N_0
  refine ⟨⟨(i 0).val / 1024, by omega⟩, flush0_3 _, ?_⟩
  rw [mem_blk0_3]
  obtain ⟨-, -, -, -, -, -, e0, e1⟩ := idx0 ⟨(i 0).val / 1024, by omega⟩
  intro a
  match a with
  | ⟨0, _⟩ => show win0_3.index _ (0 : Fin 2) * 1024 ≤ (i 0).val ∧ (i 0).val < win0_3.index _ (0 : Fin 2) * 1024 + 1024; rw [e0]; show (i 0).val / 1024 * 1024 ≤ _ ∧ _ < (i 0).val / 1024 * 1024 + 1024; omega
  | ⟨1, _⟩ => show win0_3.index _ (1 : Fin 2) * 3072 ≤ (i 1).val ∧ (i 1).val < win0_3.index _ (1 : Fin 2) * 3072 + 3072; rw [e1]; omega

/-- The projected array after the call. -/
theorem final0 (c : Dev nD) : (dat0 V c).arrAt 3 cfg0.N = G0 V c :=
  (dat0 V c).arrAt_eq_of_cover 3 (G0 V c) (fun t _ => flushed0_3_eq V c t) cover0_3

end Cert.Attn.Blocks

end
-- ==== Proof.Entry.lean ====
/-
  What the second kernel call finds in its operands.

  The first call leaves in its result array, at row b*2048 + s and column cc, the row-column sum of token (b, s) with
  row cc of the regrouped weight plus entry cc of the regrouped bias: the projected feature `planeFeat cc` of the
  token. The reshape between the calls names that entry (b, s, cc). The second weight and bias reach the second
  call as the arguments themselves.
-/
import proofs.«106968_j70755291234837_2_alg».proof.Proof.KI.Frame
import proofs.«106968_j70755291234837_2_alg».proof.Proof.HostSide
import proofs.«106968_j70755291234837_2_alg».proof.Proof.Value0

noncomputable section

namespace Cert.Attn.Entry

open Idealize.ShloMosaic Idealize.ShloMosaic.TcCoe Idealize.ShloMosaic.ValueIdx
open Idealize.SL Idealize.SL.Sem
open Cert.KernelIdeal Cert.KernelIdeal.Gen Cert.KernelIdeal.Hand
open scoped BigOperators

variable (m : (ℓ : Loc nD τ sig) → Buf (Elt Ideal) ℓ) (ρ : Dev nD → PrngReg) (c : Dev nD)

/-- The tokens the first call reads, at row `b * 2048 + s`. -/
theorem x_at (b : Fin 2) (s : Fin 2048) (k : Fin 1024) :
    Vl1 m ρ c main_v24 (ix2 (⟨b.val * 2048 + s.val, by omega⟩ : Fin 4096) k) = m ((c : Thread nD τ).loc main_arg0) (ix3 b s k) := by
  refine (HostSide.xrows (Wl0 m ρ c) _ k).trans ?_
  have hb : (⟨(b.val * 2048 + s.val) / 2048, by omega⟩ : Fin 2) = b := Fin.ext (by show (b.val * 2048 + s.val) / 2048 = b.val; omega)
  have hs : (⟨(b.val * 2048 + s.val) % 2048, by omega⟩ : Fin 2048) = s := Fin.ext (by show (b.val * 2048 + s.val) % 2048 = s.val; omega)
  show m ((c : Thread nD τ).loc main_arg0) (ix3 (⟨(b.val * 2048 + s.val) / 2048, by omega⟩ : Fin 2) (⟨(b.val * 2048 + s.val) % 2048, by omega⟩ : Fin 2048) k) = _
  rw [hb, hs]

/-- The weight the first call reads. -/
theorem w_at (cc : Fin 3072) (k : Fin 1024) :
    Vl1 m ρ c main_v11 (ix2 cc k) = m ((c : Thread nD τ).loc main_arg1) (ix2 (HostSide.planeFeat cc) k) :=
  HostSide.wplane (Wl0 m ρ c) cc k

/-- The bias the first call reads. -/
theorem b_at (cc : Fin 3072) :
    Vl1 m ρ c main_v25 (ix2 (0 : Fin 1) cc) = m ((c : Thread nD τ).loc main_arg2) (ix1 (HostSide.planeFeat cc)) :=
  HostSide.bplane (Wl0 m ρ c) cc

/-- The projection the second call reads: entry (b, s, cc) is the projected feature `planeFeat cc` of token (b, s). -/
theorem hq (b : Fin 2) (s : Fin 2048) (cc : Fin 3072) :
    Vl3 m ρ c main_v27 (ix3 b s cc)
      = Cert.Attn.proj (m ((c : Thread nD τ).loc main_arg0)) (m ((c : Thread nD τ).loc main_arg1)) (m ((c : Thread nD τ).loc main_arg2)) b s (HostSide.planeFeat cc) := by
  refine (HostSide.qkv3 (Wl2 m ρ c) b s cc).trans ?_
  have h26 : Wl2 m ρ c (Proc.devRef .tc main_v26) = Blocks.G0 (Vl1 m ρ) c := (Wl2_arr m ρ c 3).trans (Blocks.final0 (Vl1 m ρ) c)
  refine (congrFun h26 _).trans ?_
  unfold Blocks.G0 Blocks.projAt Cert.Attn.proj
  exact congrArg₂ (fun a b : EReal => a + b)
    (Finset.sum_congr rfl fun k _ => congrArg₂ (fun a b : EReal => a * b) (x_at m ρ c b s k) (w_at m ρ c cc k))
    (b_at m ρ c cc)

/-- The second weight the second call reads is the argument. -/
theorem hw (e j : Fin 1024) : Vl3 m ρ c main_v23 (ix2 e j) = m ((c : Thread nD τ).loc main_arg3) (ix2 e j) := by
  have h : Wl3 m ρ c (Proc.devRef .tc main_v23) = m ((c : Thread nD τ).loc main_arg3) :=
    calc Wl3 m ρ c (Proc.devRef .tc main_v23)
      _ = Wl2 m ρ c (Proc.devRef .tc main_v23) := HostSide.hostOps1_v23 (Wl2 m ρ c)
      _ = Wl1 m ρ c (Proc.devRef .tc main_v23) := Wl2_of_ne m ρ c main_v23 (by decide)
      _ = Wl0 m ρ c (Proc.devRef .tc main_arg3) := HostSide.wfc (Wl0 m ρ c)
      _ = m ((c : Thread nD τ).loc main_arg3) := rfl
  exact congrFun h _

/-- The second bias the second call reads: entry `e` of its one row is entry `e` of the argument. -/
theorem hb (e : Fin 1024) : Vl3 m ρ c main_v28 (ix2 (0 : Fin 1) e) = m ((c : Thread nD τ).loc main_arg4) (ix1 e) := by
  refine (HostSide.bfc (Wl2 m ρ c) e).trans ?_
  have h : Wl2 m ρ c (Proc.devRef .tc main_arg4) = m ((c : Thread nD τ).loc main_arg4) :=
    calc Wl2 m ρ c (Proc.devRef .tc main_arg4)
      _ = Wl1 m ρ c (Proc.devRef .tc main_arg4) := Wl2_of_ne m ρ c main_arg4 (by decide)
      _ = Wl0 m ρ c (Proc.devRef .tc main_arg4) := HostSide.hostOps0_arg4 (Wl0 m ρ c)
      _ = m ((c : Thread nD τ).loc main_arg4) := rfl
  exact congrFun h _

end Cert.Attn.Entry

end
-- ==== Proof.Glue.lean ====
/-
  One head of the kernel's blocks against the specification, as functions on the extended reals.

  The word 0x3E000000 denotes 1/8 and the word 0x41000000 denotes 8, and on every extended real, the infinities
  included, the product with 1/8 is the quotient by 8. So when the query block's row r holds, in columns
  64 h + d, the query coordinates of token (b, q), and the key and value blocks' rows k hold the key and value
  coordinates of token (b, k), the block's score, row maximum, exponential, softmax weight and context of head h are
  the specification's, term by term; and the second projection of the contexts laid side by side (column j belongs to
  head j / 64, coordinate j mod 64) is the specification's projection of the merged heads.
-/
import proofs.«106968_j70755291234837_2_alg».proof.Proof.Spec
import proofs.«106968_j70755291234837_2_alg».proof.Proof.KI.HeadDefs
import Idealize.ShloMosaic.PureOps.Ideal.Laws

noncomputable section

namespace Cert.Attn.Glue

open Cert.KernelIdeal Idealize.ShloMosaic Idealize.ShloMosaic.ValueIdx Cert.Attn
open scoped BigOperators

/-- The word 0x41000000 denotes the real 8. -/
theorem ofBits_eight : Ideal.ofBits .f32 0x41000000#32 = ((8 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- On every extended real the product with 1/8 is the quotient by 8. -/
theorem mul_eighth (y : EReal) : y * Ideal.ofBits .f32 0x3E000000#32 = Ideal.div y (Ideal.ofBits .f32 0x41000000#32) := by
  rw [ofBits_eight, ofBits_eighth, Ideal.div_coe (by norm_num : (8 : ℝ) ≠ 0)]

section Head

variable (P : Fin 2 → Fin 2048 → Fin 3072 → EReal) (b : Fin 2) (q : Fin 2048) (r : Fin 512)
  (x0 : S1x512x1024.Idx → EReal) (x1 x2 : S1x2048x1024.Idx → EReal)
  (h0 : ∀ (h : Fin 16) (d : Fin 64), x0 (ix3 (0 : Fin 1) r ⟨64 * h.val + d.val, by omega⟩) = P b q (feat h 0 d))
  (h1 : ∀ (k : Fin 2048) (h : Fin 16) (d : Fin 64), x1 (ix3 (0 : Fin 1) k ⟨64 * h.val + d.val, by omega⟩) = P b k (feat h 1 d))
  (h2 : ∀ (k : Fin 2048) (h : Fin 16) (d : Fin 64), x2 (ix3 (0 : Fin 1) k ⟨64 * h.val + d.val, by omega⟩) = P b k (feat h 2 d))

include h0 h1 in
/-- The block score is the specification's: the same 64 products, and the product with 1/8 is the quotient by 8. -/
theorem hscore_eq (h : Fin 16) (k : Fin 2048) : KSide.hscore x0 x1 h r k = score P b h q k := by
  unfold KSide.hscore score
  rw [mul_eighth]
  refine congrArg (fun s => Ideal.div s (Ideal.ofBits .f32 0x41000000#32)) (Finset.sum_congr rfl fun d _ => ?_)
  rw [h0 h d, h1 k h d]

include h0 h1 in
/-- The block's row maximum is the specification's. -/
theorem hmax_eq (h : Fin 16) : KSide.hmax x0 x1 h r = rowMax P b h q := by
  unfold KSide.hmax rowMax
  exact congrArg (fun f => (Finset.univ : Finset (Fin 2048)).fold max (Ideal.ofBits .f32 0xFF800000#32) f)
    (funext fun k => hscore_eq P b q r x0 x1 h0 h1 h k)

include h0 h1 in
/-- The block's exponential is the specification's. -/
theorem hexp_eq (h : Fin 16) (k : Fin 2048) : KSide.hexp x0 x1 h r k = expo P b h q k := by
  unfold KSide.hexp expo
  rw [hscore_eq P b q r x0 x1 h0 h1 h k, hmax_eq P b q r x0 x1 h0 h1 h]

include h0 h1 in
/-- The block's softmax weight is the specification's. -/
theorem hweight_eq (h : Fin 16) (k : Fin 2048) : KSide.hweight x0 x1 h r k = weight P b h q k := by
  unfold KSide.hweight weight
  rw [hexp_eq P b q r x0 x1 h0 h1 h k]
  exact congrArg (fun s => Ideal.div (expo P b h q k) s)
    (Finset.sum_congr rfl fun k' _ => hexp_eq P b q r x0 x1 h0 h1 h k')

include h0 h1 h2 in
/-- The block's context of head h at coordinate d is the specification's. -/
theorem hctx_eq (h : Fin 16) (d : Fin 64) : KSide.hctx x0 x1 x2 h r d = Cert.Attn.ctx P b h q d := by
  unfold KSide.hctx ctx
  refine Finset.sum_congr rfl fun k _ => ?_
  rw [hweight_eq P b q r x0 x1 h0 h1 h k, h2 k h d]

include h0 h1 h2 in
/-- The second projection of the blocks' contexts is the specification's of the merged heads. -/
theorem out_eq (x3 : S1024x1024.Idx → EReal) (x4 : S1x1024.Idx → EReal) (wf : (⟨2, ![1024, 1024]⟩ : Shape).Idx → EReal)
    (bf : (⟨1, ![1024]⟩ : Shape).Idx → EReal) (e : Fin 1024)
    (h3 : ∀ j : Fin 1024, x3 (ix2 e j) = wf (ix2 e j)) (h4 : x4 (ix2 (0 : Fin 1) e) = bf (ix1 e)) :
    (∑ j : Fin 1024, KSide.hctx x0 x1 x2 ⟨j.val / 64, by omega⟩ r ⟨j.val % 64, by omega⟩ * x3 (ix2 e j)) + x4 (ix2 (0 : Fin 1) e)
      = (∑ j : Fin 1024, merged P b q j * wf (ix2 e j)) + bf (ix1 e) := by
  rw [h4]
  refine congrArg (· + bf (ix1 e)) (Finset.sum_congr rfl fun j _ => ?_)
  rw [h3 j, hctx_eq P b q r x0 x1 x2 h0 h1 h2]
  rfl

end Head

end Cert.Attn.Glue

end
-- ==== Proof.Value1.lean ====
/-
  The attention call's result array, whole: the call's eight grid points (point t is batch t / 4, query quarter
  t mod 4) each write back the 512 rows of their block, row r of point t being row 512 (t mod 4) + r of batch
  t / 4. The query block shows those rows of the first 1024 columns of the projected array, the key and value blocks
  all 2048 rows of the batch in the second and third 1024 columns, so column 64 h + d of each is the query, key and
  value coordinate d of head h; the second weight and bias are shown whole. Every entry written is therefore the
  merged heads of its token against the second weight's row plus the second bias, and the eight blocks tile the array.
-/
import proofs.«106968_j70755291234837_2_alg».proof.Proof.KI.Dats
import proofs.«106968_j70755291234837_2_alg».proof.Proof.KI.HeadMath
import proofs.«106968_j70755291234837_2_alg».proof.Proof.Glue
import Idealize.ShloMosaic.Lib.Pipeline.Value
import Idealize.ShloMosaic.Lib.ValueIdx

set_option maxRecDepth 16384

noncomputable section

namespace Cert.Attn.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.Attn.KSide
open scoped BigOperators

variable (V : (c : Dev nD) → (b : Ref sig .tc) → Buf (Elt Ideal) ((c : Thread nD τ).loc b))

/-- The index maps of the call's six windows, decided over its eight grid points: point t is batch t / 4, query
    quarter t mod 4. -/
theorem idx1 : ∀ t : Fin cfg1.N,
    (win1_0.index t (0 : Fin 3) = t.val / 4 ∧ win1_0.index t (1 : Fin 3) = t.val % 4 ∧ win1_0.index t (2 : Fin 3) = 0)
    ∧ (win1_1.index t (0 : Fin 3) = t.val / 4 ∧ win1_1.index t (1 : Fin 3) = 0 ∧ win1_1.index t (2 : Fin 3) = 1)
    ∧ (win1_2.index t (0 : Fin 3) = t.val / 4 ∧ win1_2.index t (1 : Fin 3) = 0 ∧ win1_2.index t (2 : Fin 3) = 2)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 3) = t.val / 4 ∧ win1_5.index t (1 : Fin 3) = t.val % 4 ∧ win1_5.index t (2 : Fin 3) = 0) :=
  (by decide +kernel : ∀ t : Fin grid1.N, _)

theorem tlt1 (t : Fin cfg1.N) : t.val < 8 := by have h := t.isLt; have hN : cfg1.N = 8 := N_1; omega

/-- The query window's block at point t: rows 512 (t mod 4) … of batch t / 4, the first 1024 columns. -/
theorem iblk1_0_at (c : Dev nD) (t : Fin cfg1.N) (r : Fin 512) (k : Fin 1024) :
    iblk1 V c 0 t (ix3 (0 : Fin 1) r k)
      = V c main_v27 (ix3 (⟨t.val / 4, by have := tlt1 t; omega⟩ : Fin 2)
          (⟨t.val % 4 * 512 + r.val, by have := tlt1 t; omega⟩ : Fin 2048) (⟨k.val, by omega⟩ : Fin 3072)) := by
  show V c main_v27 (((cfg1.win 0).blk t).view.emb (ix3 (0 : Fin 1) r k)) = _
  refine congrArg (V c main_v27) ?_
  obtain ⟨⟨e0, e1, e2⟩, -⟩ := idx1 t
  funext a; apply Fin.ext
  match a with
  | ⟨0, _⟩ => show win1_0.index t (0 : Fin 3) * 1 + 1 * 0 = t.val / 4; omega
  | ⟨1, _⟩ => show win1_0.index t (1 : Fin 3) * 512 + 1 * r.val = t.val % 4 * 512 + r.val; omega
  | ⟨2, _⟩ => show win1_0.index t (2 : Fin 3) * 1024 + 1 * k.val = k.val; omega

/-- The key window's block at point t: all rows of batch t / 4, the second 1024 columns. -/
theorem iblk1_1_at (c : Dev nD) (t : Fin cfg1.N) (k : Fin 2048) (j : Fin 1024) :
    iblk1 V c 1 t (ix3 (0 : Fin 1) k j)
      = V c main_v27 (ix3 (⟨t.val / 4, by have := tlt1 t; omega⟩ : Fin 2) k (⟨1024 + j.val, by omega⟩ : Fin 3072)) := by
  show V c main_v27 (((cfg1.win 1).blk t).view.emb (ix3 (0 : Fin 1) k j)) = _
  refine congrArg (V c main_v27) ?_
  obtain ⟨-, ⟨e0, e1, e2⟩, -⟩ := idx1 t
  funext a; apply Fin.ext
  match a with
  | ⟨0, _⟩ => show win1_1.index t (0 : Fin 3) * 1 + 1 * 0 = t.val / 4; omega
  | ⟨1, _⟩ => show win1_1.index t (1 : Fin 3) * 2048 + 1 * k.val = k.val; omega
  | ⟨2, _⟩ => show win1_1.index t (2 : Fin 3) * 1024 + 1 * j.val = 1024 + j.val; omega

/-- The value window's block at point t: all rows of batch t / 4, the third 1024 columns. -/
theorem iblk1_2_at (c : Dev nD) (t : Fin cfg1.N) (k : Fin 2048) (j : Fin 1024) :
    iblk1 V c 2 t (ix3 (0 : Fin 1) k j)
      = V c main_v27 (ix3 (⟨t.val / 4, by have := tlt1 t; omega⟩ : Fin 2) k (⟨2048 + j.val, by omega⟩ : Fin 3072)) := by
  show V c main_v27 (((cfg1.win 2).blk t).view.emb (ix3 (0 : Fin 1) k j)) = _
  refine congrArg (V c main_v27) ?_
  obtain ⟨-, -, ⟨e0, e1, e2⟩, -⟩ := idx1 t
  funext a; apply Fin.ext
  match a with
  | ⟨0, _⟩ => show win1_2.index t (0 : Fin 3) * 1 + 1 * 0 = t.val / 4; omega
  | ⟨1, _⟩ => show win1_2.index t (1 : Fin 3) * 2048 + 1 * k.val = k.val; omega
  | ⟨2, _⟩ => show win1_2.index t (2 : Fin 3) * 1024 + 1 * j.val = 2048 + j.val; omega

/-- The second weight's window shows the whole matrix at every point. -/
theorem iblk1_3_at (c : Dev nD) (t : Fin cfg1.N) (e j : Fin 1024) :
    iblk1 V c 3 t (ix2 e j) = V c main_v23 (ix2 e j) := by
  show V c main_v23 (((cfg1.win 3).blk t).view.emb (ix2 e j)) = _
  refine congrArg (V c main_v23) ?_
  obtain ⟨-, -, -, ⟨e0, e1⟩, -⟩ := idx1 t
  funext a; apply Fin.ext
  match a with
  | ⟨0, _⟩ => show win1_3.index t (0 : Fin 2) * 1024 + 1 * e.val = e.val; omega
  | ⟨1, _⟩ => show win1_3.index t (1 : Fin 2) * 1024 + 1 * j.val = j.val; omega

/-- The second bias's window shows the whole row at every point. -/
theorem iblk1_4_at (c : Dev nD) (t : Fin cfg1.N) (e : Fin 1024) :
    iblk1 V c 4 t (ix2 (0 : Fin 1) e) = V c main_v28 (ix2 (0 : Fin 1) e) := by
  show V c main_v28 (((cfg1.win 4).blk t).view.emb (ix2 (0 : Fin 1) e)) = _
  refine congrArg (V c main_v28) ?_
  obtain ⟨-, -, -, -, ⟨e0, e1⟩, -⟩ := idx1 t
  funext a; apply Fin.ext
  match a with
  | ⟨0, _⟩ => show win1_4.index t (0 : Fin 2) * 1 + 1 * 0 = 0; omega
  | ⟨1, _⟩ => show win1_4.index t (1 : Fin 2) * 1024 + 1 * e.val = e.val; omega

/-- Where the output block's entry (0, r, e) of point t sits in the array. -/
theorem emb1_5 (t : Fin cfg1.N) (r : Fin 512) (e : Fin 1024) :
    ((cfg1.win 5).blk t).view.emb (ix3 (0 : Fin 1) r e)
      = ix3 (⟨t.val / 4, by have := tlt1 t; omega⟩ : Fin 2) (⟨t.val % 4 * 512 + r.val, by have := tlt1 t; omega⟩ : Fin 2048) e := by
  obtain ⟨-, -, -, -, -, ⟨e0, e1, e2⟩⟩ := idx1 t
  funext a; apply Fin.ext
  match a with
  | ⟨0, _⟩ => show win1_5.index t (0 : Fin 3) * 1 + 1 * 0 = t.val / 4; omega
  | ⟨1, _⟩ => show win1_5.index t (1 : Fin 3) * 512 + 1 * r.val = t.val % 4 * 512 + r.val; omega
  | ⟨2, _⟩ => show win1_5.index t (2 : Fin 3) * 1024 + 1 * e.val = e.val; omega

variable (P : Fin 2 → Fin 2048 → Fin 3072 → EReal) (wf : (⟨2, ![1024, 1024]⟩ : Shape).Idx → EReal)
  (bf : (⟨1, ![1024]⟩ : Shape).Idx → EReal)

/-- Entry (b, s, e) of the layer's result: the merged heads of token (b, s) against row e of the second weight,
    plus the second bias. -/
def G1 : S2x2048x1024.Idx → EReal := fun i =>
  (∑ j : Fin 1024, Cert.Attn.merged P (i 0) (i 1) j * wf (ix2 (i 2) j)) + bf (ix1 (i 2))

/-- Column 64 h + d of the first plane is the query coordinate d of head h. -/
theorem feat_q (h : Fin 16) (d : Fin 64) :
    Cert.Attn.feat (⟨((64 * h.val + d.val) % 1024) / 64, by omega⟩ : Fin 16) (⟨(64 * h.val + d.val) / 1024, by omega⟩ : Fin 3)
      (⟨(64 * h.val + d.val) % 64, by omega⟩ : Fin 64) = Cert.Attn.feat h 0 d := by
  refine Fin.ext ?_
  show ((64 * h.val + d.val) % 1024) / 64 * 192 + (64 * h.val + d.val) / 1024 * 64 + (64 * h.val + d.val) % 64 = h.val * 192 + 0 * 64 + d.val
  omega

/-- Column 1024 + 64 h + d, of the second plane, is the key coordinate d of head h. -/
theorem feat_k (h : Fin 16) (d : Fin 64) :
    Cert.Attn.feat (⟨((1024 + (64 * h.val + d.val)) % 1024) / 64, by omega⟩ : Fin 16) (⟨(1024 + (64 * h.val + d.val)) / 1024, by omega⟩ : Fin 3)
      (⟨(1024 + (64 * h.val + d.val)) % 64, by omega⟩ : Fin 64) = Cert.Attn.feat h 1 d := by
  refine Fin.ext ?_
  show ((1024 + (64 * h.val + d.val)) % 1024) / 64 * 192 + (1024 + (64 * h.val + d.val)) / 1024 * 64 + (1024 + (64 * h.val + d.val)) % 64 = h.val * 192 + 1 * 64 + d.val
  omega

/-- Column 2048 + 64 h + d, of the third plane, is the value coordinate d of head h. -/
theorem feat_v (h : Fin 16) (d : Fin 64) :
    Cert.Attn.feat (⟨((2048 + (64 * h.val + d.val)) % 1024) / 64, by omega⟩ : Fin 16) (⟨(2048 + (64 * h.val + d.val)) / 1024, by omega⟩ : Fin 3)
      (⟨(2048 + (64 * h.val + d.val)) % 64, by omega⟩ : Fin 64) = Cert.Attn.feat h 2 d := by
  refine Fin.ext ?_
  show ((2048 + (64 * h.val + d.val)) % 1024) / 64 * 192 + (2048 + (64 * h.val + d.val)) / 1024 * 64 + (2048 + (64 * h.val + d.val)) % 64 = h.val * 192 + 2 * 64 + d.val
  omega

/-- What point t writes back is block t of the layer's result. -/
theorem flushed1_5_eq (c : Dev nD)
    (hq : ∀ (b : Fin 2) (s : Fin 2048) (cc : Fin 3072), V c main_v27 (ix3 b s cc) = P b s (Cert.Attn.feat ⟨(cc.val % 1024) / 64, by omega⟩ ⟨cc.val / 1024, by omega⟩ ⟨cc.val % 64, by omega⟩))
    (hw : ∀ e j : Fin 1024, V c main_v23 (ix2 e j) = wf (ix2 e j)) (hb : ∀ e : Fin 1024, V c main_v28 (ix2 (0 : Fin 1) e) = bf (ix1 e))
    (t : Fin cfg1.N) :
    (dat1 V c).flushed 5 t = ((cfg1.win 5).blk t).view.read (Elt Ideal) (G1 P wf bf) := by
  show (cfg1.win 5).cut (grid1.coords t) ((dat1 V c).after 5 t) = _
  rw [after1_5]
  funext j
  obtain ⟨u, r, e, rfl⟩ : ∃ (u : Fin 1) (r : Fin 512) (e : Fin 1024), j = ix3 u r e := ⟨j 0, j 1, j 2, eq_ix3 j⟩
  obtain rfl : u = 0 := Subsingleton.elim _ _
  show out1_5 (iblk1 V c 0 t) (iblk1 V c 1 t) (iblk1 V c 2 t) (iblk1 V c 3 t) (iblk1 V c 4 t) (ix3 (0 : Fin 1) r e)
    = G1 P wf bf (((cfg1.win 5).blk t).view.emb (ix3 (0 : Fin 1) r e))
  refine (out1_5_apply (iblk1 V c 0 t) (iblk1 V c 1 t) (iblk1 V c 2 t) (iblk1 V c 3 t) (iblk1 V c 4 t) r e).trans ?_
  rw [emb1_5 t r e]
  have ht := tlt1 t
  refine Cert.Attn.Glue.out_eq P (⟨t.val / 4, by omega⟩ : Fin 2) (⟨t.val % 4 * 512 + r.val, by omega⟩ : Fin 2048) r
    (iblk1 V c 0 t) (iblk1 V c 1 t) (iblk1 V c 2 t) ?_ ?_ ?_ (iblk1 V c 3 t) (iblk1 V c 4 t) wf bf e ?_ ?_
  · intro h d
    rw [iblk1_0_at V c t r, hq]
    exact congrArg _ (feat_q h d)
  · intro k h d
    rw [iblk1_1_at V c t k, hq]
    exact congrArg _ (feat_k h d)
  · intro k h d
    rw [iblk1_2_at V c t k, hq]
    exact congrArg _ (feat_v h d)
  · intro j
    rw [iblk1_3_at V c t e j, hw]
  · rw [iblk1_4_at V c t e, hb]

/-- An index of the array is in point t's block iff each coordinate is within the block's extent on its axis. -/
theorem mem_blk1_5 (t : Fin cfg1.N) (i : S2x2048x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v29).slice (win1_5.rect t)).set ↔ _
  rw [View.set_slice_whole, Rect.mem_set_unit]
  exact Iff.rfl

/-- The eight blocks cover the array: entry (b, s, e) is in the block of point 4 b + s / 512. -/
theorem cover1_5 (i : S2x2048x1024.Idx) : ∃ t : Fin cfg1.N, (cfg1.win 5).flush t = true ∧ i ∈ ((cfg1.win 5).blk t).view.set := by
  have hi0 : (i 0).val < 2 := (i 0).isLt
  have hi1 : (i 1).val < 2048 := (i 1).isLt
  have hi2 : (i 2).val < 1024 := (i 2).isLt
  have hN : cfg1.N = 8 := N_1
  refine ⟨⟨(i 0).val * 4 + (i 1).val / 512, by omega⟩, flush1_5 _, ?_⟩
  rw [mem_blk1_5]
  obtain ⟨-, -, -, -, -, ⟨e0, e1, e2⟩⟩ := idx1 ⟨(i 0).val * 4 + (i 1).val / 512, by omega⟩
  intro a
  match a with
  | ⟨0, _⟩ => show win1_5.index _ (0 : Fin 3) * 1 ≤ (i 0).val ∧ (i 0).val < win1_5.index _ (0 : Fin 3) * 1 + 1; rw [e0]; show ((i 0).val * 4 + (i 1).val / 512) / 4 * 1 ≤ _ ∧ _ < ((i 0).val * 4 + (i 1).val / 512) / 4 * 1 + 1; omega
  | ⟨1, _⟩ => show win1_5.index _ (1 : Fin 3) * 512 ≤ (i 1).val ∧ (i 1).val < win1_5.index _ (1 : Fin 3) * 512 + 512; rw [e1]; show ((i 0).val * 4 + (i 1).val / 512) % 4 * 512 ≤ _ ∧ _ < ((i 0).val * 4 + (i 1).val / 512) % 4 * 512 + 512; omega
  | ⟨2, _⟩ => show win1_5.index _ (2 : Fin 3) * 1024 ≤ (i 2).val ∧ (i 2).val < win1_5.index _ (2 : Fin 3) * 1024 + 1024; rw [e2]; omega

/-- The layer's result array after the call. -/
theorem final1 (c : Dev nD)
    (hq : ∀ (b : Fin 2) (s : Fin 2048) (cc : Fin 3072), V c main_v27 (ix3 b s cc) = P b s (Cert.Attn.feat ⟨(cc.val % 1024) / 64, by omega⟩ ⟨cc.val / 1024, by omega⟩ ⟨cc.val % 64, by omega⟩))
    (hw : ∀ e j : Fin 1024, V c main_v23 (ix2 e j) = wf (ix2 e j)) (hb : ∀ e : Fin 1024, V c main_v28 (ix2 (0 : Fin 1) e) = bf (ix1 e)) :
    (dat1 V c).arrAt 5 cfg1.N = fun i => (∑ j : Fin 1024, Cert.Attn.merged P (i 0) (i 1) j * wf (ix2 (i 2) j)) + bf (ix1 (i 2)) :=
  (dat1 V c).arrAt_eq_of_cover 5 (G1 P wf bf) (fun t _ => flushed1_5_eq V P wf bf c hq hw hb t) cover1_5

end Cert.Attn.Blocks

end
-- ==== Proof.lean ====
/-
  The kernel program against its reference: a multi-head attention layer.

  Both programs compute, at every (batch, token, feature), the function `Cert.Attn.out` of the five argument
  arrays (Proof/Spec.lean): the tokens are projected to queries, keys and values per head, each head's scores
  (query · key / 8) go through a softmax over the key tokens and weight the values, and the heads' results, side
  by side, are projected once more.

  The reference does this with whole-array operations; read stage by stage at coordinates it is `out`
  (Proof/RefSide.lean). The kernel program first re-lays the fused weight and bias into three planes (queries | keys |
  values, heads side by side in each: Proof/HostSide.lean), then runs two grid kernels. The first projects 1024 tokens
  per grid point against the whole plane (its four blocks tile the projected array: Proof/Value0.lean). The second, per
  batch and per 512 query tokens, reads the projected array through three windows — the query rows, and the key and
  value column planes of the batch —, computes the sixteen heads one after the other into a scratch buffer and projects
  the scratch (Proof/KI/HeadMath.lean reads this arithmetic at coordinates; Proof/Value1.lean tiles the eight blocks into
  the result array; Proof/Glue.lean matches the blockwise sums with the layer's). Multiplying by 1/8 is dividing by 8
  on every extended real, and a sum is the same sum over any equivalent index set, so no finiteness is needed: the
  precondition is never opened.

  That each kernel program runs to its end without a fault and leaves the arguments unchanged (Proof/K, Proof/KI: the
  same text at the word-level and at the ideal instance) is the pipeline library's run over the program's four
  stretches (host operations, first call, host operations, second call), each call's body run symbolically on its
  staging buffers. The three windows of the second call that show ONE array hold it at three shares of the whole.
-/
import proofs.«106968_j70755291234837_2_alg».proof.Defs
import proofs.«106968_j70755291234837_2_alg».proof.Proof.Gen.Kernel
import proofs.«106968_j70755291234837_2_alg».proof.Proof.Gen.KernelIdeal
import proofs.«106968_j70755291234837_2_alg».proof.Proof.Gen.ReferenceIdeal
import proofs.«106968_j70755291234837_2_alg».proof.Proof.Gen.Pre_finite_inputs
import proofs.«106968_j70755291234837_2_alg».proof.Proof.Gen.ReferenceIdeal.Run
import proofs.«106968_j70755291234837_2_alg».proof.Proof.Gen.ReferenceIdeal.Read
import proofs.«106968_j70755291234837_2_alg».proof.Proof.K.Frame
import proofs.«106968_j70755291234837_2_alg».proof.Proof.KI.Frame
import proofs.«106968_j70755291234837_2_alg».proof.Proof.RefSide
import proofs.«106968_j70755291234837_2_alg».proof.Proof.Entry
import proofs.«106968_j70755291234837_2_alg».proof.Proof.Value1
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.Attn.RefSide.run m ρ)

/-- The ideal pass rewrote nothing in the kernel program. -/
theorem preserves : Cert.preserves_Kernel_KernelIdeal := trivial

/-- The kernel program's result array after its run, at the ideal instance: the layer's function of the arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Hand.dat1 (Cert.KernelIdeal.Hand.Vl3 m ρ) c).arrAt 5 Cert.KernelIdeal.cfg1.N
      = Cert.Attn.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) :=
  Cert.Attn.Blocks.final1 (Cert.KernelIdeal.Hand.Vl3 m ρ)
    (Cert.Attn.proj (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) c
    (fun b s cc => Cert.Attn.Entry.hq m ρ c b s cc) (fun e j => Cert.Attn.Entry.hw m ρ c e j) (fun e => Cert.Attn.Entry.hb m ρ c e)

/-- From memories that agree on the arguments both idealized programs end with the result array at the layer's
    function of the arguments. -/
theorem algebraic : Cert.algebraic_KernelIdeal_ReferenceIdeal := by
  intro m ρ m' ρ' _ hagree
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_value m ρ c), (h c).2⟩)
      (Cert.KernelIdeal.Hand.run_out (F := Ideal) m ρ)
  · refine (θ_run Cert.ReferenceIdeal.defs _ _).mono (fun r h c => ⟨?_, (h c).2⟩) (Cert.Attn.RefSide.run m' ρ')
    rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
